-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x32x128x64 : Shape := ⟨4, ![128, 32, 128, 64]⟩
abbrev S1x32x1x1 : Shape := ⟨4, ![1, 32, 1, 1]⟩
abbrev S_ : Shape := ⟨0, ![]⟩

class Facts : Prop where
  bcast_S_S128x32x128x64 : S_.BroadcastsInDim S128x32x128x64 (![] : Fin 0 → Fin S128x32x128x64.rank)
  reducesTo_S128x32x128x64_S_d0_1_2_3 : S128x32x128x64.ReducesTo [0, 1, 2, 3] S_
  h_S_ : 0 < S_.numel
  bcast_S_S1x32x1x1 : S_.BroadcastsInDim S1x32x1x1 (![] : Fin 0 → Fin S1x32x1x1.rank)
  reducesTo_S1x32x1x1_S_d0_1_2_3 : S1x32x1x1.ReducesTo [0, 1, 2, 3] S_

variable [Facts]

def fn {F : FTy → Type} [FloatOps F] (main_arg0 : FVec F S128x32x128x64 .f32) (main_arg1 : FVec F S1x32x1x1 .f32) (main_arg2 : FVec F S1x32x1x1 .f32) : IVec S_ 1 :=
  let main_v0 : FVec F S128x32x128x64 .f32 := Host.absf main_arg0
  let main_cst : FVec F S_ .f32 := constant S_ .f32 0x7F800000#32
  let main_v1 : FVec F S128x32x128x64 .f32 := broadcastInDim S128x32x128x64 ![] bcast_S_S128x32x128x64 main_cst
  let main_v2 : IVec S128x32x128x64 1 := cmpf .olt main_v0 main_v1
  let main_c : IVec S_ 1 := constantI S_ 1 1#1
  let main_v3 : IVec S_ 1 := (fun x v => Host.reduce IntOp.andi x v reducesTo_S128x32x128x64_S_d0_1_2_3 h_S_) main_v2 main_c
  let main_v4 : FVec F S1x32x1x1 .f32 := Host.absf main_arg1
  let main_cst_0 : FVec F S_ .f32 := constant S_ .f32 0x7F800000#32
  let main_v5 : FVec F S1x32x1x1 .f32 := broadcastInDim S1x32x1x1 ![] bcast_S_S1x32x1x1 main_cst_0
  let main_v6 : IVec S1x32x1x1 1 := cmpf .olt main_v4 main_v5
  let main_c_1 : IVec S_ 1 := constantI S_ 1 1#1
  let main_v7 : IVec S_ 1 := (fun x v => Host.reduce IntOp.andi x v reducesTo_S1x32x1x1_S_d0_1_2_3 h_S_) main_v6 main_c_1
  let main_v8 : IVec S_ 1 := andi main_v3 main_v7
  let main_v9 : FVec F S1x32x1x1 .f32 := Host.absf main_arg2
  let main_cst_2 : FVec F S_ .f32 := constant S_ .f32 0x7F800000#32
  let main_v10 : FVec F S1x32x1x1 .f32 := broadcastInDim S1x32x1x1 ![] bcast_S_S1x32x1x1 main_cst_2
  let main_v11 : IVec S1x32x1x1 1 := cmpf .olt main_v9 main_v10
  let main_c_3 : IVec S_ 1 := constantI S_ 1 1#1
  let main_v12 : IVec S_ 1 := (fun x v => Host.reduce IntOp.andi x v reducesTo_S1x32x1x1_S_d0_1_2_3 h_S_) main_v11 main_c_3
  let main_v13 : IVec S_ 1 := andi main_v8 main_v12
  main_v13
-- ==== Kernel.lean ====
abbrev S128x32x128x64 : Shape := ⟨4, ![128, 32, 128, 64]⟩
abbrev S1x32x1x1 : Shape := ⟨4, ![1, 32, 1, 1]⟩
abbrev S128x32x8192 : Shape := ⟨3, ![128, 32, 8192]⟩
abbrev S2x32x1 : Shape := ⟨3, ![2, 32, 1]⟩
abbrev S2x32x32 : Shape := ⟨3, ![2, 32, 32]⟩
abbrev S4x32x8192 : Shape := ⟨3, ![4, 32, 8192]⟩
abbrev S1x32x1 : Shape := ⟨3, ![1, 32, 1]⟩
abbrev S1x32x32 : Shape := ⟨3, ![1, 32, 32]⟩
abbrev S32x1 : Shape := ⟨2, ![32, 1]⟩
abbrev S32x32 : Shape := ⟨2, ![32, 32]⟩
abbrev S1x32x8192 : Shape := ⟨3, ![1, 32, 8192]⟩
abbrev S32x8192 : Shape := ⟨2, ![32, 8192]⟩
abbrev S32 : Shape := ⟨1, ![32]⟩
abbrev S_ : Shape := ⟨0, ![]⟩
abbrev S1x32 : Shape := ⟨2, ![1, 32]⟩

abbrev nBuf : Space → Nat
  | .hbm => 108
  | .vmem => 14
  | .smem => 0
  | _ => 0

abbrev bufTy : (tb : Table) → Fin (tcTables nBuf tb) → BufTy
  | .hbm, ⟨0, _⟩ => ⟨S128x32x128x64, .f32⟩
  | .hbm, ⟨1, _⟩ => ⟨S1x32x1x1, .f32⟩
  | .hbm, ⟨2, _⟩ => ⟨S1x32x1x1, .f32⟩
  | .hbm, ⟨3, _⟩ => ⟨S128x32x8192, .f32⟩
  | .hbm, ⟨4, _⟩ => ⟨S2x32x1, .f32⟩
  | .hbm, ⟨5, _⟩ => ⟨S2x32x32, .f32⟩
  | .hbm, ⟨6, _⟩ => ⟨S_, .f32⟩
  | .hbm, ⟨7, _⟩ => ⟨S32x1, .f32⟩
  | .hbm, ⟨8, _⟩ => ⟨S_, .f32⟩
  | .hbm, ⟨9, _⟩ => ⟨S32x32, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S32, .f32⟩
  | .hbm, ⟨14, _⟩ => ⟨S32x1, .f32⟩
  | .hbm, ⟨15, _⟩ => ⟨S1x32, .f32⟩
  | .hbm, ⟨16, _⟩ => ⟨S32x32, .f32⟩
  | .hbm, ⟨17, _⟩ => ⟨S32x32, .f32⟩
  | .hbm, ⟨18, _⟩ => ⟨S32x32, .f32⟩
  | .hbm, ⟨19, _⟩ => ⟨S_, .f32⟩
  | .hbm, ⟨20, _⟩ => ⟨S32x32, .f32⟩
  | .hbm, ⟨21, _⟩ => ⟨S32x32, .f32⟩
  | .hbm, ⟨22, _⟩ => ⟨S32x32, .f32⟩
  | .hbm, ⟨23, _⟩ => ⟨S_, .f32⟩
  | .hbm, ⟨24, _⟩ => ⟨S32x32, .f32⟩
  | .hbm, ⟨25, _⟩ => ⟨S32x32, .f32⟩
  | .hbm, ⟨26, _⟩ => ⟨S32x32, .i32⟩
  | .hbm, ⟨27, _⟩ => ⟨S32x32, .i32⟩
  | .hbm, ⟨28, _⟩ => ⟨S_, .i32⟩
  | .hbm, ⟨29, _⟩ => ⟨S32x32, .i32⟩
  | .hbm, ⟨30, _⟩ => ⟨S32x32, .i32⟩
  | .hbm, ⟨31, _⟩ => ⟨S32x32, .i1⟩
  | .hbm, ⟨32, _⟩ => ⟨S_, .f32⟩
  | .hbm, ⟨33, _⟩ => ⟨S32x32, .f32⟩
  | .hbm, ⟨34, _⟩ => ⟨S32x32, .f32⟩
  | .hbm, ⟨35, _⟩ => ⟨S_, .f32⟩
  | .hbm, ⟨36, _⟩ => ⟨S_, .f32⟩
  | .hbm, ⟨37, _⟩ => ⟨S32x32, .f32⟩
  | .hbm, ⟨38, _⟩ => ⟨S32x32, .f32⟩
  | .hbm, ⟨39, _⟩ => ⟨S32x32, .i32⟩
  | .hbm, ⟨40, _⟩ => ⟨S32x32, .i32⟩
  | .hbm, ⟨41, _⟩ => ⟨S_, .i32⟩
  | .hbm, ⟨42, _⟩ => ⟨S32x32, .i32⟩
  | .hbm, ⟨43, _⟩ => ⟨S32x32, .i32⟩
  | .hbm, ⟨44, _⟩ => ⟨S32x32, .i1⟩
  | .hbm, ⟨45, _⟩ => ⟨S32x32, .f32⟩
  | .hbm, ⟨46, _⟩ => ⟨S_, .f32⟩
  | .hbm, ⟨47, _⟩ => ⟨S32x32, .f32⟩
  | .hbm, ⟨48, _⟩ => ⟨S32x32, .f32⟩
  | .hbm, ⟨49, _⟩ => ⟨S32x32, .f32⟩
  | .hbm, ⟨50, _⟩ => ⟨S32x32, .f32⟩
  | .hbm, ⟨51, _⟩ => ⟨S32x32, .f32⟩
  | .hbm, ⟨52, _⟩ => ⟨S32x32, .f32⟩
  | .hbm, ⟨53, _⟩ => ⟨S_, .f32⟩
  | .hbm, ⟨54, _⟩ => ⟨S32x32, .f32⟩
  | .hbm, ⟨55, _⟩ => ⟨S32x32, .f32⟩
  | .hbm, ⟨56, _⟩ => ⟨S_, .f32⟩
  | .hbm, ⟨57, _⟩ => ⟨S32x32, .f32⟩
  | .hbm, ⟨58, _⟩ => ⟨S32x32, .f32⟩
  | .hbm, ⟨59, _⟩ => ⟨S32x32, .f32⟩
  | .hbm, ⟨60, _⟩ => ⟨S32x32, .f32⟩
  | .hbm, ⟨61, _⟩ => ⟨S32x32, .f32⟩
  | .hbm, ⟨62, _⟩ => ⟨S32x32, .f32⟩
  | .hbm, ⟨63, _⟩ => ⟨S_, .f32⟩
  | .hbm, ⟨64, _⟩ => ⟨S32x32, .f32⟩
  | .hbm, ⟨65, _⟩ => ⟨S32x32, .f32⟩
  | .hbm, ⟨66, _⟩ => ⟨S_, .f32⟩
  | .hbm, ⟨67, _⟩ => ⟨S32x32, .f32⟩
  | .hbm, ⟨68, _⟩ => ⟨S32x32, .f32⟩
  | .hbm, ⟨69, _⟩ => ⟨S32x32, .f32⟩
  | .hbm, ⟨70, _⟩ => ⟨S32x32, .f32⟩
  | .hbm, ⟨71, _⟩ => ⟨S32x32, .f32⟩
  | .hbm, ⟨72, _⟩ => ⟨S32x32, .f32⟩
  | .hbm, ⟨73, _⟩ => ⟨S_, .f32⟩
  | .hbm, ⟨74, _⟩ => ⟨S32x32, .f32⟩
  | .hbm, ⟨75, _⟩ => ⟨S32x32, .f32⟩
  | .hbm, ⟨76, _⟩ => ⟨S_, .f32⟩
  | .hbm, ⟨77, _⟩ => ⟨S32x32, .f32⟩
  | .hbm, ⟨78, _⟩ => ⟨S32x32, .f32⟩
  | .hbm, ⟨79, _⟩ => ⟨S32x32, .f32⟩
  | .hbm, ⟨80, _⟩ => ⟨S32x32, .f32⟩
  | .hbm, ⟨81, _⟩ => ⟨S32x32, .f32⟩
  | .hbm, ⟨82, _⟩ => ⟨S32x32, .f32⟩
  | .hbm, ⟨83, _⟩ => ⟨S_, .f32⟩
  | .hbm, ⟨84, _⟩ => ⟨S32x32, .f32⟩
  | .hbm, ⟨85, _⟩ => ⟨S32x32, .f32⟩
  | .hbm, ⟨86, _⟩ => ⟨S_, .f32⟩
  | .hbm, ⟨87, _⟩ => ⟨S32x32, .f32⟩
  | .hbm, ⟨88, _⟩ => ⟨S32x32, .f32⟩
  | .hbm, ⟨89, _⟩ => ⟨S32x32, .f32⟩
  | .hbm, ⟨90, _⟩ => ⟨S32x32, .f32⟩
  | .hbm, ⟨91, _⟩ => ⟨S32x32, .f32⟩
  | .hbm, ⟨92, _⟩ => ⟨S32x32, .f32⟩
  | .hbm, ⟨93, _⟩ => ⟨S_, .f32⟩
  | .hbm, ⟨94, _⟩ => ⟨S32x32, .f32⟩
  | .hbm, ⟨95, _⟩ => ⟨S32x32, .f32⟩
  | .hbm, ⟨96, _⟩ => ⟨S_, .f32⟩
  | .hbm, ⟨97, _⟩ => ⟨S32x32, .f32⟩
  | .hbm, ⟨98, _⟩ => ⟨S32x32, .f32⟩
  | .hbm, ⟨99, _⟩ => ⟨S32x32, .f32⟩
  | .hbm, ⟨100, _⟩ => ⟨S32x32, .f32⟩
  | .hbm, ⟨101, _⟩ => ⟨S_, .f32⟩
  | .hbm, ⟨102, _⟩ => ⟨S32x32, .f32⟩
  | .hbm, ⟨103, _⟩ => ⟨S32x32, .f32⟩
  | .hbm, ⟨104, _⟩ => ⟨S32x1, .f32⟩
  | .hbm, ⟨105, _⟩ => ⟨S32x1, .f32⟩
  | .hbm, ⟨106, _⟩ => ⟨S128x32x8192, .f32⟩
  | .hbm, ⟨107, _⟩ => ⟨S128x32x128x64, .f32⟩
  | .local _ .vmem, ⟨0, _⟩ => ⟨S4x32x8192, .f32⟩
  | .local _ .vmem, ⟨1, _⟩ => ⟨S4x32x8192, .f32⟩
  | .local _ .vmem, ⟨2, _⟩ => ⟨S1x32x1, .f32⟩
  | .local _ .vmem, ⟨3, _⟩ => ⟨S1x32x1, .f32⟩
  | .local _ .vmem, ⟨4, _⟩ => ⟨S1x32x32, .f32⟩
  | .local _ .vmem, ⟨5, _⟩ => ⟨S1x32x32, .f32⟩
  | .local _ .vmem, ⟨6, _⟩ => ⟨S4x32x8192, .f32⟩
  | .local _ .vmem, ⟨7, _⟩ => ⟨S4x32x8192, .f32⟩
  | .local _ .vmem, ⟨8, _⟩ => ⟨S32x1, .f32⟩
  | .local _ .vmem, ⟨9, _⟩ => ⟨S32x32, .f32⟩
  | .local _ .vmem, ⟨10, _⟩ => ⟨S32x1, .f32⟩
  | .local _ .vmem, ⟨11, _⟩ => ⟨S32x1, .f32⟩
  | .local _ .vmem, ⟨12, _⟩ => ⟨S4x32x8192, .f32⟩
  | .local _ .vmem, ⟨13, _⟩ => ⟨S4x32x8192, .f32⟩
  | _, _ => ⟨S128x32x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_c : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_cst : Ref sig .tc := ⟨.hbm, 32, rfl⟩
abbrev main_call0_v5 : Ref sig .tc := ⟨.hbm, 33, rfl⟩
abbrev main_call0_v6 : Ref sig .tc := ⟨.hbm, 34, rfl⟩
abbrev main_call0_cst_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x32x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4x32x8192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128x32x128x64_S128x32x8192 : S128x32x128x64.ShapeCasts S128x32x8192
  inb_S4x32x8192_S1x32x8192_0_0_0 : ∀ a, (![0, 0, 0] : Fin 3 → Nat) a + S1x32x8192.size a ≤ S4x32x8192.size a
  h_S1x32x8192 : 0 < S1x32x8192.numel
  shapeCasts_S1x32x8192_S32x8192 : S1x32x8192.ShapeCasts S32x8192
  reduces_S32x8192_S32 : S32x8192.Reduces [1] S32
  shapeCasts_S32_S32x1 : S32.ShapeCasts S32x1
  inb_S4x32x8192_S1x32x8192_1_0_0 : ∀ a, (![1, 0, 0] : Fin 3 → Nat) a + S1x32x8192.size a ≤ S4x32x8192.size a
  inb_S4x32x8192_S1x32x8192_2_0_0 : ∀ a, (![2, 0, 0] : Fin 3 → Nat) a + S1x32x8192.size a ≤ S4x32x8192.size a
  inb_S4x32x8192_S1x32x8192_3_0_0 : ∀ a, (![3, 0, 0] : Fin 3 → Nat) a + S1x32x8192.size a ≤ S4x32x8192.size a
  inb_S1x32x1_S1x32x1_0_0_0 : ∀ a, (![0, 0, 0] : Fin 3 → Nat) a + S1x32x1.size a ≤ S1x32x1.size a
  h_S1x32x1 : 0 < S1x32x1.numel
  inb_S1x32x32_S1x32x32_0_0_0 : ∀ a, (![0, 0, 0] : Fin 3 → Nat) a + S1x32x32.size a ≤ S1x32x32.size a
  h_S1x32x32 : 0 < S1x32x32.numel
  shapeCasts_S1x32x1_S1x32x1 : S1x32x1.ShapeCasts S1x32x1
  shapeCasts_S32x1_S1x32x1 : S32x1.ShapeCasts S1x32x1
  shapeCasts_S1x32x32_S1x32x32 : S1x32x32.ShapeCasts S1x32x32
  shapeCasts_S32x32_S1x32x32 : S32x32.ShapeCasts S1x32x32
  reducesTo_S2x32x1_S32x1_d0 : S2x32x1.ReducesTo [0] S32x1
  h_S_ : 0 < S_.numel
  reducesTo_S2x32x32_S32x32_d0 : S2x32x32.ReducesTo [0] S32x32
  bcast_S_S32x1 : S_.BroadcastsInDim S32x1 (![] : Fin 0 → Fin S32x1.rank)
  shapeCasts_S32x1_S32 : S32x1.ShapeCasts S32
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  reducesTo_S32x32_S_d0_1 : S32x32.ReducesTo [0, 1] S_
  transposes_S32x32_S32x32_1_0 : S32x32.Transposes [1, 0] S32x32
  shapeCasts_S1x32x1x1_S32x1 : S1x32x1x1.ShapeCasts S32x1
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x32_S32x32_0_0 : ∀ a, (![0, 0] : Fin 2 → Nat) a + S32x32.size a ≤ S32x32.size a
  h_S32x32 : 0 < S32x32.numel
  shapeCasts_S32x32_S32x32 : S32x32.ShapeCasts S32x32
  bitsLt_bf16_f32 : FTy.bits .bf16 < FTy.bits .f32
  broadcasts_S32x1_S32x8192 : S32x1.Broadcasts S32x8192
  shapeCasts_S32x8192_S1x32x8192 : S32x8192.ShapeCasts S1x32x8192
  shapeCasts_S128x32x8192_S128x32x128x64 : S128x32x8192.ShapeCasts S128x32x128x64
  dot_S32x8192_S32x8192_S32x32_1_1_0_0_n_n_wf : DotDims.WF S32x8192 S32x8192 S32x32 [1] [1] [0] [0] [] []
  dot_S32x32_S32x32_S32x32_1_0_0_1_n_n_wf : DotDims.WF S32x32 S32x32 S32x32 [1] [0] [0] [1] [] []
  dot_S32x32_S32x8192_S32x8192_1_0_0_1_n_n_wf : DotDims.WF S32x32 S32x8192 S32x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x32x8192.size a ≤ S128x32x8192.size a
  hwx0_0 : ∀ i : grid0.Coords, EltTy.bits .f32 = 32 ∨ (Rect.block (s := S128x32x8192) S4x32x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x1.size a ≤ S2x32x1.size a
  hwx0_1 : ∀ i : grid0.Coords, EltTy.bits .f32 = 32 ∨ (Rect.block (s := S2x32x1) S1x32x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x32.size a ≤ S2x32x32.size a
  hwx0_2 : ∀ i : grid0.Coords, EltTy.bits .f32 = 32 ∨ (Rect.block (s := S2x32x32) S1x32x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x32x8192.size a ≤ S128x32x8192.size a
  hwx1_0 : ∀ i : grid1.Coords, EltTy.bits .f32 = 32 ∨ (Rect.block (s := S128x32x8192) S4x32x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S32x1.size a
  hwx1_1 : ∀ i : grid1.Coords, EltTy.bits .f32 = 32 ∨ (Rect.block (s := S32x1) S32x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x1.size a ≤ S32x1.size a
  hwx1_3 : ∀ i : grid1.Coords, EltTy.bits .f32 = 32 ∨ (Rect.block (s := S32x1) S32x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1.size a ≤ S32x1.size a
  hwx1_4 : ∀ i : grid1.Coords, EltTy.bits .f32 = 32 ∨ (Rect.block (s := S32x1) S32x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x32x8192.size a ≤ S128x32x8192.size a
  hwx1_5 : ∀ i : grid1.Coords, EltTy.bits .f32 = 32 ∨ (Rect.block (s := S128x32x8192) S4x32x8192.size (cc1_transform_5 i) (hinb1_5 i)).WholeWords (EltTy.packing .f32)

variable [Facts₀]

def dot_S32x8192_S32x8192_S32x32_1_1_0_0_n_n : DotDims S32x8192 S32x8192 S32x32 where
  lhsContracting := [1]
  rhsContracting := [1]
  lhsNonContracting := [0]
  rhsNonContracting := [0]
  lhsBatch := []
  rhsBatch := []
  wf := dot_S32x8192_S32x8192_S32x32_1_1_0_0_n_n_wf
def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf
def dot_S32x32_S32x8192_S32x8192_1_0_0_1_n_n : DotDims S32x32 S32x8192 S32x8192 where
  lhsContracting := [1]
  rhsContracting := [0]
  lhsNonContracting := [0]
  rhsNonContracting := [1]
  lhsBatch := []
  rhsBatch := []
  wf := dot_S32x32_S32x8192_S32x8192_1_0_0_1_n_n_wf

abbrev win0_0 : Pipeline.Window sig grid0 :=
  Pipeline.Window.ofSpec (Memref.whole main_v0) S4x32x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x32x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x32x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S4x32x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S32x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v72) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v73) S32x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v74) S32x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v75) S4x32x8192.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S128x32x128x64 : Shape := ⟨4, ![128, 32, 128, 64]⟩
abbrev S1x32x1x1 : Shape := ⟨4, ![1, 32, 1, 1]⟩
abbrev S_ : Shape := ⟨0, ![]⟩
abbrev S32 : Shape := ⟨1, ![32]⟩
abbrev S128x128x64x32 : Shape := ⟨4, ![128, 128, 64, 32]⟩
abbrev S1048576x32 : Shape := ⟨2, ![1048576, 32]⟩
abbrev S32x1048576 : Shape := ⟨2, ![32, 1048576]⟩
abbrev S32x32 : Shape := ⟨2, ![32, 32]⟩

abbrev nBuf : Space → Nat
  | .hbm => 100
  | .vmem => 0
  | .smem => 0
  | _ => 0

abbrev bufTy : (tb : Table) → Fin (tcTables nBuf tb) → BufTy
  | .hbm, ⟨0, _⟩ => ⟨S128x32x128x64, .f32⟩
  | .hbm, ⟨1, _⟩ => ⟨S1x32x1x1, .f32⟩
  | .hbm, ⟨2, _⟩ => ⟨S1x32x1x1, .f32⟩
  | .hbm, ⟨3, _⟩ => ⟨S_, .f32⟩
  | .hbm, ⟨4, _⟩ => ⟨S32, .f32⟩
  | .hbm, ⟨5, _⟩ => ⟨S1x32x1x1, .f32⟩
  | .hbm, ⟨6, _⟩ => ⟨S_, .f32⟩
  | .hbm, ⟨7, _⟩ => ⟨S1x32x1x1, .f32⟩
  | .hbm, ⟨8, _⟩ => ⟨S1x32x1x1, .f32⟩
  | .hbm, ⟨9, _⟩ => ⟨S128x32x128x64, .f32⟩
  | .hbm, ⟨10, _⟩ => ⟨S128x32x128x64, .f32⟩
  | .hbm, ⟨11, _⟩ => ⟨S128x128x64x32, .f32⟩
  | .hbm, ⟨12, _⟩ => ⟨S1048576x32, .f32⟩
  | .hbm, ⟨13, _⟩ => ⟨S32x1048576, .f32⟩
  | .hbm, ⟨14, _⟩ => ⟨S32x32, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S32x32, .f32⟩
  | .hbm, ⟨19, _⟩ => ⟨S32x32, .f32⟩
  | .hbm, ⟨20, _⟩ => ⟨S32x32, .i32⟩
  | .hbm, ⟨21, _⟩ => ⟨S32x32, .i32⟩
  | .hbm, ⟨22, _⟩ => ⟨S_, .i32⟩
  | .hbm, ⟨23, _⟩ => ⟨S32x32, .i32⟩
  | .hbm, ⟨24, _⟩ => ⟨S32x32, .i32⟩
  | .hbm, ⟨25, _⟩ => ⟨S32x32, .i1⟩
  | .hbm, ⟨26, _⟩ => ⟨S_, .f32⟩
  | .hbm, ⟨27, _⟩ => ⟨S32x32, .f32⟩
  | .hbm, ⟨28, _⟩ => ⟨S32x32, .f32⟩
  | .hbm, ⟨29, _⟩ => ⟨S_, .f32⟩
  | .hbm, ⟨30, _⟩ => ⟨S_, .f32⟩
  | .hbm, ⟨31, _⟩ => ⟨S32x32, .f32⟩
  | .hbm, ⟨32, _⟩ => ⟨S32x32, .f32⟩
  | .hbm, ⟨33, _⟩ => ⟨S32x32, .i32⟩
  | .hbm, ⟨34, _⟩ => ⟨S32x32, .i32⟩
  | .hbm, ⟨35, _⟩ => ⟨S_, .i32⟩
  | .hbm, ⟨36, _⟩ => ⟨S32x32, .i32⟩
  | .hbm, ⟨37, _⟩ => ⟨S32x32, .i32⟩
  | .hbm, ⟨38, _⟩ => ⟨S32x32, .i1⟩
  | .hbm, ⟨39, _⟩ => ⟨S32x32, .f32⟩
  | .hbm, ⟨40, _⟩ => ⟨S_, .f32⟩
  | .hbm, ⟨41, _⟩ => ⟨S32x32, .f32⟩
  | .hbm, ⟨42, _⟩ => ⟨S32x32, .f32⟩
  | .hbm, ⟨43, _⟩ => ⟨S32x32, .f32⟩
  | .hbm, ⟨44, _⟩ => ⟨S32x32, .f32⟩
  | .hbm, ⟨45, _⟩ => ⟨S32x32, .f32⟩
  | .hbm, ⟨46, _⟩ => ⟨S32x32, .f32⟩
  | .hbm, ⟨47, _⟩ => ⟨S_, .f32⟩
  | .hbm, ⟨48, _⟩ => ⟨S32x32, .f32⟩
  | .hbm, ⟨49, _⟩ => ⟨S32x32, .f32⟩
  | .hbm, ⟨50, _⟩ => ⟨S_, .f32⟩
  | .hbm, ⟨51, _⟩ => ⟨S32x32, .f32⟩
  | .hbm, ⟨52, _⟩ => ⟨S32x32, .f32⟩
  | .hbm, ⟨53, _⟩ => ⟨S32x32, .f32⟩
  | .hbm, ⟨54, _⟩ => ⟨S32x32, .f32⟩
  | .hbm, ⟨55, _⟩ => ⟨S32x32, .f32⟩
  | .hbm, ⟨56, _⟩ => ⟨S32x32, .f32⟩
  | .hbm, ⟨57, _⟩ => ⟨S_, .f32⟩
  | .hbm, ⟨58, _⟩ => ⟨S32x32, .f32⟩
  | .hbm, ⟨59, _⟩ => ⟨S32x32, .f32⟩
  | .hbm, ⟨60, _⟩ => ⟨S_, .f32⟩
  | .hbm, ⟨61, _⟩ => ⟨S32x32, .f32⟩
  | .hbm, ⟨62, _⟩ => ⟨S32x32, .f32⟩
  | .hbm, ⟨63, _⟩ => ⟨S32x32, .f32⟩
  | .hbm, ⟨64, _⟩ => ⟨S32x32, .f32⟩
  | .hbm, ⟨65, _⟩ => ⟨S32x32, .f32⟩
  | .hbm, ⟨66, _⟩ => ⟨S32x32, .f32⟩
  | .hbm, ⟨67, _⟩ => ⟨S_, .f32⟩
  | .hbm, ⟨68, _⟩ => ⟨S32x32, .f32⟩
  | .hbm, ⟨69, _⟩ => ⟨S32x32, .f32⟩
  | .hbm, ⟨70, _⟩ => ⟨S_, .f32⟩
  | .hbm, ⟨71, _⟩ => ⟨S32x32, .f32⟩
  | .hbm, ⟨72, _⟩ => ⟨S32x32, .f32⟩
  | .hbm, ⟨73, _⟩ => ⟨S32x32, .f32⟩
  | .hbm, ⟨74, _⟩ => ⟨S32x32, .f32⟩
  | .hbm, ⟨75, _⟩ => ⟨S32x32, .f32⟩
  | .hbm, ⟨76, _⟩ => ⟨S32x32, .f32⟩
  | .hbm, ⟨77, _⟩ => ⟨S_, .f32⟩
  | .hbm, ⟨78, _⟩ => ⟨S32x32, .f32⟩
  | .hbm, ⟨79, _⟩ => ⟨S32x32, .f32⟩
  | .hbm, ⟨80, _⟩ => ⟨S_, .f32⟩
  | .hbm, ⟨81, _⟩ => ⟨S32x32, .f32⟩
  | .hbm, ⟨82, _⟩ => ⟨S32x32, .f32⟩
  | .hbm, ⟨83, _⟩ => ⟨S32x32, .f32⟩
  | .hbm, ⟨84, _⟩ => ⟨S32x32, .f32⟩
  | .hbm, ⟨85, _⟩ => ⟨S32x32, .f32⟩
  | .hbm, ⟨86, _⟩ => ⟨S32x32, .f32⟩
  | .hbm, ⟨87, _⟩ => ⟨S_, .f32⟩
  | .hbm, ⟨88, _⟩ => ⟨S32x32, .f32⟩
  | .hbm, ⟨89, _⟩ => ⟨S32x32, .f32⟩
  | .hbm, ⟨90, _⟩ => ⟨S_, .f32⟩
  | .hbm, ⟨91, _⟩ => ⟨S32x32, .f32⟩
  | .hbm, ⟨92, _⟩ => ⟨S32x32, .f32⟩
  | .hbm, ⟨93, _⟩ => ⟨S1048576x32, .f32⟩
  | .hbm, ⟨94, _⟩ => ⟨S128x128x64x32, .f32⟩
  | .hbm, ⟨95, _⟩ => ⟨S128x32x128x64, .f32⟩
  | .hbm, ⟨96, _⟩ => ⟨S128x32x128x64, .f32⟩
  | .hbm, ⟨97, _⟩ => ⟨S128x32x128x64, .f32⟩
  | .hbm, ⟨98, _⟩ => ⟨S128x32x128x64, .f32⟩
  | .hbm, ⟨99, _⟩ => ⟨S128x32x128x64, .f32⟩
  | _, _ => ⟨S128x32x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_c : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_cst : Ref sig .tc := ⟨.hbm, 26, rfl⟩
abbrev main_call0_v5 : Ref sig .tc := ⟨.hbm, 27, rfl⟩
abbrev main_call0_v6 : Ref sig .tc := ⟨.hbm, 28, rfl⟩
abbrev main_call0_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]

class Facts₀ : Prop where
  reducesTo_S128x32x128x64_S32_d0_2_3 : S128x32x128x64.ReducesTo [0, 2, 3] S32
  h_S_ : 0 < S_.numel
  bcast_S32_S1x32x1x1_1 : S32.BroadcastsInDim S1x32x1x1 (![1] : Fin 1 → Fin S1x32x1x1.rank)
  bcast_S_S1x32x1x1 : S_.BroadcastsInDim S1x32x1x1 (![] : Fin 0 → Fin S1x32x1x1.rank)
  bcast_S1x32x1x1_S128x32x128x64_0_1_2_3 : S1x32x1x1.BroadcastsInDim S128x32x128x64 (![0, 1, 2, 3] : Fin 4 → Fin S128x32x128x64.rank)
  transposes_S128x32x128x64_S128x128x64x32_0_2_3_1 : S128x32x128x64.Transposes [0, 2, 3, 1] S128x128x64x32
  shapeCasts_S128x128x64x32_S1048576x32 : S128x128x64x32.ShapeCasts S1048576x32
  transposes_S1048576x32_S32x1048576_1_0 : S1048576x32.Transposes [1, 0] S32x1048576
  bcast_S_S32x32 : S_.BroadcastsInDim S32x32 (![] : Fin 0 → Fin S32x32.rank)
  reducesTo_S32x32_S_d0_1 : S32x32.ReducesTo [0, 1] S_
  shapeCasts_S1048576x32_S128x128x64x32 : S1048576x32.ShapeCasts S128x128x64x32
  transposes_S128x128x64x32_S128x32x128x64_0_3_1_2 : S128x128x64x32.Transposes [0, 3, 1, 2] S128x32x128x64
  dot_S32x1048576_S1048576x32_S32x32_1_0_0_1_n_n_wf : DotDims.WF S32x1048576 S1048576x32 S32x32 [1] [0] [0] [1] [] []
  dot_S32x32_S32x32_S32x32_1_0_0_1_n_n_wf : DotDims.WF S32x32 S32x32 S32x32 [1] [0] [0] [1] [] []
  dot_S1048576x32_S32x32_S1048576x32_1_0_0_1_n_n_wf : DotDims.WF S1048576x32 S32x32 S1048576x32 [1] [0] [0] [1] [] []

variable [Facts₀]

def dot_S32x1048576_S1048576x32_S32x32_1_0_0_1_n_n : DotDims S32x1048576 S1048576x32 S32x32 where
  lhsContracting := [1]
  rhsContracting := [0]
  lhsNonContracting := [0]
  rhsNonContracting := [1]
  lhsBatch := []
  rhsBatch := []
  wf := dot_S32x1048576_S1048576x32_S32x32_1_0_0_1_n_n_wf
def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf
def dot_S1048576x32_S32x32_S1048576x32_1_0_0_1_n_n : DotDims S1048576x32 S32x32 S1048576x32 where
  lhsContracting := [1]
  rhsContracting := [0]
  lhsNonContracting := [0]
  rhsNonContracting := [1]
  lhsBatch := []
  rhsBatch := []
  wf := dot_S1048576x32_S32x32_S1048576x32_1_0_0_1_n_n_wf

class Facts : Prop extends Facts₀ where

variable [Facts]
-- ==== Proof.KerRun.lean ====
/-
  The idealized kernel's run with its result named: every weakly fair execution of @main terminates, nothing
  faulting, and ends with the result array at the contents the last stretch of host operations leaves
  (the fold of @main's segments from the launch memory), the three argument arrays as launched.
-/
import proofs.«174776_j89060441849996_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over @main's seven segments, the final state read against the last boundary's contents: the result array
    holds what the fold leaves there, and each argument array its launch contents. -/
theorem run_result : θ_run defs (onTc (τ := τ) (main (F := F))) ⟨m, fun _ => 0, ρ⟩ (fun r => ∀ c : Dev nD,
      r.2.mem ((c.tc : Thread nD τ).loc main_v76) = W7 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v76 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.Gen

end
-- ==== Proof.Spec.lean ====
/-
  The mathematics of this certificate, stated once over plain coordinates and importing neither program.

  Input: an array x[b, i, co, a] (128 × 32 × 128 × 64), a scale γ[i] and a shift β[i].  Both programs whiten the 32
  channels i: they form the channel means over the other three axes, the 32 × 32 covariance Σ of the centred data
  (normalised by n − 1, n = 128·128·64 = 2^20), apply five Newton–Schulz steps to Σ / tr Σ and scale by (tr Σ)^(-1/2) to
  get P ≈ Σ^(-1/2), multiply the centred data by P along the channel axis, and finish with · γ + β.
  They differ in three places: the kernel accumulates Σ x and Σ x xᵀ block by block (two partial sums of 16 grid
  steps of 4 batch rows each) and forms Σ as (Σ x xᵀ − n μ μᵀ)/(n − 1), where the reference centres first; the kernel
  replaces P by ½ (P + Pᵀ); and the kernel multiplies P from the left where the reference multiplies from the right.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev S32x32 : Shape := ⟨2, ![32, 32]⟩
abbrev S_ : Shape := ⟨0, ![]⟩

/-- A 32 × 32 array of extended reals from its entries. -/
def toV (M : Fin 32 → Fin 32 → EReal) : FVec Ideal S32x32 .f32 := fun idx => M (idx 0) (idx 1)

theorem toV_ix2 (M : Fin 32 → Fin 32 → EReal) (i j : Fin 32) : toV M (ix2 i j) = M i j := rfl

/-- The matrix product record of the 32 × 32 products: rows of the left factor against columns of the right. -/
def dot32 (hwf : DotDims.WF S32x32 S32x32 S32x32 [1] [0] [0] [1] [] []) : DotDims S32x32 S32x32 S32x32 where
  lhsContracting := [1]
  rhsContracting := [0]
  lhsNonContracting := [0]
  rhsNonContracting := [1]
  lhsBatch := []
  rhsBatch := []
  wf := hwf

section NS
variable (hS : 0 < S_.numel) (hb : S_.BroadcastsInDim S32x32 (![] : Fin 0 → Fin S32x32.rank))
  (hr : S32x32.ReducesTo [0, 1] S_) (hwf : DotDims.WF S32x32 S32x32 S32x32 [1] [0] [0] [1] [] [])

/-- A scalar spread over the 32 × 32 array. -/
def spread (v : FVec Ideal S_ .f32) : FVec Ideal S32x32 .f32 := broadcastInDim S32x32 ![] hb v

/-- The 0/1 mask of the diagonal, as the programs compute it: row number + 0 = column number. -/
def diagMask : IVec S32x32 1 :=
  cmpi .eq (addi (iotaInDim S32x32 32 0) (broadcastInDim S32x32 ![] hb (constantI S_ 32 0#32))) (iotaInDim S32x32 32 1)

/-- The trace: the sum over all entries of the array with its off-diagonal entries replaced by 0. -/
def trace (s : FVec Ideal S32x32 .f32) : FVec Ideal S_ .f32 :=
  Host.reduceAdd (F := Ideal) (select (diagMask hb) s (spread hb (constant (F := Ideal) S_ .f32 0x00000000#32)))
    (constant (F := Ideal) S_ .f32 0x00000000#32) hr hS

/-- The identity matrix: the diagonal mask as a float. -/
def eye : FVec Ideal S32x32 .f32 := uitofp (F := Ideal) .f32 (diagMask hb)

/-- One Newton–Schulz step: p ↦ ½ (3 p − p p p s). -/
def nsStep (sn p : FVec Ideal S32x32 .f32) : FVec Ideal S32x32 .f32 :=
  mulf (spread hb (constant (F := Ideal) S_ .f32 0x3F000000#32))
    (subf (mulf (spread hb (constant (F := Ideal) S_ .f32 0x40400000#32)) p)
      (Host.dotGeneral (F := Ideal) (dot32 hwf) none
        (Host.dotGeneral (F := Ideal) (dot32 hwf) none (Host.dotGeneral (F := Ideal) (dot32 hwf) none p p) p) sn))

/-- The whitening matrix of a covariance s: five Newton–Schulz steps from the identity on s / tr s, scaled by
    (tr s)^(-1/2). -/
def NS (s : FVec Ideal S32x32 .f32) : FVec Ideal S32x32 .f32 :=
  mulf
    (nsStep hb hwf (Host.divf (F := Ideal) s (spread hb (trace hS hb hr s)))
      (nsStep hb hwf (Host.divf (F := Ideal) s (spread hb (trace hS hb hr s)))
        (nsStep hb hwf (Host.divf (F := Ideal) s (spread hb (trace hS hb hr s)))
          (nsStep hb hwf (Host.divf (F := Ideal) s (spread hb (trace hS hb hr s)))
            (nsStep hb hwf (Host.divf (F := Ideal) s (spread hb (trace hS hb hr s))) (eye hb))))))
    (spread hb (Host.rsqrt (F := Ideal) (trace hS hb hr s)))

end NS

/-! ## The two programs' results, entry by entry -/

/-- n = 2^20, the number of samples per channel. -/
abbrev NN : EReal := Ideal.ofBits .f32 0x49800000#32
/-- n − 1 as the kernel writes it. -/
abbrev N1 : EReal := Ideal.ofBits .f32 0x497FFFF0#32
abbrev ONE : EReal := Ideal.ofBits .f32 0x3F800000#32
abbrev HALF : EReal := Ideal.ofBits .f32 0x3F000000#32

/-- The batch row that core c, grid step s, sub-batch k reads: (16 c + s)·4 + k. -/
def brow (c : Fin 2) (s : Fin 16) (k : Fin 4) : Fin 128 := ⟨(c.val * 16 + s.val) * 4 + k.val, by omega⟩
/-- The flat position of (co, a) in the merged last axis: 64 co + a. -/
def flat (co : Fin 128) (a : Fin 64) : Fin 8192 := ⟨co.val * 64 + a.val, by omega⟩

/-- The input with its last two axes merged. -/
def merge (x : Fin 128 → Fin 32 → Fin 128 → Fin 64 → EReal) : Fin 128 → Fin 32 → Fin 8192 → EReal :=
  fun b i f => x b i ⟨f.val / 64, by omega⟩ ⟨f.val % 64, by omega⟩

section Kernel
variable (x : Fin 128 → Fin 32 → Fin 8192 → EReal)

/-- Core c's partial channel sums. -/
def partSum (c : Fin 2) (i : Fin 32) : EReal := ∑ s : Fin 16, ∑ k : Fin 4, ∑ f : Fin 8192, x (brow c s k) i f
/-- Core c's partial sums of products. -/
def partCp (c : Fin 2) (i j : Fin 32) : EReal :=
  ∑ s : Fin 16, ∑ k : Fin 4, ∑ f : Fin 8192, x (brow c s k) i f * x (brow c s k) j f
def meanK (i : Fin 32) : EReal := Ideal.div (partSum x 0 i + partSum x 1 i) NN
def sigmaK (i j : Fin 32) : EReal :=
  Ideal.div ((partCp x 0 i j + partCp x 1 i j) - NN * (meanK x i * meanK x j)) N1
end Kernel

section Ref
variable (x : Fin 128 → Fin 32 → Fin 128 → Fin 64 → EReal)
def meanR (i : Fin 32) : EReal := Ideal.div (∑ b : Fin 128, ∑ co : Fin 128, ∑ a : Fin 64, x b i co a) NN
def cen (b : Fin 128) (i : Fin 32) (co : Fin 128) (a : Fin 64) : EReal := x b i co a - meanR x i
def sigmaR (i j : Fin 32) : EReal :=
  Ideal.div (∑ b : Fin 128, ∑ co : Fin 128, ∑ a : Fin 64, cen x b i co a * cen x b j co a) (NN - ONE)
end Ref

section Out
variable (hS : 0 < S_.numel) (hb : S_.BroadcastsInDim S32x32 (![] : Fin 0 → Fin S32x32.rank))
  (hr : S32x32.ReducesTo [0, 1] S_) (hwf : DotDims.WF S32x32 S32x32 S32x32 [1] [0] [0] [1] [] [])

/-- The kernel's result at (b, i, f): the symmetrised whitening matrix times the centred column, then · γ + β. -/
def outK (x : Fin 128 → Fin 32 → Fin 8192 → EReal) (g β : Fin 32 → EReal) (b : Fin 128) (i : Fin 32) (f : Fin 8192) : EReal :=
  (∑ j : Fin 32, (HALF * (NS hS hb hr hwf (toV (sigmaK x)) (ix2 i j) + NS hS hb hr hwf (toV (sigmaK x)) (ix2 j i)))
      * (x b j f - meanK x j)) * g i + β i

/-- The reference's result at (b, i, co, a): the centred row times the whitening matrix, then · γ + β. -/
def outR (x : Fin 128 → Fin 32 → Fin 128 → Fin 64 → EReal) (g β : Fin 32 → EReal) (b : Fin 128) (i : Fin 32) (co : Fin 128) (a : Fin 64) : EReal :=
  (∑ j : Fin 32, cen x b j co a * NS hS hb hr hwf (toV (sigmaR x)) (ix2 j i)) * g i + β i

end Out

end Cert.Spec

end
-- ==== Proof.RefRunOps.lean ====
/-
  The run of the reference program, written out: @main as the list of its 97 host operations (the two outlined
  functions, the trace and its select, listed at the call over the call's buffers), in nine consecutive stretches,
  that @main is that list run in order, and the run itself: every buffer ends at the list's fold over the launch contents.
-/
import proofs.«174776_j89060441849996_2_alg».proof.Proof.Gen.ReferenceIdeal
import proofs.«174776_j89060441849996_2_alg».proof.Proof.Spec
import Idealize.ShloMosaic.Lib.StableHlo.Run
import Idealize.ShloMosaic.Lib.Pipeline.Frame

noncomputable section

namespace Cert.ReferenceIdeal.RefValue

open Cert.ReferenceIdeal Idealize.ShloMosaic Idealize.ShloMosaic.TcCoe Idealize.SL.Sem Idealize.ShloMosaic.StableHlo

variable [Facts]
open Facts₀ Facts

section Ops
variable {F : FTy → Type} [FloatOps F]

/-- The centred data flattened to n × 32 and its covariance: the channel sums, the means, x − mean, the transpose and the reshape, the 32 × 32 product over n, the division by n − 1. -/
abbrev w0 : List (HloOp τ sig (Elt F)) :=
  [ StableHlo.nullary main_cst (constant S_ .f32 0x00000000#32),
    StableHlo.binary main_arg0 main_cst main_v0 ((fun x v => Host.reduceAdd x v reducesTo_S128x32x128x64_S32_d0_2_3 h_S_) : (⟨S128x32x128x64, .f32⟩ : BufTy).Contents (Elt F) → (⟨S_, .f32⟩ : BufTy).Contents (Elt F) → (⟨S32, .f32⟩ : BufTy).Contents (Elt F)),
    StableHlo.unary main_v0 main_v1 (broadcastInDim S1x32x1x1 ![1] bcast_S32_S1x32x1x1_1 : (⟨S32, .f32⟩ : BufTy).Contents (Elt F) → (⟨S1x32x1x1, .f32⟩ : BufTy).Contents (Elt F)),
    StableHlo.nullary main_cst_0 (constant S_ .f32 0x49800000#32),
    StableHlo.unary main_cst_0 main_v2 (broadcastInDim S1x32x1x1 ![] bcast_S_S1x32x1x1 : (⟨S_, .f32⟩ : BufTy).Contents (Elt F) → (⟨S1x32x1x1, .f32⟩ : BufTy).Contents (Elt F)),
    StableHlo.binary main_v1 main_v2 main_v3 (Host.divf : (⟨S1x32x1x1, .f32⟩ : BufTy).Contents (Elt F) → (⟨S1x32x1x1, .f32⟩ : BufTy).Contents (Elt F) → (⟨S1x32x1x1, .f32⟩ : BufTy).Contents (Elt F)),
    StableHlo.unary main_v3 main_v4 (broadcastInDim S128x32x128x64 ![0, 1, 2, 3] bcast_S1x32x1x1_S128x32x128x64_0_1_2_3 : (⟨S1x32x1x1, .f32⟩ : BufTy).Contents (Elt F) → (⟨S128x32x128x64, .f32⟩ : BufTy).Contents (Elt F)),
    StableHlo.binary main_arg0 main_v4 main_v5 (subf : (⟨S128x32x128x64, .f32⟩ : BufTy).Contents (Elt F) → (⟨S128x32x128x64, .f32⟩ : BufTy).Contents (Elt F) → (⟨S128x32x128x64, .f32⟩ : BufTy).Contents (Elt F)),
    StableHlo.unary main_v5 main_v6 ((transpose S128x128x64x32 [0, 2, 3, 1] · transposes_S128x32x128x64_S128x128x64x32_0_2_3_1) : (⟨S128x32x128x64, .f32⟩ : BufTy).Contents (Elt F) → (⟨S128x128x64x32, .f32⟩ : BufTy).Contents (Elt F)),
    StableHlo.reshape main_v6 main_v7 rfl shapeCasts_S128x128x64x32_S1048576x32,
    StableHlo.unary main_v7 main_v8 ((transpose S32x1048576 [1, 0] · transposes_S1048576x32_S32x1048576_1_0) : (⟨S1048576x32, .f32⟩ : BufTy).Contents (Elt F) → (⟨S32x1048576, .f32⟩ : BufTy).Contents (Elt F)),
    StableHlo.binary main_v8 main_v7 main_v9 ((fun l r => Host.dotGeneral dot_S32x1048576_S1048576x32_S32x32_1_0_0_1_n_n none l r) : (⟨S32x1048576, .f32⟩ : BufTy).Contents (Elt F) → (⟨S1048576x32, .f32⟩ : BufTy).Contents (Elt F) → (⟨S32x32, .f32⟩ : BufTy).Contents (Elt F)),
    StableHlo.nullary main_cst_1 (constant S_ .f32 0x49800000#32),
    StableHlo.nullary main_cst_2 (constant S_ .f32 0x3F800000#32),
    StableHlo.binary main_cst_1 main_cst_2 main_v10 (subf : (⟨S_, .f32⟩ : BufTy).Contents (Elt F) → (⟨S_, .f32⟩ : BufTy).Contents (Elt F) → (⟨S_, .f32⟩ : BufTy).Contents (Elt F)),
    StableHlo.unary main_v10 main_v11 (broadcastInDim S32x32 ![] bcast_S_S32x32 : (⟨S_, .f32⟩ : BufTy).Contents (Elt F) → (⟨S32x32, .f32⟩ : BufTy).Contents (Elt F)),
    StableHlo.binary main_v9 main_v11 main_v12 (Host.divf : (⟨S32x32, .f32⟩ : BufTy).Contents (Elt F) → (⟨S32x32, .f32⟩ : BufTy).Contents (Elt F) → (⟨S32x32, .f32⟩ : BufTy).Contents (Elt F)) ]

/-- The trace of the covariance (the diagonal mask, the select, the sum), the covariance over its trace, and the identity matrix. -/
abbrev w1 : List (HloOp τ sig (Elt F)) :=
  [ StableHlo.TRef.nullary main_call0.v0 (iotaInDim S32x32 32 0),
    StableHlo.TRef.nullary main_call0.v1 (iotaInDim S32x32 32 1),
    StableHlo.TRef.nullary main_call0.c (constantI S_ 32 0#32),
    StableHlo.TRef.unary main_call0.c main_call0.v2 (broadcastInDim S32x32 ![] bcast_S_S32x32),
    StableHlo.TRef.binary main_call0.v0 main_call0.v2 main_call0.v3 addi,
    StableHlo.TRef.binary main_call0.v3 main_call0.v1 main_call0.v4 (cmpi .eq),
    StableHlo.TRef.nullary main_call0.cst (constant S_ .f32 0x00000000#32),
    StableHlo.TRef.unary main_call0.cst main_call0.v5 (broadcastInDim S32x32 ![] bcast_S_S32x32),
    StableHlo.TRef.ternary main_call0.v4 (.of main_v12) main_call0.v5 main_call0.call0.v0 select,
    StableHlo.TRef.nullary main_call0.cst_0 (constant S_ .f32 0x00000000#32),
    StableHlo.TRef.binary main_call0.call0.v0 main_call0.cst_0 main_call0.v7 (fun x v => Host.reduceAdd x v reducesTo_S32x32_S_d0_1 h_S_),
    StableHlo.unary main_v13 main_v14 (broadcastInDim S32x32 ![] bcast_S_S32x32 : (⟨S_, .f32⟩ : BufTy).Contents (Elt F) → (⟨S32x32, .f32⟩ : BufTy).Contents (Elt F)),
    StableHlo.binary main_v12 main_v14 main_v15 (Host.divf : (⟨S32x32, .f32⟩ : BufTy).Contents (Elt F) → (⟨S32x32, .f32⟩ : BufTy).Contents (Elt F) → (⟨S32x32, .f32⟩ : BufTy).Contents (Elt F)),
    StableHlo.nullary main_v16 (iotaInDim S32x32 32 0),
    StableHlo.nullary main_v17 (iotaInDim S32x32 32 1),
    StableHlo.nullary main_c (constantI S_ 32 0#32),
    StableHlo.unary main_c main_v18 (broadcastInDim S32x32 ![] bcast_S_S32x32 : (⟨S_, .i32⟩ : BufTy).Contents (Elt F) → (⟨S32x32, .i32⟩ : BufTy).Contents (Elt F)),
    StableHlo.binary main_v16 main_v18 main_v19 (addi : (⟨S32x32, .i32⟩ : BufTy).Contents (Elt F) → (⟨S32x32, .i32⟩ : BufTy).Contents (Elt F) → (⟨S32x32, .i32⟩ : BufTy).Contents (Elt F)),
    StableHlo.binary main_v19 main_v17 main_v20 (cmpi .eq : (⟨S32x32, .i32⟩ : BufTy).Contents (Elt F) → (⟨S32x32, .i32⟩ : BufTy).Contents (Elt F) → (⟨S32x32, .i1⟩ : BufTy).Contents (Elt F)),
    StableHlo.unary main_v20 main_v21 (uitofp .f32 : (⟨S32x32, .i1⟩ : BufTy).Contents (Elt F) → (⟨S32x32, .f32⟩ : BufTy).Contents (Elt F)) ]

/-- The first Newton–Schulz step. -/
abbrev w2 : List (HloOp τ sig (Elt F)) :=
  [ StableHlo.nullary main_cst_3 (constant S_ .f32 0x40400000#32),
    StableHlo.unary main_cst_3 main_v22 (broadcastInDim S32x32 ![] bcast_S_S32x32 : (⟨S_, .f32⟩ : BufTy).Contents (Elt F) → (⟨S32x32, .f32⟩ : BufTy).Contents (Elt F)),
    StableHlo.binary main_v22 main_v21 main_v23 (mulf : (⟨S32x32, .f32⟩ : BufTy).Contents (Elt F) → (⟨S32x32, .f32⟩ : BufTy).Contents (Elt F) → (⟨S32x32, .f32⟩ : BufTy).Contents (Elt F)),
    StableHlo.binary main_v21 main_v21 main_v24 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v24 main_v21 main_v25 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v25 main_v15 main_v26 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v23 main_v26 main_v27 (subf : (⟨S32x32, .f32⟩ : BufTy).Contents (Elt F) → (⟨S32x32, .f32⟩ : BufTy).Contents (Elt F) → (⟨S32x32, .f32⟩ : BufTy).Contents (Elt F)),
    StableHlo.nullary main_cst_4 (constant S_ .f32 0x3F000000#32),
    StableHlo.unary main_cst_4 main_v28 (broadcastInDim S32x32 ![] bcast_S_S32x32 : (⟨S_, .f32⟩ : BufTy).Contents (Elt F) → (⟨S32x32, .f32⟩ : BufTy).Contents (Elt F)),
    StableHlo.binary main_v28 main_v27 main_v29 (mulf : (⟨S32x32, .f32⟩ : BufTy).Contents (Elt F) → (⟨S32x32, .f32⟩ : BufTy).Contents (Elt F) → (⟨S32x32, .f32⟩ : BufTy).Contents (Elt F)) ]

/-- The second Newton–Schulz step. -/
abbrev w3 : List (HloOp τ sig (Elt F)) :=
  [ StableHlo.nullary main_cst_5 (constant S_ .f32 0x40400000#32),
    StableHlo.unary main_cst_5 main_v30 (broadcastInDim S32x32 ![] bcast_S_S32x32 : (⟨S_, .f32⟩ : BufTy).Contents (Elt F) → (⟨S32x32, .f32⟩ : BufTy).Contents (Elt F)),
    StableHlo.binary main_v30 main_v29 main_v31 (mulf : (⟨S32x32, .f32⟩ : BufTy).Contents (Elt F) → (⟨S32x32, .f32⟩ : BufTy).Contents (Elt F) → (⟨S32x32, .f32⟩ : BufTy).Contents (Elt F)),
    StableHlo.binary main_v29 main_v29 main_v32 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v32 main_v29 main_v33 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v33 main_v15 main_v34 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v31 main_v34 main_v35 (subf : (⟨S32x32, .f32⟩ : BufTy).Contents (Elt F) → (⟨S32x32, .f32⟩ : BufTy).Contents (Elt F) → (⟨S32x32, .f32⟩ : BufTy).Contents (Elt F)),
    StableHlo.nullary main_cst_6 (constant S_ .f32 0x3F000000#32),
    StableHlo.unary main_cst_6 main_v36 (broadcastInDim S32x32 ![] bcast_S_S32x32 : (⟨S_, .f32⟩ : BufTy).Contents (Elt F) → (⟨S32x32, .f32⟩ : BufTy).Contents (Elt F)),
    StableHlo.binary main_v36 main_v35 main_v37 (mulf : (⟨S32x32, .f32⟩ : BufTy).Contents (Elt F) → (⟨S32x32, .f32⟩ : BufTy).Contents (Elt F) → (⟨S32x32, .f32⟩ : BufTy).Contents (Elt F)) ]

/-- The third Newton–Schulz step. -/
abbrev w4 : List (HloOp τ sig (Elt F)) :=
  [ StableHlo.nullary main_cst_7 (constant S_ .f32 0x40400000#32),
    StableHlo.unary main_cst_7 main_v38 (broadcastInDim S32x32 ![] bcast_S_S32x32 : (⟨S_, .f32⟩ : BufTy).Contents (Elt F) → (⟨S32x32, .f32⟩ : BufTy).Contents (Elt F)),
    StableHlo.binary main_v38 main_v37 main_v39 (mulf : (⟨S32x32, .f32⟩ : BufTy).Contents (Elt F) → (⟨S32x32, .f32⟩ : BufTy).Contents (Elt F) → (⟨S32x32, .f32⟩ : BufTy).Contents (Elt F)),
    StableHlo.binary main_v37 main_v37 main_v40 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v40 main_v37 main_v41 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v41 main_v15 main_v42 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v39 main_v42 main_v43 (subf : (⟨S32x32, .f32⟩ : BufTy).Contents (Elt F) → (⟨S32x32, .f32⟩ : BufTy).Contents (Elt F) → (⟨S32x32, .f32⟩ : BufTy).Contents (Elt F)),
    StableHlo.nullary main_cst_8 (constant S_ .f32 0x3F000000#32),
    StableHlo.unary main_cst_8 main_v44 (broadcastInDim S32x32 ![] bcast_S_S32x32 : (⟨S_, .f32⟩ : BufTy).Contents (Elt F) → (⟨S32x32, .f32⟩ : BufTy).Contents (Elt F)),
    StableHlo.binary main_v44 main_v43 main_v45 (mulf : (⟨S32x32, .f32⟩ : BufTy).Contents (Elt F) → (⟨S32x32, .f32⟩ : BufTy).Contents (Elt F) → (⟨S32x32, .f32⟩ : BufTy).Contents (Elt F)) ]

/-- The fourth Newton–Schulz step, its first three operations. -/
abbrev w5a : List (HloOp τ sig (Elt F)) :=
  [ StableHlo.nullary main_cst_9 (constant S_ .f32 0x40400000#32),
    StableHlo.unary main_cst_9 main_v46 (broadcastInDim S32x32 ![] bcast_S_S32x32 : (⟨S_, .f32⟩ : BufTy).Contents (Elt F) → (⟨S32x32, .f32⟩ : BufTy).Contents (Elt F)),
    StableHlo.binary main_v46 main_v45 main_v47 (mulf : (⟨S32x32, .f32⟩ : BufTy).Contents (Elt F) → (⟨S32x32, .f32⟩ : BufTy).Contents (Elt F) → (⟨S32x32, .f32⟩ : BufTy).Contents (Elt F)) ]

/-- The fourth Newton–Schulz step, the rest. -/
abbrev w5b : List (HloOp τ sig (Elt F)) :=
  [ StableHlo.binary main_v45 main_v45 main_v48 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v48 main_v45 main_v49 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v49 main_v15 main_v50 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v47 main_v50 main_v51 (subf : (⟨S32x32, .f32⟩ : BufTy).Contents (Elt F) → (⟨S32x32, .f32⟩ : BufTy).Contents (Elt F) → (⟨S32x32, .f32⟩ : BufTy).Contents (Elt F)),
    StableHlo.nullary main_cst_10 (constant S_ .f32 0x3F000000#32),
    StableHlo.unary main_cst_10 main_v52 (broadcastInDim S32x32 ![] bcast_S_S32x32 : (⟨S_, .f32⟩ : BufTy).Contents (Elt F) → (⟨S32x32, .f32⟩ : BufTy).Contents (Elt F)),
    StableHlo.binary main_v52 main_v51 main_v53 (mulf : (⟨S32x32, .f32⟩ : BufTy).Contents (Elt F) → (⟨S32x32, .f32⟩ : BufTy).Contents (Elt F) → (⟨S32x32, .f32⟩ : BufTy).Contents (Elt F)) ]

/-- The fifth Newton–Schulz step. -/
abbrev w6 : List (HloOp τ sig (Elt F)) :=
  [ StableHlo.nullary main_cst_11 (constant S_ .f32 0x40400000#32),
    StableHlo.unary main_cst_11 main_v54 (broadcastInDim S32x32 ![] bcast_S_S32x32 : (⟨S_, .f32⟩ : BufTy).Contents (Elt F) → (⟨S32x32, .f32⟩ : BufTy).Contents (Elt F)),
    StableHlo.binary main_v54 main_v53 main_v55 (mulf : (⟨S32x32, .f32⟩ : BufTy).Contents (Elt F) → (⟨S32x32, .f32⟩ : BufTy).Contents (Elt F) → (⟨S32x32, .f32⟩ : BufTy).Contents (Elt F)),
    StableHlo.binary main_v53 main_v53 main_v56 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v56 main_v53 main_v57 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v57 main_v15 main_v58 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v55 main_v58 main_v59 (subf : (⟨S32x32, .f32⟩ : BufTy).Contents (Elt F) → (⟨S32x32, .f32⟩ : BufTy).Contents (Elt F) → (⟨S32x32, .f32⟩ : BufTy).Contents (Elt F)),
    StableHlo.nullary main_cst_12 (constant S_ .f32 0x3F000000#32),
    StableHlo.unary main_cst_12 main_v60 (broadcastInDim S32x32 ![] bcast_S_S32x32 : (⟨S_, .f32⟩ : BufTy).Contents (Elt F) → (⟨S32x32, .f32⟩ : BufTy).Contents (Elt F)),
    StableHlo.binary main_v60 main_v59 main_v61 (mulf : (⟨S32x32, .f32⟩ : BufTy).Contents (Elt F) → (⟨S32x32, .f32⟩ : BufTy).Contents (Elt F) → (⟨S32x32, .f32⟩ : BufTy).Contents (Elt F)) ]

/-- The scaling by the inverse square root of the trace, the product with the centred data, the reshape and the transpose back, and · γ + β. -/
abbrev w7 : List (HloOp τ sig (Elt F)) :=
  [ StableHlo.unary main_v13 main_v62 (Host.rsqrt : (⟨S_, .f32⟩ : BufTy).Contents (Elt F) → (⟨S_, .f32⟩ : BufTy).Contents (Elt F)),
    StableHlo.unary main_v62 main_v63 (broadcastInDim S32x32 ![] bcast_S_S32x32 : (⟨S_, .f32⟩ : BufTy).Contents (Elt F) → (⟨S32x32, .f32⟩ : BufTy).Contents (Elt F)),
    StableHlo.binary main_v61 main_v63 main_v64 (mulf : (⟨S32x32, .f32⟩ : BufTy).Contents (Elt F) → (⟨S32x32, .f32⟩ : BufTy).Contents (Elt F) → (⟨S32x32, .f32⟩ : BufTy).Contents (Elt F)),
    StableHlo.binary main_v7 main_v64 main_v65 ((fun l r => Host.dotGeneral dot_S1048576x32_S32x32_S1048576x32_1_0_0_1_n_n none l r) : (⟨S1048576x32, .f32⟩ : BufTy).Contents (Elt F) → (⟨S32x32, .f32⟩ : BufTy).Contents (Elt F) → (⟨S1048576x32, .f32⟩ : BufTy).Contents (Elt F)),
    StableHlo.reshape main_v65 main_v66 rfl shapeCasts_S1048576x32_S128x128x64x32,
    StableHlo.unary main_v66 main_v67 ((transpose S128x32x128x64 [0, 3, 1, 2] · transposes_S128x128x64x32_S128x32x128x64_0_3_1_2) : (⟨S128x128x64x32, .f32⟩ : BufTy).Contents (Elt F) → (⟨S128x32x128x64, .f32⟩ : BufTy).Contents (Elt F)),
    StableHlo.unary main_arg1 main_v68 (broadcastInDim S128x32x128x64 ![0, 1, 2, 3] bcast_S1x32x1x1_S128x32x128x64_0_1_2_3 : (⟨S1x32x1x1, .f32⟩ : BufTy).Contents (Elt F) → (⟨S128x32x128x64, .f32⟩ : BufTy).Contents (Elt F)),
    StableHlo.binary main_v67 main_v68 main_v69 (mulf : (⟨S128x32x128x64, .f32⟩ : BufTy).Contents (Elt F) → (⟨S128x32x128x64, .f32⟩ : BufTy).Contents (Elt F) → (⟨S128x32x128x64, .f32⟩ : BufTy).Contents (Elt F)),
    StableHlo.unary main_arg2 main_v70 (broadcastInDim S128x32x128x64 ![0, 1, 2, 3] bcast_S1x32x1x1_S128x32x128x64_0_1_2_3 : (⟨S1x32x1x1, .f32⟩ : BufTy).Contents (Elt F) → (⟨S128x32x128x64, .f32⟩ : BufTy).Contents (Elt F)),
    StableHlo.binary main_v69 main_v70 main_v71 (addf : (⟨S128x32x128x64, .f32⟩ : BufTy).Contents (Elt F) → (⟨S128x32x128x64, .f32⟩ : BufTy).Contents (Elt F) → (⟨S128x32x128x64, .f32⟩ : BufTy).Contents (Elt F)) ]

/-- @main's first 60 statements as operations. -/
abbrev P0 : List (HloOp τ sig (Elt F)) := w0 ++ (w1 ++ (w2 ++ (w3 ++ (w4 ++ w5a))))
/-- @main's last 28 statements as operations. -/
abbrev P1 : List (HloOp τ sig (Elt F)) := w5b ++ (w6 ++ w7)
/-- @main's 97 operations, in order. -/
abbrev ops : List (HloOp τ sig (Elt F)) := P0 ++ P1

set_option maxRecDepth 8192 in
set_option maxHeartbeats 4000000 in
theorem main_part0_eq (c : Dev nD) : main_part0 (F := F) c = seq P0 := by
  simp only [main_part0, fn_trace.body, fn_where.body, bind_assoc, pure_bind]
  rfl

set_option maxRecDepth 8192 in
set_option maxHeartbeats 4000000 in
theorem main_part1_eq (c : Dev nD) : main_part1 (F := F) c = seq P1 := rfl

/-- @main is its operations run in order. -/
theorem main_eq (c : Dev nD) : main (F := F) c = seq ops := by
  show (main_part0 (F := F) c >>= fun _ => main_part1 (F := F) c) = seq (P0 ++ P1)
  rw [seq_append, main_part0_eq, main_part1_eq]

theorem scopedRefs_eq : (Finset.univ.filter fun b : Ref sig .tc => b.isScoped) = ∅ := by decide
theorem scopedSems_eq : (Finset.univ.filter fun sm : SemLoc sig => sm.isScoped .tc) = ∅ := by decide

theorem w0_sub : (w0 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., unary_bufs_sub .., reshape_bufs_sub .., unary_bufs_sub .., binary_bufs_sub .., nullary_bufs_sub .., nullary_bufs_sub .., binary_bufs_sub .., unary_bufs_sub .., binary_bufs_sub ..⟩
theorem w1_sub : (w1 : List (HloOp τ sig (Elt F))).Forall fun op => op.bufs ⊆ tcRefs τ sig :=
  ⟨nullary_bufs_sub .., nullary_bufs_sub .., nullary_bufs_sub .., unary_bufs_sub .., binary_bufs_sub .., binary_bufs_sub .., nullary_bufs_sub .., unary_bufs_sub .., ternary_bufs_sub .., nullary_bufs_sub .., binary_bufs_sub .., unary_bufs_sub .., binary_bufs_sub .., nullary_bufs_sub .., nullary_bufs_sub .., nullary_bufs_sub .., unary_bufs_sub .., binary_bufs_sub .., binary_bufs_sub .., unary_bufs_sub ..⟩
theorem w2_sub : (w2 : List (HloOp τ sig (Elt F))).Forall fun op => op.bufs ⊆ tcRefs τ sig :=
  ⟨nullary_bufs_sub .., unary_bufs_sub .., binary_bufs_sub .., binary_bufs_sub .., binary_bufs_sub .., binary_bufs_sub .., binary_bufs_sub .., nullary_bufs_sub .., unary_bufs_sub .., binary_bufs_sub ..⟩
theorem w3_sub : (w3 : List (HloOp τ sig (Elt F))).Forall fun op => op.bufs ⊆ tcRefs τ sig :=
  ⟨nullary_bufs_sub .., unary_bufs_sub .., binary_bufs_sub .., binary_bufs_sub .., binary_bufs_sub .., binary_bufs_sub .., binary_bufs_sub .., nullary_bufs_sub .., unary_bufs_sub .., binary_bufs_sub ..⟩
theorem w4_sub : (w4 : List (HloOp τ sig (Elt F))).Forall fun op => op.bufs ⊆ tcRefs τ sig :=
  ⟨nullary_bufs_sub .., unary_bufs_sub .., binary_bufs_sub .., binary_bufs_sub .., binary_bufs_sub .., binary_bufs_sub .., binary_bufs_sub .., nullary_bufs_sub .., unary_bufs_sub .., binary_bufs_sub ..⟩
theorem w5a_sub : (w5a : List (HloOp τ sig (Elt F))).Forall fun op => op.bufs ⊆ tcRefs τ sig :=
  ⟨nullary_bufs_sub .., unary_bufs_sub .., binary_bufs_sub ..⟩
theorem w5b_sub : (w5b : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub ..⟩
theorem w6_sub : (w6 : List (HloOp τ sig (Elt F))).Forall fun op => op.bufs ⊆ tcRefs τ sig :=
  ⟨nullary_bufs_sub .., unary_bufs_sub .., binary_bufs_sub .., binary_bufs_sub .., binary_bufs_sub .., binary_bufs_sub .., binary_bufs_sub .., nullary_bufs_sub .., unary_bufs_sub .., binary_bufs_sub ..⟩
theorem w7_sub : (w7 : List (HloOp τ sig (Elt F))).Forall fun op => op.bufs ⊆ tcRefs τ sig :=
  ⟨unary_bufs_sub .., unary_bufs_sub .., binary_bufs_sub .., binary_bufs_sub .., reshape_bufs_sub .., unary_bufs_sub .., unary_bufs_sub .., binary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, P0, P1, List.mem_append] at h
    rcases h with (h | h | h | h | h | h) | (h | h | h)
    exacts [List.forall_iff_forall_mem.mp w0_sub op h, List.forall_iff_forall_mem.mp w1_sub op h, List.forall_iff_forall_mem.mp w2_sub op h, List.forall_iff_forall_mem.mp w3_sub op h, List.forall_iff_forall_mem.mp w4_sub op h, List.forall_iff_forall_mem.mp w5a_sub op h, List.forall_iff_forall_mem.mp w5b_sub op h, List.forall_iff_forall_mem.mp w6_sub op h, List.forall_iff_forall_mem.mp w7_sub op h]

set_option maxRecDepth 8192 in
set_option maxHeartbeats 4000000 in
/-- On every device, from any memory with zero counters: every weakly fair execution of @main terminates, and every
    buffer ends at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Ops

end Cert.ReferenceIdeal.RefValue

end
-- ==== Proof.RefRun.lean ====
/-
  The run of the reference program read back: the contents of the buffers after each stretch of @main's operations
  as whole-array functions of the three arguments — the channel means, the centred data flattened to n × 32, the
  covariance, its trace, the Newton–Schulz iterates, the whitening matrix, the result — and the run's theorem over
  them. The Newton–Schulz chain is carried as the shared specification's functions, never opened.
-/
import proofs.«174776_j89060441849996_2_alg».proof.Proof.RefRunOps

noncomputable section

namespace Cert.ReferenceIdeal.RefValue

open Cert.ReferenceIdeal Idealize.ShloMosaic Idealize.ShloMosaic.TcCoe Idealize.SL.Sem Idealize.ShloMosaic.StableHlo

variable [Facts]
open Facts₀ Facts

/-! ## The stages, as whole arrays -/

/-- The channel means, as a 1 × 32 × 1 × 1 array: the sums over the other three axes divided by n = 2^20. -/
def meanV (x : FVec Ideal S128x32x128x64 .f32) : FVec Ideal S1x32x1x1 .f32 :=
  Host.divf (F := Ideal)
    (broadcastInDim S1x32x1x1 ![1] bcast_S32_S1x32x1x1_1
      (Host.reduceAdd (F := Ideal) x (constant (F := Ideal) S_ .f32 0x00000000#32) reducesTo_S128x32x128x64_S32_d0_2_3 h_S_))
    (broadcastInDim S1x32x1x1 ![] bcast_S_S1x32x1x1 (constant (F := Ideal) S_ .f32 0x49800000#32))

/-- The centred data. -/
def cenV (x : FVec Ideal S128x32x128x64 .f32) : FVec Ideal S128x32x128x64 .f32 :=
  subf x (broadcastInDim S128x32x128x64 ![0, 1, 2, 3] bcast_S1x32x1x1_S128x32x128x64_0_1_2_3 (meanV x))

/-- The centred data as an n × 32 matrix, row (b·128 + co)·64 + a. -/
def flatV (x : FVec Ideal S128x32x128x64 .f32) : FVec Ideal S1048576x32 .f32 :=
  shapeCast S1048576x32 (transpose S128x128x64x32 [0, 2, 3, 1] (cenV x) transposes_S128x32x128x64_S128x128x64x32_0_2_3_1)
    shapeCasts_S128x128x64x32_S1048576x32

/-- The covariance: the 32 × 32 product of the flattened centred data with itself over n, divided by n − 1. -/
def sigV (x : FVec Ideal S128x32x128x64 .f32) : FVec Ideal S32x32 .f32 :=
  Host.divf (F := Ideal)
    (Host.dotGeneral (F := Ideal) dot_S32x1048576_S1048576x32_S32x32_1_0_0_1_n_n none
      (transpose S32x1048576 [1, 0] (flatV x) transposes_S1048576x32_S32x1048576_1_0) (flatV x))
    (broadcastInDim S32x32 ![] bcast_S_S32x32
      (subf (constant (F := Ideal) S_ .f32 0x49800000#32) (constant (F := Ideal) S_ .f32 0x3F800000#32)))

/-- The trace of the covariance. -/
def trV (x : FVec Ideal S128x32x128x64 .f32) : FVec Ideal S_ .f32 := Cert.Spec.trace h_S_ bcast_S_S32x32 reducesTo_S32x32_S_d0_1 (sigV x)

/-- The covariance over its trace. -/
def snV (x : FVec Ideal S128x32x128x64 .f32) : FVec Ideal S32x32 .f32 := Host.divf (F := Ideal) (sigV x) (Cert.Spec.spread bcast_S_S32x32 (trV x))

/-- The Newton–Schulz iterates, from the identity. -/
def p1V (x : FVec Ideal S128x32x128x64 .f32) : FVec Ideal S32x32 .f32 := Cert.Spec.nsStep bcast_S_S32x32 dot_S32x32_S32x32_S32x32_1_0_0_1_n_n_wf (snV x) (Cert.Spec.eye bcast_S_S32x32)
def p2V (x : FVec Ideal S128x32x128x64 .f32) : FVec Ideal S32x32 .f32 := Cert.Spec.nsStep bcast_S_S32x32 dot_S32x32_S32x32_S32x32_1_0_0_1_n_n_wf (snV x) (p1V x)
def p3V (x : FVec Ideal S128x32x128x64 .f32) : FVec Ideal S32x32 .f32 := Cert.Spec.nsStep bcast_S_S32x32 dot_S32x32_S32x32_S32x32_1_0_0_1_n_n_wf (snV x) (p2V x)
def p4V (x : FVec Ideal S128x32x128x64 .f32) : FVec Ideal S32x32 .f32 := Cert.Spec.nsStep bcast_S_S32x32 dot_S32x32_S32x32_S32x32_1_0_0_1_n_n_wf (snV x) (p3V x)
def p5V (x : FVec Ideal S128x32x128x64 .f32) : FVec Ideal S32x32 .f32 := Cert.Spec.nsStep bcast_S_S32x32 dot_S32x32_S32x32_S32x32_1_0_0_1_n_n_wf (snV x) (p4V x)

/-- The whitening matrix: the fifth iterate scaled by the inverse square root of the trace. -/
def PV (x : FVec Ideal S128x32x128x64 .f32) : FVec Ideal S32x32 .f32 := mulf (p5V x) (Cert.Spec.spread bcast_S_S32x32 (Host.rsqrt (F := Ideal) (trV x)))

/-- The whitening matrix is the specification's chain applied to the covariance. -/
theorem PV_eq (x : FVec Ideal S128x32x128x64 .f32) : PV x = Cert.Spec.NS h_S_ bcast_S_S32x32 reducesTo_S32x32_S_d0_1 dot_S32x32_S32x32_S32x32_1_0_0_1_n_n_wf (sigV x) := rfl

/-- The result: the flattened centred data times the whitening matrix, back in the input's layout, · γ + β. -/
def outV (x : FVec Ideal S128x32x128x64 .f32) (g β : FVec Ideal S1x32x1x1 .f32) : FVec Ideal S128x32x128x64 .f32 :=
  addf
    (mulf
      (transpose S128x32x128x64 [0, 3, 1, 2]
        (shapeCast S128x128x64x32
          (Host.dotGeneral (F := Ideal) dot_S1048576x32_S32x32_S1048576x32_1_0_0_1_n_n none (flatV x) (PV x))
          shapeCasts_S1048576x32_S128x128x64x32)
        transposes_S128x128x64x32_S128x32x128x64_0_3_1_2)
      (broadcastInDim S128x32x128x64 ![0, 1, 2, 3] bcast_S1x32x1x1_S128x32x128x64_0_1_2_3 g))
    (broadcastInDim S128x32x128x64 ![0, 1, 2, 3] bcast_S1x32x1x1_S128x32x128x64_0_1_2_3 β)

/-! ## The buffers after each stretch -/

/-- The device's buffer contents after the covariance's stretch. -/
def val1 (V0 : Valuation τ sig (Elt Ideal)) : Valuation τ sig (Elt Ideal) := after (w0 (F := Ideal)) V0

set_option maxRecDepth 8192 in
set_option maxHeartbeats 2000000 in
theorem val1_main_arg0 (V0 : Valuation τ sig (Elt Ideal)) : val1 V0 (no_index (Proc.devRef .tc main_arg0)) = (V0 (Proc.devRef .tc main_arg0)) := by
  unfold val1
  simp only [w0]
  after_results_simp

set_option maxRecDepth 8192 in
set_option maxHeartbeats 2000000 in
theorem val1_main_arg1 (V0 : Valuation τ sig (Elt Ideal)) : val1 V0 (no_index (Proc.devRef .tc main_arg1)) = (V0 (Proc.devRef .tc main_arg1)) := by
  unfold val1
  simp only [w0]
  after_results_simp

set_option maxRecDepth 8192 in
set_option maxHeartbeats 2000000 in
theorem val1_main_arg2 (V0 : Valuation τ sig (Elt Ideal)) : val1 V0 (no_index (Proc.devRef .tc main_arg2)) = (V0 (Proc.devRef .tc main_arg2)) := by
  unfold val1
  simp only [w0]
  after_results_simp

set_option maxRecDepth 8192 in
set_option maxHeartbeats 2000000 in
theorem val1_main_v7 (V0 : Valuation τ sig (Elt Ideal)) : val1 V0 (no_index (Proc.devRef .tc main_v7)) = flatV (V0 (Proc.devRef .tc main_arg0)) := by
  unfold val1
  simp only [w0]
  after_results_simp
  rfl

set_option maxRecDepth 8192 in
set_option maxHeartbeats 2000000 in
theorem val1_main_v12 (V0 : Valuation τ sig (Elt Ideal)) : val1 V0 (no_index (Proc.devRef .tc main_v12)) = sigV (V0 (Proc.devRef .tc main_arg0)) := by
  unfold val1
  simp only [w0]
  after_results_simp
  rfl

/-- The device's buffer contents after the trace's stretch. -/
def val2 (V0 : Valuation τ sig (Elt Ideal)) : Valuation τ sig (Elt Ideal) := after (w1 (F := Ideal)) (val1 V0)

set_option maxRecDepth 8192 in
set_option maxHeartbeats 2000000 in
theorem val2_main_arg0 (V0 : Valuation τ sig (Elt Ideal)) : val2 V0 (no_index (Proc.devRef .tc main_arg0)) = (V0 (Proc.devRef .tc main_arg0)) := by
  unfold val2
  simp only [w1]
  after_results_simp
  simp only [val1_main_arg0] <;> rfl

set_option maxRecDepth 8192 in
set_option maxHeartbeats 2000000 in
theorem val2_main_arg1 (V0 : Valuation τ sig (Elt Ideal)) : val2 V0 (no_index (Proc.devRef .tc main_arg1)) = (V0 (Proc.devRef .tc main_arg1)) := by
  unfold val2
  simp only [w1]
  after_results_simp
  simp only [val1_main_arg1] <;> rfl

set_option maxRecDepth 8192 in
set_option maxHeartbeats 2000000 in
theorem val2_main_arg2 (V0 : Valuation τ sig (Elt Ideal)) : val2 V0 (no_index (Proc.devRef .tc main_arg2)) = (V0 (Proc.devRef .tc main_arg2)) := by
  unfold val2
  simp only [w1]
  after_results_simp
  simp only [val1_main_arg2] <;> rfl

set_option maxRecDepth 8192 in
set_option maxHeartbeats 2000000 in
theorem val2_main_v7 (V0 : Valuation τ sig (Elt Ideal)) : val2 V0 (no_index (Proc.devRef .tc main_v7)) = flatV (V0 (Proc.devRef .tc main_arg0)) := by
  unfold val2
  simp only [w1]
  after_results_simp
  simp only [val1_main_v7] <;> rfl

set_option maxRecDepth 8192 in
set_option maxHeartbeats 2000000 in
theorem val2_main_v13 (V0 : Valuation τ sig (Elt Ideal)) : val2 V0 (no_index (Proc.devRef .tc main_v13)) = trV (V0 (Proc.devRef .tc main_arg0)) := by
  unfold val2
  simp only [w1]
  after_results_simp
  simp only [val1_main_v12] <;> rfl

set_option maxRecDepth 8192 in
set_option maxHeartbeats 2000000 in
theorem val2_main_v15 (V0 : Valuation τ sig (Elt Ideal)) : val2 V0 (no_index (Proc.devRef .tc main_v15)) = snV (V0 (Proc.devRef .tc main_arg0)) := by
  unfold val2
  simp only [w1]
  after_results_simp
  simp only [val1_main_v12] <;> rfl

set_option maxRecDepth 8192 in
set_option maxHeartbeats 2000000 in
theorem val2_main_v21 (V0 : Valuation τ sig (Elt Ideal)) : val2 V0 (no_index (Proc.devRef .tc main_v21)) = Cert.Spec.eye bcast_S_S32x32 := by
  unfold val2
  simp only [w1]
  after_results_simp
  rfl

/-- The device's buffer contents after the first Newton–Schulz step. -/
def val3 (V0 : Valuation τ sig (Elt Ideal)) : Valuation τ sig (Elt Ideal) := after (w2 (F := Ideal)) (val2 V0)

set_option maxRecDepth 8192 in
set_option maxHeartbeats 2000000 in
theorem val3_main_arg0 (V0 : Valuation τ sig (Elt Ideal)) : val3 V0 (no_index (Proc.devRef .tc main_arg0)) = (V0 (Proc.devRef .tc main_arg0)) := by
  unfold val3
  simp only [w2]
  after_results_simp
  simp only [val2_main_arg0] <;> rfl

set_option maxRecDepth 8192 in
set_option maxHeartbeats 2000000 in
theorem val3_main_arg1 (V0 : Valuation τ sig (Elt Ideal)) : val3 V0 (no_index (Proc.devRef .tc main_arg1)) = (V0 (Proc.devRef .tc main_arg1)) := by
  unfold val3
  simp only [w2]
  after_results_simp
  simp only [val2_main_arg1] <;> rfl

set_option maxRecDepth 8192 in
set_option maxHeartbeats 2000000 in
theorem val3_main_arg2 (V0 : Valuation τ sig (Elt Ideal)) : val3 V0 (no_index (Proc.devRef .tc main_arg2)) = (V0 (Proc.devRef .tc main_arg2)) := by
  unfold val3
  simp only [w2]
  after_results_simp
  simp only [val2_main_arg2] <;> rfl

set_option maxRecDepth 8192 in
set_option maxHeartbeats 2000000 in
theorem val3_main_v7 (V0 : Valuation τ sig (Elt Ideal)) : val3 V0 (no_index (Proc.devRef .tc main_v7)) = flatV (V0 (Proc.devRef .tc main_arg0)) := by
  unfold val3
  simp only [w2]
  after_results_simp
  simp only [val2_main_v7] <;> rfl

set_option maxRecDepth 8192 in
set_option maxHeartbeats 2000000 in
theorem val3_main_v13 (V0 : Valuation τ sig (Elt Ideal)) : val3 V0 (no_index (Proc.devRef .tc main_v13)) = trV (V0 (Proc.devRef .tc main_arg0)) := by
  unfold val3
  simp only [w2]
  after_results_simp
  simp only [val2_main_v13] <;> rfl

set_option maxRecDepth 8192 in
set_option maxHeartbeats 2000000 in
theorem val3_main_v15 (V0 : Valuation τ sig (Elt Ideal)) : val3 V0 (no_index (Proc.devRef .tc main_v15)) = snV (V0 (Proc.devRef .tc main_arg0)) := by
  unfold val3
  simp only [w2]
  after_results_simp
  simp only [val2_main_v15] <;> rfl

set_option maxRecDepth 8192 in
set_option maxHeartbeats 2000000 in
theorem val3_main_v29 (V0 : Valuation τ sig (Elt Ideal)) : val3 V0 (no_index (Proc.devRef .tc main_v29)) = p1V (V0 (Proc.devRef .tc main_arg0)) := by
  unfold val3
  simp only [w2]
  after_results_simp
  simp only [val2_main_v21, val2_main_v15] <;> rfl

/-- The device's buffer contents after the second Newton–Schulz step. -/
def val4 (V0 : Valuation τ sig (Elt Ideal)) : Valuation τ sig (Elt Ideal) := after (w3 (F := Ideal)) (val3 V0)

set_option maxRecDepth 8192 in
set_option maxHeartbeats 2000000 in
theorem val4_main_arg0 (V0 : Valuation τ sig (Elt Ideal)) : val4 V0 (no_index (Proc.devRef .tc main_arg0)) = (V0 (Proc.devRef .tc main_arg0)) := by
  unfold val4
  simp only [w3]
  after_results_simp
  simp only [val3_main_arg0] <;> rfl

set_option maxRecDepth 8192 in
set_option maxHeartbeats 2000000 in
theorem val4_main_arg1 (V0 : Valuation τ sig (Elt Ideal)) : val4 V0 (no_index (Proc.devRef .tc main_arg1)) = (V0 (Proc.devRef .tc main_arg1)) := by
  unfold val4
  simp only [w3]
  after_results_simp
  simp only [val3_main_arg1] <;> rfl

set_option maxRecDepth 8192 in
set_option maxHeartbeats 2000000 in
theorem val4_main_arg2 (V0 : Valuation τ sig (Elt Ideal)) : val4 V0 (no_index (Proc.devRef .tc main_arg2)) = (V0 (Proc.devRef .tc main_arg2)) := by
  unfold val4
  simp only [w3]
  after_results_simp
  simp only [val3_main_arg2] <;> rfl

set_option maxRecDepth 8192 in
set_option maxHeartbeats 2000000 in
theorem val4_main_v7 (V0 : Valuation τ sig (Elt Ideal)) : val4 V0 (no_index (Proc.devRef .tc main_v7)) = flatV (V0 (Proc.devRef .tc main_arg0)) := by
  unfold val4
  simp only [w3]
  after_results_simp
  simp only [val3_main_v7] <;> rfl

set_option maxRecDepth 8192 in
set_option maxHeartbeats 2000000 in
theorem val4_main_v13 (V0 : Valuation τ sig (Elt Ideal)) : val4 V0 (no_index (Proc.devRef .tc main_v13)) = trV (V0 (Proc.devRef .tc main_arg0)) := by
  unfold val4
  simp only [w3]
  after_results_simp
  simp only [val3_main_v13] <;> rfl

set_option maxRecDepth 8192 in
set_option maxHeartbeats 2000000 in
theorem val4_main_v15 (V0 : Valuation τ sig (Elt Ideal)) : val4 V0 (no_index (Proc.devRef .tc main_v15)) = snV (V0 (Proc.devRef .tc main_arg0)) := by
  unfold val4
  simp only [w3]
  after_results_simp
  simp only [val3_main_v15] <;> rfl

set_option maxRecDepth 8192 in
set_option maxHeartbeats 2000000 in
theorem val4_main_v37 (V0 : Valuation τ sig (Elt Ideal)) : val4 V0 (no_index (Proc.devRef .tc main_v37)) = p2V (V0 (Proc.devRef .tc main_arg0)) := by
  unfold val4
  simp only [w3]
  after_results_simp
  simp only [val3_main_v29, val3_main_v15] <;> rfl

/-- The device's buffer contents after the third Newton–Schulz step. -/
def val5 (V0 : Valuation τ sig (Elt Ideal)) : Valuation τ sig (Elt Ideal) := after (w4 (F := Ideal)) (val4 V0)

set_option maxRecDepth 8192 in
set_option maxHeartbeats 2000000 in
theorem val5_main_arg0 (V0 : Valuation τ sig (Elt Ideal)) : val5 V0 (no_index (Proc.devRef .tc main_arg0)) = (V0 (Proc.devRef .tc main_arg0)) := by
  unfold val5
  simp only [w4]
  after_results_simp
  simp only [val4_main_arg0] <;> rfl

set_option maxRecDepth 8192 in
set_option maxHeartbeats 2000000 in
theorem val5_main_arg1 (V0 : Valuation τ sig (Elt Ideal)) : val5 V0 (no_index (Proc.devRef .tc main_arg1)) = (V0 (Proc.devRef .tc main_arg1)) := by
  unfold val5
  simp only [w4]
  after_results_simp
  simp only [val4_main_arg1] <;> rfl

set_option maxRecDepth 8192 in
set_option maxHeartbeats 2000000 in
theorem val5_main_arg2 (V0 : Valuation τ sig (Elt Ideal)) : val5 V0 (no_index (Proc.devRef .tc main_arg2)) = (V0 (Proc.devRef .tc main_arg2)) := by
  unfold val5
  simp only [w4]
  after_results_simp
  simp only [val4_main_arg2] <;> rfl

set_option maxRecDepth 8192 in
set_option maxHeartbeats 2000000 in
theorem val5_main_v7 (V0 : Valuation τ sig (Elt Ideal)) : val5 V0 (no_index (Proc.devRef .tc main_v7)) = flatV (V0 (Proc.devRef .tc main_arg0)) := by
  unfold val5
  simp only [w4]
  after_results_simp
  simp only [val4_main_v7] <;> rfl

set_option maxRecDepth 8192 in
set_option maxHeartbeats 2000000 in
theorem val5_main_v13 (V0 : Valuation τ sig (Elt Ideal)) : val5 V0 (no_index (Proc.devRef .tc main_v13)) = trV (V0 (Proc.devRef .tc main_arg0)) := by
  unfold val5
  simp only [w4]
  after_results_simp
  simp only [val4_main_v13] <;> rfl

set_option maxRecDepth 8192 in
set_option maxHeartbeats 2000000 in
theorem val5_main_v15 (V0 : Valuation τ sig (Elt Ideal)) : val5 V0 (no_index (Proc.devRef .tc main_v15)) = snV (V0 (Proc.devRef .tc main_arg0)) := by
  unfold val5
  simp only [w4]
  after_results_simp
  simp only [val4_main_v15] <;> rfl

set_option maxRecDepth 8192 in
set_option maxHeartbeats 2000000 in
theorem val5_main_v45 (V0 : Valuation τ sig (Elt Ideal)) : val5 V0 (no_index (Proc.devRef .tc main_v45)) = p3V (V0 (Proc.devRef .tc main_arg0)) := by
  unfold val5
  simp only [w4]
  after_results_simp
  simp only [val4_main_v37, val4_main_v15] <;> rfl

/-- The device's buffer contents after the fourth Newton–Schulz step. -/
def val6 (V0 : Valuation τ sig (Elt Ideal)) : Valuation τ sig (Elt Ideal) := after (w5b (F := Ideal)) (after (w5a (F := Ideal)) (val5 V0))

set_option maxRecDepth 8192 in
set_option maxHeartbeats 2000000 in
theorem val6_main_arg0 (V0 : Valuation τ sig (Elt Ideal)) : val6 V0 (no_index (Proc.devRef .tc main_arg0)) = (V0 (Proc.devRef .tc main_arg0)) := by
  unfold val6
  simp only [w5a, w5b]
  after_results_simp
  simp only [val5_main_arg0] <;> rfl

set_option maxRecDepth 8192 in
set_option maxHeartbeats 2000000 in
theorem val6_main_arg1 (V0 : Valuation τ sig (Elt Ideal)) : val6 V0 (no_index (Proc.devRef .tc main_arg1)) = (V0 (Proc.devRef .tc main_arg1)) := by
  unfold val6
  simp only [w5a, w5b]
  after_results_simp
  simp only [val5_main_arg1] <;> rfl

set_option maxRecDepth 8192 in
set_option maxHeartbeats 2000000 in
theorem val6_main_arg2 (V0 : Valuation τ sig (Elt Ideal)) : val6 V0 (no_index (Proc.devRef .tc main_arg2)) = (V0 (Proc.devRef .tc main_arg2)) := by
  unfold val6
  simp only [w5a, w5b]
  after_results_simp
  simp only [val5_main_arg2] <;> rfl

set_option maxRecDepth 8192 in
set_option maxHeartbeats 2000000 in
theorem val6_main_v7 (V0 : Valuation τ sig (Elt Ideal)) : val6 V0 (no_index (Proc.devRef .tc main_v7)) = flatV (V0 (Proc.devRef .tc main_arg0)) := by
  unfold val6
  simp only [w5a, w5b]
  after_results_simp
  simp only [val5_main_v7] <;> rfl

set_option maxRecDepth 8192 in
set_option maxHeartbeats 2000000 in
theorem val6_main_v13 (V0 : Valuation τ sig (Elt Ideal)) : val6 V0 (no_index (Proc.devRef .tc main_v13)) = trV (V0 (Proc.devRef .tc main_arg0)) := by
  unfold val6
  simp only [w5a, w5b]
  after_results_simp
  simp only [val5_main_v13] <;> rfl

set_option maxRecDepth 8192 in
set_option maxHeartbeats 2000000 in
theorem val6_main_v15 (V0 : Valuation τ sig (Elt Ideal)) : val6 V0 (no_index (Proc.devRef .tc main_v15)) = snV (V0 (Proc.devRef .tc main_arg0)) := by
  unfold val6
  simp only [w5a, w5b]
  after_results_simp
  simp only [val5_main_v15] <;> rfl

set_option maxRecDepth 8192 in
set_option maxHeartbeats 2000000 in
theorem val6_main_v53 (V0 : Valuation τ sig (Elt Ideal)) : val6 V0 (no_index (Proc.devRef .tc main_v53)) = p4V (V0 (Proc.devRef .tc main_arg0)) := by
  unfold val6
  simp only [w5a, w5b]
  after_results_simp
  simp only [val5_main_v45, val5_main_v15] <;> rfl

/-- The device's buffer contents after the fifth Newton–Schulz step. -/
def val7 (V0 : Valuation τ sig (Elt Ideal)) : Valuation τ sig (Elt Ideal) := after (w6 (F := Ideal)) (val6 V0)

set_option maxRecDepth 8192 in
set_option maxHeartbeats 2000000 in
theorem val7_main_arg0 (V0 : Valuation τ sig (Elt Ideal)) : val7 V0 (no_index (Proc.devRef .tc main_arg0)) = (V0 (Proc.devRef .tc main_arg0)) := by
  unfold val7
  simp only [w6]
  after_results_simp
  simp only [val6_main_arg0] <;> rfl

set_option maxRecDepth 8192 in
set_option maxHeartbeats 2000000 in
theorem val7_main_arg1 (V0 : Valuation τ sig (Elt Ideal)) : val7 V0 (no_index (Proc.devRef .tc main_arg1)) = (V0 (Proc.devRef .tc main_arg1)) := by
  unfold val7
  simp only [w6]
  after_results_simp
  simp only [val6_main_arg1] <;> rfl

set_option maxRecDepth 8192 in
set_option maxHeartbeats 2000000 in
theorem val7_main_arg2 (V0 : Valuation τ sig (Elt Ideal)) : val7 V0 (no_index (Proc.devRef .tc main_arg2)) = (V0 (Proc.devRef .tc main_arg2)) := by
  unfold val7
  simp only [w6]
  after_results_simp
  simp only [val6_main_arg2] <;> rfl

set_option maxRecDepth 8192 in
set_option maxHeartbeats 2000000 in
theorem val7_main_v7 (V0 : Valuation τ sig (Elt Ideal)) : val7 V0 (no_index (Proc.devRef .tc main_v7)) = flatV (V0 (Proc.devRef .tc main_arg0)) := by
  unfold val7
  simp only [w6]
  after_results_simp
  simp only [val6_main_v7] <;> rfl

set_option maxRecDepth 8192 in
set_option maxHeartbeats 2000000 in
theorem val7_main_v13 (V0 : Valuation τ sig (Elt Ideal)) : val7 V0 (no_index (Proc.devRef .tc main_v13)) = trV (V0 (Proc.devRef .tc main_arg0)) := by
  unfold val7
  simp only [w6]
  after_results_simp
  simp only [val6_main_v13] <;> rfl

set_option maxRecDepth 8192 in
set_option maxHeartbeats 2000000 in
theorem val7_main_v61 (V0 : Valuation τ sig (Elt Ideal)) : val7 V0 (no_index (Proc.devRef .tc main_v61)) = p5V (V0 (Proc.devRef .tc main_arg0)) := by
  unfold val7
  simp only [w6]
  after_results_simp
  simp only [val6_main_v53, val6_main_v15] <;> rfl

/-- The device's buffer contents after the last stretch. -/
def val8 (V0 : Valuation τ sig (Elt Ideal)) : Valuation τ sig (Elt Ideal) := after (w7 (F := Ideal)) (val7 V0)

set_option maxRecDepth 8192 in
set_option maxHeartbeats 2000000 in
theorem val8_main_arg0 (V0 : Valuation τ sig (Elt Ideal)) : val8 V0 (no_index (Proc.devRef .tc main_arg0)) = (V0 (Proc.devRef .tc main_arg0)) := by
  unfold val8
  simp only [w7]
  after_results_simp
  simp only [val7_main_arg0] <;> rfl

set_option maxRecDepth 8192 in
set_option maxHeartbeats 2000000 in
theorem val8_main_arg1 (V0 : Valuation τ sig (Elt Ideal)) : val8 V0 (no_index (Proc.devRef .tc main_arg1)) = (V0 (Proc.devRef .tc main_arg1)) := by
  unfold val8
  simp only [w7]
  after_results_simp
  simp only [val7_main_arg1] <;> rfl

set_option maxRecDepth 8192 in
set_option maxHeartbeats 2000000 in
theorem val8_main_arg2 (V0 : Valuation τ sig (Elt Ideal)) : val8 V0 (no_index (Proc.devRef .tc main_arg2)) = (V0 (Proc.devRef .tc main_arg2)) := by
  unfold val8
  simp only [w7]
  after_results_simp
  simp only [val7_main_arg2] <;> rfl

set_option maxRecDepth 8192 in
set_option maxHeartbeats 2000000 in
theorem val8_main_v71 (V0 : Valuation τ sig (Elt Ideal)) : val8 V0 (no_index (Proc.devRef .tc main_v71)) = outV (V0 (Proc.devRef .tc main_arg0)) (V0 (Proc.devRef .tc main_arg1)) (V0 (Proc.devRef .tc main_arg2)) := by
  unfold val8
  simp only [w7]
  after_results_simp
  simp only [val7_main_v61, val7_main_v13, val7_main_v7, val7_main_arg1, val7_main_arg2] <;> rfl

/-- The whole list's fold is the last stretch's contents. -/
theorem after_ops (V0 : Valuation τ sig (Elt Ideal)) : after (ops (F := Ideal)) V0 = val8 V0 := by
  simp only [ops, P0, P1, after_append]
  rfl

/-! ## The run -/

/-- On every device, from any memory with zero counters: every weakly fair execution of @main terminates with the
    result buffer at `outV` of the three arguments' launch contents, and the arguments unchanged. -/
theorem run_whole (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v71)
          = outV (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
      ⟨(h c main_v71).trans (by rw [after_ops]; exact val8_main_v71 (launchContents m c)),
       (h c main_arg0).trans (by rw [after_ops]; exact val8_main_arg0 (launchContents m c)),
       (h c main_arg1).trans (by rw [after_ops]; exact val8_main_arg1 (launchContents m c)),
       (h c main_arg2).trans (by rw [after_ops]; exact val8_main_arg2 (launchContents m c))⟩)
    (run_all (F := Ideal) m ρ)

end Cert.ReferenceIdeal.RefValue

end
-- ==== Proof.LibPlainDot.lean ====
/-
  A plain matrix product [M, K] · [K, N] (the dimension numbers that contract the left operand's columns with the
  right operand's rows, no batch axis) read at a single entry on the extended reals: entry (p, q) is the sum over
  k of x (p, k) · y (k, q). This holds of the vector unit's product into a zero accumulator and of the host's
  dot_general alike, because at the ideal values both are the exact sum over the contraction index, and for
  these dimension numbers that index is one coordinate k < K.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : ℕ)

/-- The left operand's row is the result's row. -/
theorem lhs_row (i : (⟨2, ![M, N]⟩ : Shape).Idx) (k : (DotDims.plain M K N).contr.Idx) :
    ((DotDims.plain M K N).lhsIdx i k 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (k : (DotDims.plain M K N).contr.Idx) :
    ((DotDims.plain M K N).lhsIdx i k 1).val = (k ⟨0, (show 0 < (DotDims.plain M K N).contr.rank from Nat.one_pos)⟩).val :=
  (DotDims.plain M K N).lhsIdx_val_of_single rfl i k

/-- The right operand's row is the contraction coordinate. -/
theorem rhs_row (i : (⟨2, ![M, N]⟩ : Shape).Idx) (k : (DotDims.plain M K N).contr.Idx) :
    ((DotDims.plain M K N).rhsIdx i k 0).val = (k ⟨0, (show 0 < (DotDims.plain M K N).contr.rank from Nat.one_pos)⟩).val :=
  (DotDims.plain M K N).rhsIdx_val_of_single rfl i k

/-- The right operand's column is the result's column. -/
theorem rhs_col (i : (⟨2, ![M, N]⟩ : Shape).Idx) (k : (DotDims.plain M K N).contr.Idx) :
    ((DotDims.plain M K N).rhsIdx i k 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index, re-indexed by its one coordinate. -/
theorem sum_contr (x : (⟨2, ![M, K]⟩ : Shape).Idx → EReal) (y : (⟨2, ![K, N]⟩ : Shape).Idx → EReal) (p : Fin M) (q : Fin N) :
    ∑ k : (DotDims.plain M K N).contr.Idx,
        x ((DotDims.plain M K N).lhsIdx (ix2 p q) k) * y ((DotDims.plain M K N).rhsIdx (ix2 p q) k)
      = ∑ k : Fin K, x (ix2 p k) * y (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

variable {M K N}

/-- The vector unit's product into the zero accumulator, at entry (p, q). The dimension record is any one that
    is the plain one (a program's own record is, by unfolding). -/
theorem matmul_zero_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    matmul D prec x y (constant (F := Ideal) ⟨2, ![M, N]⟩ .f32 0x00000000#32) (ix2 p q) = ∑ k : Fin K, x (ix2 p k) * y (ix2 k q) := by
  subst hD
  exact (Ideal.matmul_constant_zero_apply _ prec x y (ix2 p q)).trans (sum_contr M K N x y p q)

/-- The host's dot_general, at entry (p, q). -/
theorem dotGeneral_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  subst hD
  exact (Ideal.dotGeneral_apply _ prec .single x y (ix2 p q)).trans (sum_contr M K N x y p q)

end Cert.Lib.PlainDot

end
-- ==== Proof.RefValue.lean ====
/-
  The reference's result read at an index. Each stage of the run — the channel means, the centred data, its
  flattening to n × 32, the covariance, the product with the whitening matrix, the final · γ + β — is read at a
  coordinate and brought to the form of the shared specification: the sums over the flattened axis n and over the three
  reduced axes become sums over (b, co, a); the Newton–Schulz chain stays the specification's function of the covariance.
-/
import proofs.«174776_j89060441849996_2_alg».proof.Proof.RefRun
import proofs.«174776_j89060441849996_2_alg».proof.Proof.LibPlainDot
import Idealize.ShloMosaic.Lib.IdealHost
import Idealize.ShloMosaic.Lib.Pipeline.Value
import Idealize.ShloMosaic.Lib.ValueLayout

noncomputable section

open scoped BigOperators

namespace Cert.ReferenceIdeal.RefValue

open Cert.ReferenceIdeal Idealize.ShloMosaic Idealize.ShloMosaic.ValueIdx Idealize.ShloMosaic.TcCoe Idealize.SL.Sem

variable [Facts]
open Facts₀ Facts

/-- The input by coordinates. -/
def x4 (v : FVec Ideal S128x32x128x64 .f32) : Fin 128 → Fin 32 → Fin 128 → Fin 64 → EReal := fun b i co a => v (ValueIdx.ix4 b i co a)
/-- A per-channel array by its channel. -/
def ch (v : FVec Ideal S1x32x1x1 .f32) : Fin 32 → EReal := fun i => v (ValueIdx.ix4 0 i 0 0)

/-! ## The flattened axis -/

/-- The row of (b, co, a) in the flattened data: (b·128 + co)·64 + a. -/
def nIdx (b : Fin 128) (co : Fin 128) (a : Fin 64) : Fin 1048576 := ⟨(b.val * 128 + co.val) * 64 + a.val, by omega⟩

/-- The rows of the flattened data are the triples (b, co, a). -/
def flatEquiv : Fin 128 × Fin 128 × Fin 64 ≃ Fin 1048576 where
  toFun p := nIdx p.1 p.2.1 p.2.2
  invFun n := (⟨n.val / 8192, by have := n.isLt; omega⟩, ⟨n.val / 64 % 128, by omega⟩, ⟨n.val % 64, by omega⟩)
  left_inv := fun ⟨b, co, a⟩ => by
    have hb := b.isLt; have hc := co.isLt; have ha := a.isLt
    refine Prod.ext (Fin.ext ?_) (Prod.ext (Fin.ext ?_) (Fin.ext ?_))
    · show ((b.val * 128 + co.val) * 64 + a.val) / 8192 = b.val; omega
    · show ((b.val * 128 + co.val) * 64 + a.val) / 64 % 128 = co.val; omega
    · show ((b.val * 128 + co.val) * 64 + a.val) % 64 = a.val; omega
  right_inv := fun n => Fin.ext (by
    have := n.isLt
    show (n.val / 8192 * 128 + n.val / 64 % 128) * 64 + n.val % 64 = n.val; omega)

/-- A sum over the flattened axis is the triple sum over (b, co, a). -/
theorem sum_flat (f : Fin 1048576 → EReal) :
    ∑ n : Fin 1048576, f n = ∑ b : Fin 128, ∑ co : Fin 128, ∑ a : Fin 64, f (nIdx b co a) := by
  rw [← Equiv.sum_comp flatEquiv f, Fintype.sum_prod_type]
  refine Finset.sum_congr rfl fun b _ => ?_
  rw [Fintype.sum_prod_type]
  rfl

/-! ## The channel means -/

/-- The sum over the three reduced axes, at channel i. -/
theorem chanSum (x : FVec Ideal S128x32x128x64 .f32) (i : Fin 32) :
    Host.reduceAdd (F := Ideal) x (constant (F := Ideal) S_ .f32 0x00000000#32) reducesTo_S128x32x128x64_S32_d0_2_3 h_S_ (ix1 i)
      = ∑ b : Fin 128, ∑ co : Fin 128, ∑ a : Fin 64, x (ix4 b i co a) := by
  rw [hostReduceAdd_apply]
  unfold Ideal.hostReduceAdd
  rw [constant_apply, Ideal.ofBits_zero_f32, zero_add]
  have hdrop : ∀ idx : S128x32x128x64.Idx,
      (reducesTo_S128x32x128x64_S32_d0_2_3.drop idx = ix1 i) ↔ idx 1 = i := fun idx => by
    constructor
    · intro h
      have h0 := congrArg (fun j : S32.Idx => (j 0).val) h
      exact Fin.ext h0
    · intro h
      funext c
      match c with
      | ⟨0, _⟩ => exact Fin.ext (congrArg Fin.val h)
  have key : ∑ idx ∈ Finset.univ.filter (fun idx => reducesTo_S128x32x128x64_S32_d0_2_3.drop idx = ix1 i), x idx
      = ∑ p : Fin 128 × Fin 128 × Fin 64, x (ix4 p.1 i p.2.1 p.2.2) := by
    refine Finset.sum_nbij' (fun idx => ((idx 0 : Fin 128), (idx 2 : Fin 128), (idx 3 : Fin 64)))
      (fun p => ix4 p.1 i p.2.1 p.2.2) ?_ ?_ ?_ ?_ ?_
    · intro idx _; exact Finset.mem_univ _
    · intro p _; exact Finset.mem_filter.mpr ⟨Finset.mem_univ _, (hdrop _).mpr rfl⟩
    · intro idx hidx
      have h1 := (hdrop idx).mp (Finset.mem_filter.mp hidx).2
      subst h1
      exact (eq_ix4 idx).symm
    · intro p _; rfl
    · intro idx hidx
      have h1 := (hdrop idx).mp (Finset.mem_filter.mp hidx).2
      subst h1
      exact congrArg x (eq_ix4 idx)
  rw [key, Fintype.sum_prod_type]
  refine Finset.sum_congr rfl fun b _ => ?_
  rw [Fintype.sum_prod_type]

/-- The mean of channel i. -/
theorem meanV_apply (x : FVec Ideal S128x32x128x64 .f32) (i : Fin 32) : meanV x (ix4 0 i 0 0) = Cert.Spec.meanR (x4 x) i := by
  unfold meanV
  rw [hostDivf_apply,
    broadcastInDim_apply (![1] : Fin 1 → Fin S1x32x1x1.rank) bcast_S32_S1x32x1x1_1 _ (ix4 0 i 0 0) (ix1 i)
      (fun a => match a with | ⟨0, _⟩ => rfl),
    broadcastInDim_scalar_apply, chanSum]
  rfl

/-! ## The centred data and its flattening -/

/-- A per-channel array spread over the input's shape reads its channel. -/
theorem spreadCh_apply (v : FVec Ideal S1x32x1x1 .f32) (b : Fin 128) (i : Fin 32) (co : Fin 128) (a : Fin 64) :
    broadcastInDim S128x32x128x64 ![0, 1, 2, 3] bcast_S1x32x1x1_S128x32x128x64_0_1_2_3 v (ix4 b i co a) = v (ix4 0 i 0 0) :=
  broadcastInDim_apply _ _ v (ix4 b i co a) (ix4 0 i 0 0)
    (fun c => match c with | ⟨0, _⟩ => rfl | ⟨1, _⟩ => rfl | ⟨2, _⟩ => rfl | ⟨3, _⟩ => rfl)

theorem cenV_apply (x : FVec Ideal S128x32x128x64 .f32) (b : Fin 128) (i : Fin 32) (co : Fin 128) (a : Fin 64) :
    cenV x (ix4 b i co a) = Cert.Spec.cen (x4 x) b i co a := by
  unfold cenV
  rw [subf_apply, spreadCh_apply, meanV_apply]
  rfl

/-- Row (b, co, a), column i of the flattened centred data. -/
theorem flatV_apply (x : FVec Ideal S128x32x128x64 .f32) (b : Fin 128) (co : Fin 128) (a : Fin 64) (i : Fin 32) :
    flatV x (ix2 (nIdx b co a) i) = Cert.Spec.cen (x4 x) b i co a := by
  unfold flatV
  rw [shapeCast_apply _ shapeCasts_S128x128x64x32_S1048576x32 (ix2 (nIdx b co a) i) (ix4 b co a i)
      (by rw [Shape.rowMajor_val_four, Shape.rowMajor_val_two]; rfl),
    transpose_apply _ _ transposes_S128x32x128x64_S128x128x64x32_0_2_3_1 (ix4 b co a i) (ix4 b i co a)
      (fun c => match c with | ⟨0, _⟩ => rfl | ⟨1, _⟩ => rfl | ⟨2, _⟩ => rfl | ⟨3, _⟩ => rfl),
    cenV_apply]

/-! ## The covariance -/

/-- The flattened centred data transposed reads the flattened data at the swapped index. -/
theorem flatT_apply (x : FVec Ideal S128x32x128x64 .f32) (i : Fin 32) (n : Fin 1048576) :
    transpose S32x1048576 [1, 0] (flatV x) transposes_S1048576x32_S32x1048576_1_0 (ix2 i n) = flatV x (ix2 n i) :=
  transpose_ix2_apply (flatV x) transposes_S1048576x32_S32x1048576_1_0 i n

theorem sigV_apply (x : FVec Ideal S128x32x128x64 .f32) (i j : Fin 32) : sigV x (ix2 i j) = Cert.Spec.sigmaR (x4 x) i j := by
  unfold sigV
  rw [hostDivf_apply, Cert.Lib.PlainDot.dotGeneral_apply dot_S32x1048576_S1048576x32_S32x32_1_0_0_1_n_n rfl, broadcastInDim_scalar_apply, sum_flat]
  unfold Cert.Spec.sigmaR
  refine congrArg₂ Ideal.div (Finset.sum_congr rfl fun b _ => Finset.sum_congr rfl fun co _ =>
    Finset.sum_congr rfl fun a _ => ?_) rfl
  rw [flatT_apply, flatV_apply, flatV_apply]

/-- The covariance is the specification's, as an array. -/
theorem sigV_eq (x : FVec Ideal S128x32x128x64 .f32) : sigV x = Cert.Spec.toV (Cert.Spec.sigmaR (x4 x)) :=
  funext fun idx => (congrArg (sigV x) (eq_ix2 idx)).trans (sigV_apply x (idx 0) (idx 1))

/-! ## The result -/

theorem outV_apply (x : FVec Ideal S128x32x128x64 .f32) (g β : FVec Ideal S1x32x1x1 .f32) (b : Fin 128) (i : Fin 32) (co : Fin 128) (a : Fin 64) :
    outV x g β (ix4 b i co a)
      = Cert.Spec.outR h_S_ bcast_S_S32x32 reducesTo_S32x32_S_d0_1 dot_S32x32_S32x32_S32x32_1_0_0_1_n_n_wf (x4 x) (ch g) (ch β) b i co a := by
  unfold outV
  rw [addf_apply, mulf_apply, spreadCh_apply, spreadCh_apply,
    transpose_apply _ _ transposes_S128x128x64x32_S128x32x128x64_0_3_1_2 (ix4 b i co a) (ix4 b co a i)
      (fun c => match c with | ⟨0, _⟩ => rfl | ⟨1, _⟩ => rfl | ⟨2, _⟩ => rfl | ⟨3, _⟩ => rfl),
    shapeCast_apply _ shapeCasts_S1048576x32_S128x128x64x32 (ix4 b co a i) (ix2 (nIdx b co a) i)
      (by rw [Shape.rowMajor_val_four, Shape.rowMajor_val_two]; rfl),
    Cert.Lib.PlainDot.dotGeneral_apply dot_S1048576x32_S32x32_S1048576x32_1_0_0_1_n_n rfl, PV_eq, sigV_eq]
  simp only [flatV_apply]
  rfl

/-- The result as a function of its index. -/
theorem outV_eq (x : FVec Ideal S128x32x128x64 .f32) (g β : FVec Ideal S1x32x1x1 .f32) :
    outV x g β = fun idx => Cert.Spec.outR h_S_ bcast_S_S32x32 reducesTo_S32x32_S_d0_1 dot_S32x32_S32x32_S32x32_1_0_0_1_n_n_wf (x4 x) (ch g) (ch β) (idx 0) (idx 1) (idx 2) (idx 3) :=
  funext fun idx => (congrArg (outV x g β) (eq_ix4 idx)).trans (outV_apply x g β (idx 0) (idx 1) (idx 2) (idx 3))

/-- On every device, from any memory with zero counters: every weakly fair execution of the reference terminates with
    its result, at every index, the specification's value of the three arguments' launch contents, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v71) = (fun idx => Cert.Spec.outR h_S_ bcast_S_S32x32 reducesTo_S32x32_S_d0_1 dot_S32x32_S32x32_S32x32_1_0_0_1_n_n_wf (x4 (m ((c.tc : Thread nD τ).loc main_arg0))) (ch (m ((c.tc : Thread nD τ).loc main_arg1))) (ch (m ((c.tc : Thread nD τ).loc main_arg2))) (idx 0) (idx 1) (idx 2) (idx 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
      ⟨(h c).1.trans (outV_eq _ _ _), (h c).2⟩)
    (run_whole m ρ)

end Cert.ReferenceIdeal.RefValue

end
-- ==== Proof.CovAlgebraLits.lean ====
/-
  The four float literals of the covariance formulas, as the reals they denote.
-/
import proofs.«174776_j89060441849996_2_alg».proof.Proof.Spec

noncomputable section

namespace Cert.Spec

open Idealize.ShloMosaic

/-- The pattern 0x49800000 denotes 2^20 = 1048576. -/
theorem NN_eq : NN = ((1048576 : ℝ) : EReal) := by
  simp [NN, Ideal.ofBits, Ideal.ieee, -EReal.coe_mul]; norm_num

/-- The pattern 0x497FFFF0 denotes 2^20 − 1 = 1048575. -/
theorem N1_eq : N1 = ((1048575 : ℝ) : EReal) := by
  simp [N1, Ideal.ofBits, Ideal.ieee, -EReal.coe_mul]; norm_num

/-- The pattern 0x3F800000 denotes 1. -/
theorem ONE_eq : ONE = ((1 : ℝ) : EReal) := by
  simp [ONE, Ideal.ofBits, Ideal.ieee, -EReal.coe_mul]; norm_num

/-- The pattern 0x3F000000 denotes 1/2. -/
theorem HALF_eq : HALF = ((1 / 2 : ℝ) : EReal) := by
  simp [HALF, Ideal.ofBits, Ideal.ieee, -EReal.coe_mul]; norm_num

end Cert.Spec

end
-- ==== Proof.CovAlgebra.lean ====
/-
  The covariance algebra over finite real data: the block-wise sums of the kernel are the plain sums of the
  reference, the "sum of products minus n·mean·mean" form of the covariance is the centred form, the covariance is a
  real symmetric matrix that vanishes with its trace, and the two final contractions agree entry by entry.
-/
import proofs.«174776_j89060441849996_2_alg».proof.Proof.Spec
import proofs.«174776_j89060441849996_2_alg».proof.Proof.CovAlgebraLits
import Mathlib

noncomputable section

namespace Cert.Spec

open Idealize.ShloMosaic Idealize.ShloMosaic.ValueIdx

/-! ## Coercions and finite sums -/

/-- A finite sum of coerced reals is the coercion of the real sum. -/
theorem coe_sum {ι : Type*} (s : Finset ι) (f : ι → ℝ) :
    ∑ t ∈ s, ((f t : ℝ) : EReal) = ((∑ t ∈ s, f t : ℝ) : EReal) := by
  classical
  induction s using Finset.induction_on with
  | empty => simp
  | insert a s ha ih => rw [Finset.sum_insert ha, Finset.sum_insert ha, ih, EReal.coe_add]

/-- The real data as extended reals. -/
def coe4 (xr : Fin 128 → Fin 32 → Fin 128 → Fin 64 → ℝ) : Fin 128 → Fin 32 → Fin 128 → Fin 64 → EReal :=
  fun b i co a => ((xr b i co a : ℝ) : EReal)

/-! ## The two re-indexings -/

/-- (c, s, k) ↦ (16 c + s)·4 + k is a bijection onto the 128 batch rows. -/
def browEquiv : Fin 2 × Fin 16 × Fin 4 ≃ Fin 128 where
  toFun p := brow p.1 p.2.1 p.2.2
  invFun b := (⟨b.val / 64, by omega⟩, ⟨(b.val / 4) % 16, by omega⟩, ⟨b.val % 4, by omega⟩)
  left_inv := by
    rintro ⟨c, s, k⟩
    simp only [brow, Prod.mk.injEq, Fin.ext_iff]
    refine ⟨?_, ?_, ?_⟩ <;> omega
  right_inv := by
    intro b
    simp only [brow, Fin.ext_iff]
    omega

/-- (co, a) ↦ 64 co + a is a bijection onto the 8192 merged positions. -/
def flatEquiv : Fin 128 × Fin 64 ≃ Fin 8192 where
  toFun p := flat p.1 p.2
  invFun f := (⟨f.val / 64, by omega⟩, ⟨f.val % 64, by omega⟩)
  left_inv := by
    rintro ⟨co, a⟩
    simp only [flat, Prod.mk.injEq, Fin.ext_iff]
    refine ⟨?_, ?_⟩ <;> omega
  right_inv := by
    intro f
    simp only [flat, Fin.ext_iff]
    omega

theorem sum_brow {M : Type*} [AddCommMonoid M] (g : Fin 128 → M) :
    ∑ c : Fin 2, ∑ s : Fin 16, ∑ k : Fin 4, g (brow c s k) = ∑ b : Fin 128, g b := by
  rw [← Fintype.sum_equiv browEquiv (fun p => g (brow p.1 p.2.1 p.2.2)) g (fun _ => rfl)]
  simp only [Fintype.sum_prod_type]

theorem sum_flat {M : Type*} [AddCommMonoid M] (g : Fin 8192 → M) :
    ∑ f : Fin 8192, g f = ∑ co : Fin 128, ∑ a : Fin 64, g (flat co a) := by
  rw [← Fintype.sum_equiv flatEquiv (fun p => g (flat p.1 p.2)) g (fun _ => rfl)]
  simp only [Fintype.sum_prod_type]

/-- Reading the merged input at 64 co + a reads the input at (co, a). -/
theorem merge_flat (x : Fin 128 → Fin 32 → Fin 128 → Fin 64 → EReal) (b : Fin 128) (i : Fin 32) (co : Fin 128)
    (a : Fin 64) : merge x b i (flat co a) = x b i co a := by
  unfold merge
  have h1 : (flat co a).val / 64 = co.val := by simp only [flat]; omega
  have h2 : (flat co a).val % 64 = a.val := by simp only [flat]; omega
  exact congr (congrArg (x b i) (Fin.ext h1)) (Fin.ext h2)

/-- The two cores' block-wise sums of any function of (batch row, merged position) together are the plain sum over
    batch row and the two unmerged positions. -/
theorem sum_blocks {M : Type*} [AddCommMonoid M] (g : Fin 128 → Fin 8192 → M) :
    (∑ s : Fin 16, ∑ k : Fin 4, ∑ f : Fin 8192, g (brow 0 s k) f)
      + (∑ s : Fin 16, ∑ k : Fin 4, ∑ f : Fin 8192, g (brow 1 s k) f)
      = ∑ b : Fin 128, ∑ co : Fin 128, ∑ a : Fin 64, g b (flat co a) := by
  rw [← Fin.sum_univ_two (fun c : Fin 2 => ∑ s : Fin 16, ∑ k : Fin 4, ∑ f : Fin 8192, g (brow c s k) f),
    sum_brow (fun b => ∑ f : Fin 8192, g b f)]
  exact Finset.sum_congr rfl (fun b _ => sum_flat (g b))

/-! ## The kernel's block-wise sums are the reference's sums -/

theorem meanK_merge (x : Fin 128 → Fin 32 → Fin 128 → Fin 64 → EReal) (i : Fin 32) :
    meanK (merge x) i = meanR x i := by
  unfold meanK meanR partSum
  rw [sum_blocks (fun b f => merge x b i f)]
  simp only [merge_flat]

theorem partCp_merge (x : Fin 128 → Fin 32 → Fin 128 → Fin 64 → EReal) (i j : Fin 32) :
    partCp (merge x) 0 i j + partCp (merge x) 1 i j
      = ∑ b : Fin 128, ∑ co : Fin 128, ∑ a : Fin 64, x b i co a * x b j co a := by
  unfold partCp
  rw [sum_blocks (fun b f => merge x b i f * merge x b j f)]
  simp only [merge_flat]

theorem meanK_eq (xr : Fin 128 → Fin 32 → Fin 128 → Fin 64 → ℝ) (i : Fin 32) :
    meanK (merge (coe4 xr)) i = meanR (coe4 xr) i := meanK_merge _ i

/-! ## The real mean and covariance -/

/-- The real channel mean. -/
def meanRr (xr : Fin 128 → Fin 32 → Fin 128 → Fin 64 → ℝ) (i : Fin 32) : ℝ :=
  (∑ b : Fin 128, ∑ co : Fin 128, ∑ a : Fin 64, xr b i co a) / 1048576

/-- The real covariance, centred form, normalised by n − 1. -/
def covR (xr : Fin 128 → Fin 32 → Fin 128 → Fin 64 → ℝ) (i j : Fin 32) : ℝ :=
  (∑ b : Fin 128, ∑ co : Fin 128, ∑ a : Fin 64, (xr b i co a - meanRr xr i) * (xr b j co a - meanRr xr j)) / 1048575

theorem meanR_coe (xr : Fin 128 → Fin 32 → Fin 128 → Fin 64 → ℝ) (i : Fin 32) :
    meanR (coe4 xr) i = ((meanRr xr i : ℝ) : EReal) := by
  unfold meanR coe4 meanRr
  simp only [coe_sum]
  rw [NN_eq, Ideal.div_coe (by norm_num), ← EReal.coe_mul]
  congr 1; ring

theorem cen_coe (xr : Fin 128 → Fin 32 → Fin 128 → Fin 64 → ℝ) (b : Fin 128) (i : Fin 32) (co : Fin 128)
    (a : Fin 64) : cen (coe4 xr) b i co a = ((xr b i co a - meanRr xr i : ℝ) : EReal) := by
  unfold cen; rw [meanR_coe, EReal.coe_sub]; rfl

theorem sigmaR_coe (xr : Fin 128 → Fin 32 → Fin 128 → Fin 64 → ℝ) (i j : Fin 32) :
    sigmaR (coe4 xr) i j = ((covR xr i j : ℝ) : EReal) := by
  unfold sigmaR
  simp only [cen_coe, ← EReal.coe_mul, coe_sum]
  rw [NN_eq, ONE_eq, ← EReal.coe_sub, Ideal.div_coe (by norm_num), ← EReal.coe_mul]
  congr 1; unfold covR; norm_num; ring

/-- Σ (u − ū)(v − v̄) = Σ u v − n ū v̄ over any finite index set with n ≠ 0 elements. -/
theorem cov_identity {ι : Type*} [Fintype ι] (u v : ι → ℝ) (n : ℝ) (hn : (Fintype.card ι : ℝ) = n) (hn0 : n ≠ 0) :
    ∑ t, (u t - (∑ t, u t) / n) * (v t - (∑ t, v t) / n)
      = ∑ t, u t * v t - n * ((∑ t, u t) / n * ((∑ t, v t) / n)) := by
  generalize hU : ∑ t, u t = U
  generalize hV : ∑ t, v t = V
  have h : ∀ t, (u t - U / n) * (v t - V / n) = u t * v t - (U / n) * v t - (V / n) * u t + U / n * (V / n) := by
    intro t; ring
  simp only [h]
  rw [Finset.sum_add_distrib, Finset.sum_sub_distrib, Finset.sum_sub_distrib, ← Finset.mul_sum, ← Finset.mul_sum,
    Finset.sum_const, Finset.card_univ, nsmul_eq_mul, hn, hU, hV]
  field_simp; ring

theorem cov_identity3 (u v : Fin 128 → Fin 128 → Fin 64 → ℝ) :
    ∑ b : Fin 128, ∑ co : Fin 128, ∑ a : Fin 64,
        (u b co a - (∑ b : Fin 128, ∑ co : Fin 128, ∑ a : Fin 64, u b co a) / 1048576)
          * (v b co a - (∑ b : Fin 128, ∑ co : Fin 128, ∑ a : Fin 64, v b co a) / 1048576)
      = (∑ b : Fin 128, ∑ co : Fin 128, ∑ a : Fin 64, u b co a * v b co a)
        - 1048576 * ((∑ b : Fin 128, ∑ co : Fin 128, ∑ a : Fin 64, u b co a) / 1048576
            * ((∑ b : Fin 128, ∑ co : Fin 128, ∑ a : Fin 64, v b co a) / 1048576)) := by
  have key := cov_identity (ι := Fin 128 × Fin 128 × Fin 64) (fun p => u p.1 p.2.1 p.2.2) (fun p => v p.1 p.2.1 p.2.2)
    1048576 (by simp only [Fintype.card_prod, Fintype.card_fin]; norm_num) (by norm_num)
  simp only [Fintype.sum_prod_type] at key
  exact key

theorem sigmaK_coe (xr : Fin 128 → Fin 32 → Fin 128 → Fin 64 → ℝ) (i j : Fin 32) :
    sigmaK (merge (coe4 xr)) i j = ((covR xr i j : ℝ) : EReal) := by
  unfold sigmaK
  rw [partCp_merge, meanK_merge, meanK_merge, meanR_coe, meanR_coe]
  simp only [coe4, ← EReal.coe_mul, coe_sum]
  rw [NN_eq, N1_eq, ← EReal.coe_mul, ← EReal.coe_sub, Ideal.div_coe (by norm_num), ← EReal.coe_mul]
  congr 1
  unfold covR meanRr
  rw [cov_identity3 (fun b co a => xr b i co a) (fun b co a => xr b j co a)]
  ring

theorem sigmaK_eq (xr : Fin 128 → Fin 32 → Fin 128 → Fin 64 → ℝ) (i j : Fin 32) :
    sigmaK (merge (coe4 xr)) i j = sigmaR (coe4 xr) i j := by
  rw [sigmaK_coe, sigmaR_coe]

/-- The covariance is a real symmetric matrix, and it vanishes if its trace does: the trace is a sum of squares of
    all centred values. -/
theorem sigmaR_real (xr : Fin 128 → Fin 32 → Fin 128 → Fin 64 → ℝ) :
    ∃ M : Fin 32 → Fin 32 → ℝ, (∀ i j, sigmaR (coe4 xr) i j = ((M i j : ℝ) : EReal)) ∧ (∀ i j, M i j = M j i)
      ∧ ((∑ i, M i i) = 0 → ∀ i j, M i j = 0) := by
  refine ⟨covR xr, sigmaR_coe xr, ?_, ?_⟩
  · intro i j
    unfold covR
    congr 1
    exact Finset.sum_congr rfl (fun b _ => Finset.sum_congr rfl (fun co _ => Finset.sum_congr rfl
      (fun a _ => mul_comm _ _)))
  · intro h i j
    have hnn : ∀ i, 0 ≤ covR xr i i := by
      intro i
      unfold covR
      refine div_nonneg ?_ (by norm_num)
      exact Finset.sum_nonneg (fun b _ => Finset.sum_nonneg (fun co _ => Finset.sum_nonneg
        (fun a _ => mul_self_nonneg _)))
    have hz : ∀ i, covR xr i i = 0 := fun i =>
      (Finset.sum_eq_zero_iff_of_nonneg (fun i _ => hnn i)).1 h i (Finset.mem_univ i)
    have hc : ∀ (i : Fin 32) (b : Fin 128) (co : Fin 128) (a : Fin 64), xr b i co a - meanRr xr i = 0 := by
      intro i b co a
      have h0 : ∑ b : Fin 128, ∑ co : Fin 128, ∑ a : Fin 64,
          (xr b i co a - meanRr xr i) * (xr b i co a - meanRr xr i) = 0 := by
        have h' := hz i
        unfold covR at h'
        rcases div_eq_zero_iff.1 h' with h'' | h''
        · exact h''
        · norm_num at h''
      have h1 := (Finset.sum_eq_zero_iff_of_nonneg (fun b _ => Finset.sum_nonneg (fun co _ => Finset.sum_nonneg
        (fun a _ => mul_self_nonneg (xr b i co a - meanRr xr i))))).1 h0 b (Finset.mem_univ b)
      have h2 := (Finset.sum_eq_zero_iff_of_nonneg (fun co _ => Finset.sum_nonneg
        (fun a _ => mul_self_nonneg (xr b i co a - meanRr xr i)))).1 h1 co (Finset.mem_univ co)
      have h3 := (Finset.sum_eq_zero_iff_of_nonneg
        (fun a _ => mul_self_nonneg (xr b i co a - meanRr xr i))).1 h2 a (Finset.mem_univ a)
      exact mul_self_eq_zero.1 h3
    unfold covR
    simp only [hc, zero_mul, Finset.sum_const_zero, zero_div]

/-! ## The final contraction -/

/-- ½ (p + p) = p for every extended real p. -/
theorem half_add_self (p : EReal) : HALF * (p + p) = p := by
  rw [HALF_eq]
  induction p using EReal.rec with
  | bot => rw [EReal.bot_add]; exact EReal.coe_mul_bot_of_pos (by norm_num)
  | coe r => rw [← EReal.coe_add, ← EReal.coe_mul]; congr 1; ring
  | top => rw [EReal.top_add_top]; exact EReal.coe_mul_top_of_pos (by norm_num)

theorem out_eq (hS : 0 < S_.numel) (hb : S_.BroadcastsInDim S32x32 (![] : Fin 0 → Fin S32x32.rank))
    (hr : S32x32.ReducesTo [0, 1] S_) (hwf : DotDims.WF S32x32 S32x32 S32x32 [1] [0] [0] [1] [] [])
    (xr : Fin 128 → Fin 32 → Fin 128 → Fin 64 → ℝ) (g β : Fin 32 → EReal)
    (hsym : ∀ i j : Fin 32, NS hS hb hr hwf (toV (sigmaR (coe4 xr))) (ix2 i j)
      = NS hS hb hr hwf (toV (sigmaR (coe4 xr))) (ix2 j i))
    (b : Fin 128) (i : Fin 32) (co : Fin 128) (a : Fin 64) :
    outK hS hb hr hwf (merge (coe4 xr)) g β b i (flat co a) = outR hS hb hr hwf (coe4 xr) g β b i co a := by
  have hσ : sigmaK (merge (coe4 xr)) = sigmaR (coe4 xr) := by
    funext i j; exact sigmaK_eq xr i j
  unfold outK outR cen
  rw [hσ]
  refine congrArg (fun s => s * g i + β i) ?_
  refine Finset.sum_congr rfl (fun j _ => ?_)
  rw [hsym i j, half_add_self, merge_flat, meanK_merge, mul_comm]

end Cert.Spec

end
-- ==== Proof.Finite.lean ====
/-
  Finiteness from the precondition: the predicate is the conjunction of three "every |entry| < +∞" tests; where it is 1,
  every entry of the first array is neither +∞ nor −∞, hence the coercion of a real.
-/
import proofs.«174776_j89060441849996_2_alg».proof.Pre_finite_inputs
import proofs.«174776_j89060441849996_2_alg».proof.Proof.CovAlgebra
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Idealize.ShloMosaic.ValueIdx

variable [Cert.Pre_finite_inputs.Facts]
open Cert.Pre_finite_inputs.Facts

/-- The rank-0 shape has one index. -/
instance : Subsingleton Cert.Pre_finite_inputs.S_.Idx := ⟨fun a b => funext fun d => d.elim0⟩

/-- The pattern 0x7F800000 denotes +∞. -/
theorem ofBits_inf : Ideal.ofBits .f32 0x7F800000#32 = ⊤ := by
  simp [Ideal.ofBits, Ideal.ieee]

theorem ofBool_eq_one (b : Bool) : BitVec.ofBool b = 1#1 ↔ b = true := by cases b <;> decide

/-- Where the predicate is 1, every entry of the first array has |entry| < +∞. -/
theorem abs_lt_top (a0 : FVec Ideal Cert.Pre_finite_inputs.S128x32x128x64 .f32)
    (a1 a2 : FVec Ideal Cert.Pre_finite_inputs.S1x32x1x1 .f32)
    (h : Cert.Pre_finite_inputs.fn (F := Ideal) a0 a1 a2 = fun _ => 1#1)
    (idx : Cert.Pre_finite_inputs.S128x32x128x64.Idx) : max (a0 idx) (-(a0 idx)) < (⊤ : EReal) := by
  have e := congrFun h ValueIdx.ix0
  dsimp only [Cert.Pre_finite_inputs.fn] at e
  obtain ⟨h38, -⟩ := IntOp.andi_eq_one.1 e
  obtain ⟨h3, -⟩ := IntOp.andi_eq_one.1 h38
  have hx := Host.reduce_andi_all _ _ _ _ _ h3 idx
  have hx' : Ideal.cmp .olt (max (a0 idx) (-(a0 idx))) (Ideal.ofBits .f32 0x7F800000#32) = 1#1 := hx
  rw [ofBits_inf] at hx'
  unfold Ideal.cmp at hx'
  rw [ofBool_eq_one] at hx'
  exact of_decide_eq_true hx'

/-- Where the predicate is 1, the first array is the coercion of a real array. -/
theorem real_of_pre (a0 : FVec Ideal Cert.Pre_finite_inputs.S128x32x128x64 .f32)
    (a1 a2 : FVec Ideal Cert.Pre_finite_inputs.S1x32x1x1 .f32)
    (h : Cert.Pre_finite_inputs.fn (F := Ideal) a0 a1 a2 = fun _ => 1#1) :
    ∃ xr : Fin 128 → Fin 32 → Fin 128 → Fin 64 → ℝ,
      (fun b i co a => a0 (ValueIdx.ix4 b i co a)) = Cert.Spec.coe4 xr := by
  refine ⟨fun b i co a => EReal.toReal (a0 (ValueIdx.ix4 b i co a)), ?_⟩
  funext b i co a
  have hlt := abs_lt_top a0 a1 a2 h (ValueIdx.ix4 b i co a)
  rw [max_lt_iff] at hlt
  have htop : a0 (ValueIdx.ix4 b i co a) ≠ ⊤ := ne_of_lt hlt.1
  have hbot : a0 (ValueIdx.ix4 b i co a) ≠ ⊥ := by
    intro hb
    rw [hb, EReal.neg_bot] at hlt
    exact lt_irrefl _ hlt.2
  exact (EReal.coe_toReal htop hbot).symm

end Cert.Finite

end
-- ==== Proof.NsSymmOps.lean ====
/-
  The operations of the Newton–Schulz chain read at an entry (i, j) of a 32 × 32 array of extended reals:
  a scalar spread over the array is that scalar everywhere; the diagonal mask is 1 exactly where i = j; the
  identity matrix is the real 1 there and the real 0 elsewhere; the trace of an array of reals is the real sum of
  its diagonal; a matrix product is the sum over the inner coordinate; the two float literals of the step are the
  reals 1/2 and 3; and one step at (i, j) is  ½ · (3 · p(i,j) − ∑ k, (∑ l, (∑ m, p(i,m) p(m,l)) p(l,k)) sn(k,j)).
-/
import proofs.«174776_j89060441849996_2_alg».proof.Proof.Spec
import proofs.«174776_j89060441849996_2_alg».proof.Proof.LibPlainDot

noncomputable section

namespace Cert.Spec

open Idealize.ShloMosaic Idealize.ShloMosaic.ValueIdx

/-- The coercion of a finite real sum is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The float literal 0.5 is the real 1/2. -/
theorem ofBits_half : Ideal.ofBits .f32 0x3F000000#32 = ((1 / 2 : ℝ) : EReal) := by
  simp [Ideal.ofBits, Ideal.ieee, -EReal.coe_mul]; norm_num

/-- The float literal 3.0 is the real 3. -/
theorem ofBits_three : Ideal.ofBits .f32 0x40400000#32 = ((3 : ℝ) : EReal) := by
  simp [Ideal.ofBits, Ideal.ieee, -EReal.coe_mul]; norm_num

section
variable (hS : 0 < S_.numel) (hb : S_.BroadcastsInDim S32x32 (![] : Fin 0 → Fin S32x32.rank))
  (hr : S32x32.ReducesTo [0, 1] S_) (hwf : DotDims.WF S32x32 S32x32 S32x32 [1] [0] [0] [1] [] [])

/-- A spread scalar reads the scalar at every entry. -/
theorem spread_apply (v : FVec Ideal S_ .f32) (idx : S32x32.Idx) : spread hb v idx = v ix0 :=
  congrArg v (funext fun a => a.elim0)

/-- The diagonal mask at (i, j) is 1 when i = j and 0 otherwise. -/
theorem diagMask_ix2 (i j : Fin 32) : diagMask hb (ix2 i j) = if i = j then 1#1 else 0#1 := by
  show IntOp.cmpi .eq (IntOp.addi (BitVec.ofNat 32 i.val) 0#32) (BitVec.ofNat 32 j.val) = _
  by_cases h : i = j
  · subst h; simp [IntOp.cmpi, IntOp.addi]
  · rw [if_neg h]
    have hne : ¬ (BitVec.ofNat 32 i.val = BitVec.ofNat 32 j.val) := by
      intro e
      apply h
      have := congrArg BitVec.toNat e
      simp at this
      exact Fin.ext (by omega)
    have e : (BitVec.ofNat 32 i.val == BitVec.ofNat 32 j.val) = false := beq_eq_false_iff_ne.mpr hne
    simp [IntOp.cmpi, IntOp.addi, e]

/-- The identity matrix at (i, j) is the real 1 when i = j and the real 0 otherwise. -/
theorem eye_ix2 (i j : Fin 32) : eye hb (ix2 i j) = (((if i = j then 1 else 0 : ℝ)) : EReal) := by
  show (((diagMask hb (ix2 i j)).toNat : ℝ) : EReal) = _
  rw [diagMask_ix2]
  by_cases h : i = j
  · rw [if_pos h, if_pos h]; simp
  · rw [if_neg h, if_neg h]; simp

/-- The trace of an array of reals is the real sum of its diagonal. -/
theorem trace_coe (M : Fin 32 → Fin 32 → ℝ) :
    trace hS hb hr (toV fun i j => ((M i j : ℝ) : EReal)) ix0 = ((∑ i, M i i : ℝ) : EReal) := by
  unfold trace Host.reduceAdd
  show Ideal.hostReduceAdd hr _ _ ix0 = _
  rw [Ideal.hostReduceAdd_total hr (fun b => b.elim0), sum_idx2]
  have hsel : ∀ a b : Fin 32,
      select (diagMask hb) (toV fun i j => ((M i j : ℝ) : EReal)) (spread hb (constant (F := Ideal) S_ .f32 0x00000000#32)) (ix2 a b)
        = (((if a = b then M a b else 0 : ℝ)) : EReal) := by
    intro a b
    rw [select_apply, diagMask_ix2, spread_apply, toV_ix2]
    by_cases h : a = b
    · rw [if_pos h, if_pos h, select_one]
    · rw [if_neg h, if_neg h, select_zero]
      exact Ideal.ofBits_zero_f32.trans EReal.coe_zero.symm
  simp only [hsel]
  show Ideal.ofBits .f32 0x00000000#32 + _ = _
  rw [Ideal.ofBits_zero_f32, zero_add, coe_finset_sum]
  refine Finset.sum_congr rfl fun a _ => ?_
  rw [← coe_finset_sum, Finset.sum_ite_eq, if_pos (Finset.mem_univ a)]

/-- A 32 × 32 matrix product at (i, j) is the sum over the inner coordinate. -/
theorem dot32_ix2 (A B : FVec Ideal S32x32 .f32) (i j : Fin 32) :
    Host.dotGeneral (F := Ideal) (dot32 hwf) none A B (ix2 i j) = ∑ k : Fin 32, A (ix2 i k) * B (ix2 k j) :=
  Cert.Lib.PlainDot.dotGeneral_apply (dot32 hwf) rfl none A B i j

/-- One Newton–Schulz step at (i, j). -/
theorem nsStep_ix2 (sn p : FVec Ideal S32x32 .f32) (i j : Fin 32) :
    nsStep hb hwf sn p (ix2 i j)
      = ((1 / 2 : ℝ) : EReal) * (((3 : ℝ) : EReal) * p (ix2 i j)
          - ∑ k : Fin 32, (∑ l : Fin 32, (∑ m : Fin 32, p (ix2 i m) * p (ix2 m l)) * p (ix2 l k)) * sn (ix2 k j)) := by
  unfold nsStep
  rw [mulf_apply, subf_apply, mulf_apply, spread_apply, spread_apply, constant_apply, constant_apply,
    ofBits_half, ofBits_three, dot32_ix2]
  simp only [dot32_ix2]

end

end Cert.Spec

end
-- ==== Proof.NsSymmReal.lean ====
/-
  The Newton–Schulz chain on real matrices. When the normalised covariance is (the coercion of) a real symmetric
  matrix N and the iterate is a real symmetric matrix P that commutes with N, one step gives the real matrix
  ½ · (3 · P − P P P N), which is again symmetric and commutes with N: (P P P N)ᵀ = N P P P = P P P N. The chain
  starts at the identity matrix, so every iterate is a real symmetric matrix.
-/
import proofs.«174776_j89060441849996_2_alg».proof.Proof.NsSymmOps
import Mathlib.Data.Matrix.Mul
import Mathlib.Algebra.Group.Commute.Defs

noncomputable section

namespace Cert.Spec

open Idealize.ShloMosaic Idealize.ShloMosaic.ValueIdx

/-- A real 32 × 32 matrix as an array of extended reals. -/
def ofReal (P : Matrix (Fin 32) (Fin 32) ℝ) : FVec Ideal S32x32 .f32 := toV fun i j => ((P i j : ℝ) : EReal)

theorem ofReal_ix2 (P : Matrix (Fin 32) (Fin 32) ℝ) (i j : Fin 32) : ofReal P (ix2 i j) = ((P i j : ℝ) : EReal) := rfl

/-- One step on real matrices: ½ · (3 · P − P P P N). -/
def realStep (N P : Matrix (Fin 32) (Fin 32) ℝ) : Matrix (Fin 32) (Fin 32) ℝ :=
  (1 / 2 : ℝ) • ((3 : ℝ) • P - P * P * P * N)

/-- The iterates from the identity matrix. -/
def realIter (N : Matrix (Fin 32) (Fin 32) ℝ) : ℕ → Matrix (Fin 32) (Fin 32) ℝ
  | 0 => 1
  | k + 1 => realStep N (realIter N k)

/-- A step keeps commutation with N. -/
theorem realStep_commute {N P : Matrix (Fin 32) (Fin 32) ℝ} (hc : Commute P N) : Commute (realStep N P) N := by
  unfold realStep
  exact ((hc.smul_left _).sub_left (((hc.mul_left hc).mul_left hc).mul_left (Commute.refl N))).smul_left _

/-- A step keeps symmetry, given commutation with the symmetric N. -/
theorem realStep_transpose {N P : Matrix (Fin 32) (Fin 32) ℝ} (hN : N.transpose = N) (hP : P.transpose = P)
    (hc : Commute P N) : (realStep N P).transpose = realStep N P := by
  have h3 : Commute (P * P * P) N := (hc.mul_left hc).mul_left hc
  unfold realStep
  rw [Matrix.transpose_smul, Matrix.transpose_sub, Matrix.transpose_smul, Matrix.transpose_mul, Matrix.transpose_mul,
    Matrix.transpose_mul, hN, hP, ← mul_assoc P P P, ← h3.eq]

/-- Every iterate is symmetric and commutes with N. -/
theorem realIter_inv {N : Matrix (Fin 32) (Fin 32) ℝ} (hN : N.transpose = N) (k : ℕ) :
    (realIter N k).transpose = realIter N k ∧ Commute (realIter N k) N := by
  induction k with
  | zero => exact ⟨Matrix.transpose_one, Commute.one_left N⟩
  | succ k ih => exact ⟨realStep_transpose hN ih.1 ih.2, realStep_commute ih.2⟩

section
variable (hb : S_.BroadcastsInDim S32x32 (![] : Fin 0 → Fin S32x32.rank))
  (hwf : DotDims.WF S32x32 S32x32 S32x32 [1] [0] [0] [1] [] [])

/-- The identity array is the real identity matrix. -/
theorem eye_eq_ofReal : eye hb = ofReal 1 := by
  funext idx
  obtain ⟨i, j, rfl⟩ : ∃ (i j : Fin 32), idx = ix2 i j := ⟨idx 0, idx 1, eq_ix2 idx⟩
  rw [eye_ix2, ofReal_ix2, Matrix.one_apply]

/-- A step on real arrays is the real step. -/
theorem nsStep_ofReal (N P : Matrix (Fin 32) (Fin 32) ℝ) :
    nsStep hb hwf (ofReal N) (ofReal P) = ofReal (realStep N P) := by
  funext idx
  obtain ⟨i, j, rfl⟩ : ∃ (i j : Fin 32), idx = ix2 i j := ⟨idx 0, idx 1, eq_ix2 idx⟩
  rw [nsStep_ix2]
  simp only [ofReal_ix2, ← EReal.coe_mul, ← coe_finset_sum, ← EReal.coe_sub]
  rfl

/-- Five steps from the identity on a real symmetric N: a real symmetric matrix. -/
theorem ns5_real_symm (N : Matrix (Fin 32) (Fin 32) ℝ) (hN : N.transpose = N) (i j : Fin 32) :
    nsStep hb hwf (ofReal N) (nsStep hb hwf (ofReal N) (nsStep hb hwf (ofReal N) (nsStep hb hwf (ofReal N)
      (nsStep hb hwf (ofReal N) (eye hb))))) (ix2 i j)
    = nsStep hb hwf (ofReal N) (nsStep hb hwf (ofReal N) (nsStep hb hwf (ofReal N) (nsStep hb hwf (ofReal N)
      (nsStep hb hwf (ofReal N) (eye hb))))) (ix2 j i) := by
  rw [eye_eq_ofReal, nsStep_ofReal, nsStep_ofReal, nsStep_ofReal, nsStep_ofReal, nsStep_ofReal, ofReal_ix2, ofReal_ix2]
  have h := (realIter_inv hN 5).1
  have e : realStep N (realStep N (realStep N (realStep N (realStep N 1)))) = realIter N 5 := rfl
  rw [e]
  exact congrArg _ ((Matrix.transpose_apply _ j i).symm.trans (congrFun (congrFun h j) i))

end

end Cert.Spec

end
-- ==== Proof.NsSymmInf.lean ====
/-
  The degenerate case of the Newton–Schulz chain: every entry of the normalised covariance is ⊥ (it is 0 / 0 when the
  trace is 0). From the identity matrix one step gives the constant ⊤: (I I) I is the 0/1 identity again, so each entry
  of its product with the constant ⊥ is a sum of terms 0 · ⊥ = 0 and one term 1 · ⊥ = ⊥, that is ⊥; a real − ⊥ = ⊤
  and ½ · ⊤ = ⊤. From the constant ⊤ one step gives the constant ⊤ again: a sum of 32 terms ⊤ · ⊤ is ⊤, a sum of 32
  terms ⊤ · ⊥ is ⊥, 3 · ⊤ − ⊥ = ⊤ and ½ · ⊤ = ⊤.
-/
import proofs.«174776_j89060441849996_2_alg».proof.Proof.NsSymmOps

noncomputable section

namespace Cert.Spec

open Idealize.ShloMosaic Idealize.ShloMosaic.ValueIdx

/-- A nonempty sum of ⊤ is ⊤. -/
theorem sum_const_top (n : ℕ) : ∑ _k : Fin (n + 1), (⊤ : EReal) = ⊤ := by
  induction n with
  | zero => simp
  | succ n ih => rw [Fin.sum_univ_succ, ih, EReal.top_add_top]

/-- A nonempty sum of ⊥ is ⊥. -/
theorem sum_const_bot (n : ℕ) : ∑ _k : Fin (n + 1), (⊥ : EReal) = ⊥ := by
  rw [Fin.sum_univ_succ, EReal.bot_add]

/-- A sum with a ⊥ term is ⊥. -/
theorem sum_eq_bot_of_mem {ι : Type*} [DecidableEq ι] (s : Finset ι) (f : ι → EReal) (a : ι) (ha : a ∈ s) (h : f a = ⊥) :
    ∑ x ∈ s, f x = ⊥ := by
  rw [← Finset.add_sum_erase s f ha, h, EReal.bot_add]

section
variable (hb : S_.BroadcastsInDim S32x32 (![] : Fin 0 → Fin S32x32.rank))
  (hwf : DotDims.WF S32x32 S32x32 S32x32 [1] [0] [0] [1] [] [])

/-- (I I) I at (i, k) is the real 1 when i = k and the real 0 otherwise. -/
theorem eye_cube (i k : Fin 32) :
    ∑ l : Fin 32, (∑ m : Fin 32, eye hb (ix2 i m) * eye hb (ix2 m l)) * eye hb (ix2 l k)
      = (((if i = k then 1 else 0 : ℝ)) : EReal) := by
  simp only [eye_ix2, ← EReal.coe_mul, ← coe_finset_sum]
  congr 1
  simp

/-- One step from the identity against the constant ⊥ is the constant ⊤. -/
theorem nsStep_bot_eye : nsStep hb hwf (fun _ => (⊥ : EReal)) (eye hb) = fun _ => (⊤ : EReal) := by
  funext idx
  obtain ⟨i, j, rfl⟩ : ∃ (i j : Fin 32), idx = ix2 i j := ⟨idx 0, idx 1, eq_ix2 idx⟩
  rw [nsStep_ix2]
  simp only [eye_cube]
  rw [sum_eq_bot_of_mem Finset.univ _ i (Finset.mem_univ i)
      (by rw [if_pos rfl]; exact EReal.coe_mul_bot_of_pos one_pos),
    eye_ix2, ← EReal.coe_mul, EReal.coe_sub_bot, EReal.coe_mul_top_of_pos (by norm_num)]

/-- One step from the constant ⊤ against the constant ⊥ is the constant ⊤. -/
theorem nsStep_bot_top : nsStep hb hwf (fun _ => (⊥ : EReal)) (fun _ => (⊤ : EReal)) = fun _ => (⊤ : EReal) := by
  funext idx
  obtain ⟨i, j, rfl⟩ : ∃ (i j : Fin 32), idx = ix2 i j := ⟨idx 0, idx 1, eq_ix2 idx⟩
  rw [nsStep_ix2]
  simp only [EReal.top_mul_top, EReal.top_mul_bot, sum_const_top 31, sum_const_bot 31]
  rw [EReal.coe_mul_top_of_pos (by norm_num), EReal.top_sub_bot, EReal.coe_mul_top_of_pos (by norm_num)]

/-- Five steps from the identity against the constant ⊥: the constant ⊤. -/
theorem ns5_bot :
    nsStep hb hwf (fun _ => (⊥ : EReal)) (nsStep hb hwf (fun _ => (⊥ : EReal)) (nsStep hb hwf (fun _ => (⊥ : EReal))
      (nsStep hb hwf (fun _ => (⊥ : EReal)) (nsStep hb hwf (fun _ => (⊥ : EReal)) (eye hb))))) = fun _ => (⊤ : EReal) := by
  rw [nsStep_bot_eye, nsStep_bot_top, nsStep_bot_top, nsStep_bot_top, nsStep_bot_top]

end

end Cert.Spec

end
-- ==== Proof.NsSymm.lean ====
/-
  The whitening matrix of a real symmetric covariance M is symmetric. The last factor of the chain is one scalar,
  (tr M)^(-1/2), spread over the array, so it is enough that the fifth Newton–Schulz iterate is symmetric. If
  tr M ≠ 0 the normalised covariance is the real symmetric matrix M / tr M and every iterate is a real symmetric
  matrix. If tr M = 0 then M = 0 by hypothesis, every entry of the normalised covariance is 0 / 0 = ⊥, and every
  iterate after the identity is the constant ⊤.
-/
import proofs.«174776_j89060441849996_2_alg».proof.Proof.NsSymmReal
import proofs.«174776_j89060441849996_2_alg».proof.Proof.NsSymmInf

noncomputable section

namespace Cert.Spec

open Idealize.ShloMosaic Idealize.ShloMosaic.ValueIdx

section
variable (hS : 0 < S_.numel) (hb : S_.BroadcastsInDim S32x32 (![] : Fin 0 → Fin S32x32.rank))
  (hr : S32x32.ReducesTo [0, 1] S_) (hwf : DotDims.WF S32x32 S32x32 S32x32 [1] [0] [0] [1] [] [])

/-- With a nonzero trace the normalised covariance is the real matrix M / tr M. -/
theorem sn_real (M : Fin 32 → Fin 32 → ℝ) (ht : (∑ i, M i i) ≠ 0) :
    Host.divf (F := Ideal) (toV fun i j => ((M i j : ℝ) : EReal))
        (spread hb (trace hS hb hr (toV fun i j => ((M i j : ℝ) : EReal))))
      = ofReal (Matrix.of fun i j => M i j * (1 / ∑ i, M i i)) := by
  funext idx
  obtain ⟨i, j, rfl⟩ : ∃ (i j : Fin 32), idx = ix2 i j := ⟨idx 0, idx 1, eq_ix2 idx⟩
  show Ideal.div (toV _ (ix2 i j)) (spread hb _ (ix2 i j)) = _
  rw [spread_apply, trace_coe, toV_ix2, Ideal.div_coe ht, ← EReal.coe_mul]
  rfl

/-- With M = 0 every entry of the normalised covariance is 0 / 0 = ⊥. -/
theorem sn_bot (M : Fin 32 → Fin 32 → ℝ) (h0 : ∀ i j, M i j = 0) :
    Host.divf (F := Ideal) (toV fun i j => ((M i j : ℝ) : EReal))
        (spread hb (trace hS hb hr (toV fun i j => ((M i j : ℝ) : EReal))))
      = fun _ => (⊥ : EReal) := by
  funext idx
  obtain ⟨i, j, rfl⟩ : ∃ (i j : Fin 32), idx = ix2 i j := ⟨idx 0, idx 1, eq_ix2 idx⟩
  show Ideal.div (toV _ (ix2 i j)) (spread hb _ (ix2 i j)) = _
  have ht : (∑ i, M i i) = 0 := Finset.sum_eq_zero fun a _ => h0 a a
  rw [spread_apply, trace_coe, toV_ix2, h0 i j, ht]
  simp [Ideal.div]

/-- The whitening matrix of a real symmetric covariance is symmetric. -/
theorem NS_symm (M : Fin 32 → Fin 32 → ℝ) (hsym : ∀ i j, M i j = M j i)
    (hz : (∑ i, M i i) = 0 → ∀ i j, M i j = 0) (i j : Fin 32) :
    NS hS hb hr hwf (toV fun i j => ((M i j : ℝ) : EReal)) (ix2 i j)
      = NS hS hb hr hwf (toV fun i j => ((M i j : ℝ) : EReal)) (ix2 j i) := by
  unfold NS
  by_cases ht : (∑ i, M i i) = 0
  · rw [sn_bot hS hb hr M (hz ht), ns5_bot, mulf_apply, mulf_apply, spread_apply, spread_apply]
  · rw [sn_real hS hb hr M ht, mulf_apply, mulf_apply, spread_apply, spread_apply,
      ns5_real_symm hb hwf _
        (Matrix.ext fun a b => by rw [Matrix.transpose_apply, Matrix.of_apply, Matrix.of_apply, hsym b a]) i j]

end

end Cert.Spec

end
-- ==== Proof.Assemble.lean ====
/-
  The two programs' results agree as whole arrays.

  For an input x that is the coercion of a real array, the reference's covariance Σ is (the coercion of) a real
  symmetric matrix that vanishes when its trace does, so the whitening matrix P = NS(Σ) is symmetric.  The kernel's
  covariance (Σ x xᵀ − n μ μᵀ)/(n − 1) is the same matrix, its ½ (P + Pᵀ) is then P, and P applied from the left to the
  centred column is the centred row applied to P from the right: the kernel's entry at (b, i, 64·co + a) is the
  reference's entry at (b, i, co, a).
-/
import proofs.«174776_j89060441849996_2_alg».proof.Proof.CovAlgebra
import proofs.«174776_j89060441849996_2_alg».proof.Proof.NsSymm

noncomputable section

namespace Cert.Spec

open Idealize.ShloMosaic Idealize.ShloMosaic.ValueIdx

/-- On a real input the kernel's result array is the reference's. -/
theorem outK_eq_outR (hS : 0 < S_.numel) (hb : S_.BroadcastsInDim S32x32 (![] : Fin 0 → Fin S32x32.rank))
    (hr : S32x32.ReducesTo [0, 1] S_) (hwf : DotDims.WF S32x32 S32x32 S32x32 [1] [0] [0] [1] [] [])
    (x : Fin 128 → Fin 32 → Fin 128 → Fin 64 → EReal) (hx : ∃ xr, x = coe4 xr) (g β : Fin 32 → EReal) :
    (fun idx : (⟨4, ![128, 32, 128, 64]⟩ : Shape).Idx => outK hS hb hr hwf (merge x) g β (idx 0) (idx 1) (flat (idx 2) (idx 3)))
      = fun idx => outR hS hb hr hwf x g β (idx 0) (idx 1) (idx 2) (idx 3) := by
  obtain ⟨xr, rfl⟩ := hx
  obtain ⟨M, hM, hsym, hz⟩ := sigmaR_real xr
  have hσ : sigmaR (coe4 xr) = fun i j => ((M i j : ℝ) : EReal) := funext fun i => funext fun j => hM i j
  have hs : ∀ i j : Fin 32, NS hS hb hr hwf (toV (sigmaR (coe4 xr))) (ix2 i j)
      = NS hS hb hr hwf (toV (sigmaR (coe4 xr))) (ix2 j i) := by
    rw [hσ]
    exact NS_symm hS hb hr hwf M hsym hz
  funext idx
  exact out_eq hS hb hr hwf xr g β hs (idx 0) (idx 1) (idx 2) (idx 3)

end Cert.Spec

end
-- ==== Proof.LibColumn.lean ====
/-
  A column spread along its rows, read at an entry.
-/
import Idealize.ShloMosaic.Lib.Pipeline.Value
import Idealize.ShloMosaic.Lib.ValueIdx

noncomputable section

namespace Cert.GraphConv

open Idealize.ShloMosaic Idealize.ShloMosaic.ValueIdx

/-- An `[a, 1]` array broadcast to `[a, b]` (a keepdims column spread along each row) reads, at `(p, c)`, the
    column's entry of row `p`, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv

end
-- ==== Proof.Reg1Pay.lean ====
/-
  The second kernel's body, read at an index on the extended reals.  For one batch row (a [1, 32, 8192] slab) the body
  subtracts the channel means (a [32, 1] column spread along the row), multiplies the 32 × 32 whitening matrix from the
  left (the product over the channel axis into a zero accumulator; the roundings to bf16 on the way in are the identity
  on extended reals), scales each channel by γ and shifts it by β (two more [32, 1] columns).  The four unrolled
  sub-batches compute the same expression of their own slab.
-/
import proofs.«174776_j89060441849996_2_alg».proof.Proof.Gen.KernelIdeal.Skeleton
import proofs.«174776_j89060441849996_2_alg».proof.Proof.LibPlainDot
import proofs.«174776_j89060441849996_2_alg».proof.Proof.LibColumn
import Idealize.ShloMosaic.Lib.ValueLayout
import Idealize.ShloMosaic.Lib.Pipeline.Value

noncomputable section

namespace Cert.KernelIdeal.Reg1

open Idealize.ShloMosaic Idealize.ShloMosaic.ValueIdx Cert.KernelIdeal Cert.KernelIdeal.Gen
open scoped BigOperators

/-- One slab whitened: entry (i, f) is (∑ j, P(i,j) · (row(j,f) − μ(j))) · γ(i) + β(i). -/
def rowOut (mn : FVec Ideal S32x1 .f32) (P : FVec Ideal S32x32 .f32) (g b : FVec Ideal S32x1 .f32)
    (row : FVec Ideal S1x32x8192 .f32) (i : Fin 32) (f : Fin 8192) : EReal :=
  (∑ j : Fin 32, P (ix2 i j) * (row (ix3 (0 : Fin 1) j f) - mn (ix2 j (0 : Fin 1)))) * g (ix2 i (0 : Fin 1)) + b (ix2 i (0 : Fin 1))

/-- The arithmetic shared by the four sub-batches, on operands already in their working shapes. -/
theorem core_apply (D : DotDims S32x32 S32x8192 S32x8192) (hD : D = DotDims.plain 32 32 8192)
    (hsc : S1x32x8192.ShapeCasts S32x8192) (hbc : S32x1.Broadcasts S32x8192) (hlt : FTy.bf16.bits < FTy.f32.bits)
    (v1 : FVec Ideal S32x1 .f32) (v4 : FVec Ideal S32x32 .bf16) (v6 v8 : FVec Ideal S32x1 .f32)
    (row : FVec Ideal S1x32x8192 .f32) (i : Fin 32) (f : Fin 8192) :
    addf (mulf (matmul D none v4
        (truncf .bf16 (subf (shapeCast S32x8192 row hsc) (broadcastTo S32x8192 v1 hbc)) hlt)
        (constant (F := Ideal) S32x8192 .f32 0x00000000#32))
      (broadcastTo S32x8192 v6 hbc)) (broadcastTo S32x8192 v8 hbc) (ix2 i f)
    = (∑ j : Fin 32, v4 (ix2 i j) * (row (ix3 (0 : Fin 1) j f) - v1 (ix2 j (0 : Fin 1)))) * v6 (ix2 i (0 : Fin 1)) + v8 (ix2 i (0 : Fin 1)) := by
  rw [addf_apply, mulf_apply, Cert.GraphConv.broadcastTo_a1_ab_apply, Cert.GraphConv.broadcastTo_a1_ab_apply,
    Cert.Lib.PlainDot.matmul_zero_apply _ hD]
  congr 2
  refine Finset.sum_congr rfl fun j _ => ?_
  rw [truncf_apply, subf_apply, Cert.GraphConv.broadcastTo_a1_ab_apply, shapeCast_1ab_ab_apply]

/-- Sub-batches 2 and 3: the operands arrive already cast. -/
theorem pay2_apply (v1 : FVec Ideal S32x1 .f32) (v4 : FVec Ideal S32x32 .bf16) (v6 v8 : FVec Ideal S32x1 .f32)
    (row : Vec Ideal S1x32x8192 .f32) (i : Fin 32) (f : Fin 8192) :
    k1_pay2 v1 v4 v6 v8 row (ix3 (0 : Fin 1) i f)
      = (∑ j : Fin 32, v4 (ix2 i j) * (row (ix3 (0 : Fin 1) j f) - v1 (ix2 j (0 : Fin 1)))) * v6 (ix2 i (0 : Fin 1)) + v8 (ix2 i (0 : Fin 1)) := by
  unfold k1_pay2
  rw [shapeCast_ab_1ab_apply]
  exact core_apply _ rfl _ _ _ v1 v4 v6 v8 row i f

theorem pay3_apply (v1 : FVec Ideal S32x1 .f32) (v4 : FVec Ideal S32x32 .bf16) (v6 v8 : FVec Ideal S32x1 .f32)
    (row : Vec Ideal S1x32x8192 .f32) (i : Fin 32) (f : Fin 8192) :
    k1_pay3 v1 v4 v6 v8 row (ix3 (0 : Fin 1) i f)
      = (∑ j : Fin 32, v4 (ix2 i j) * (row (ix3 (0 : Fin 1) j f) - v1 (ix2 j (0 : Fin 1)))) * v6 (ix2 i (0 : Fin 1)) + v8 (ix2 i (0 : Fin 1)) := by
  unfold k1_pay3
  rw [shapeCast_ab_1ab_apply]
  exact core_apply _ rfl _ _ _ v1 v4 v6 v8 row i f

/-- Sub-batch 0: the operands are cast (to their own shapes, and the matrix rounded) inside the payload. -/
theorem pay8_apply (v0 : Vec Ideal S32x1 .f32) (v2 : Vec Ideal S32x32 .f32) (v5 v7 : Vec Ideal S32x1 .f32)
    (row : Vec Ideal S1x32x8192 .f32) (i : Fin 32) (f : Fin 8192) :
    k1_pay8 v0 v2 v5 v7 row (ix3 (0 : Fin 1) i f)
      = (∑ j : Fin 32, v2 (ix2 i j) * (row (ix3 (0 : Fin 1) j f) - v0 (ix2 j (0 : Fin 1)))) * v5 (ix2 i (0 : Fin 1)) + v7 (ix2 i (0 : Fin 1)) := by
  unfold k1_pay8 k1_pay4 k1_pay5 k1_pay6 k1_pay7; dsimp only
  rw [shapeCast_ab_1ab_apply]
  refine (core_apply _ rfl _ _ _ _ _ _ _ row i f).trans ?_
  simp only [shapeCast_self, truncf_apply]

/-- Sub-batch 1: computed before the loop's exit and cast to a slab afterwards. -/
theorem pay19_apply (v0 : Vec Ideal S32x1 .f32) (v2 : Vec Ideal S32x32 .f32) (v5 v7 : Vec Ideal S32x1 .f32)
    (row : Vec Ideal S1x32x8192 .f32) (i : Fin 32) (f : Fin 8192) :
    k1_pay1 (k1_pay9 v0 v2 v5 v7 row) (ix3 (0 : Fin 1) i f)
      = (∑ j : Fin 32, v2 (ix2 i j) * (row (ix3 (0 : Fin 1) j f) - v0 (ix2 j (0 : Fin 1)))) * v5 (ix2 i (0 : Fin 1)) + v7 (ix2 i (0 : Fin 1)) := by
  unfold k1_pay1 k1_pay9 k1_pay4 k1_pay5 k1_pay6 k1_pay7; dsimp only
  rw [shapeCast_ab_1ab_apply]
  refine (core_apply _ rfl _ _ _ _ _ _ _ row i f).trans ?_
  simp only [shapeCast_self, truncf_apply]

end Cert.KernelIdeal.Reg1

end
-- ==== Proof.Reg1Blk.lean ====
/-
  What one grid point of the second kernel leaves in its output block: the four slabs stored by the four unrolled
  sub-batches tile the [4, 32, 8192] block, and each holds the whitening of the matching slab of the input block, so the
  whole block is one function of the five input blocks, index by index.
-/
import proofs.«174776_j89060441849996_2_alg».proof.Proof.Gen.KernelIdeal.Frame
import proofs.«174776_j89060441849996_2_alg».proof.Proof.Reg1Pay

set_option maxRecDepth 16384

noncomputable section

namespace Cert.KernelIdeal.Reg1

open Idealize.ShloMosaic Idealize.ShloMosaic.ValueIdx Cert.KernelIdeal Cert.KernelIdeal.Gen
open scoped BigOperators

/-- The block's entry (k, i, f): (∑ j, P(i,j) · (x(k,j,f) − μ(j))) · γ(i) + β(i). -/
def blkOutC (x0 : Vec Ideal S4x32x8192 .f32) (x1 : Vec Ideal S32x1 .f32) (x2 : Vec Ideal S32x32 .f32) (x3 x4 : Vec Ideal S32x1 .f32)
    (k : Fin 4) (i : Fin 32) (f : Fin 8192) : EReal :=
  (∑ j : Fin 32, x2 (ix2 i j) * (x0 (ix3 k j f) - x1 (ix2 j (0 : Fin 1)))) * x3 (ix2 i (0 : Fin 1)) + x4 (ix2 i (0 : Fin 1))

def blkOut (x0 : Vec Ideal S4x32x8192 .f32) (x1 : Vec Ideal S32x1 .f32) (x2 : Vec Ideal S32x32 .f32) (x3 x4 : Vec Ideal S32x1 .f32) :
    Vec Ideal S4x32x8192 .f32 := fun y => blkOutC x0 x1 x2 x3 x4 (y 0) (y 1) (y 2)

theorem hz2 : (![0, 0] : Fin 2 → Nat) = fun _ => 0 := funext fun a => by fin_cases a <;> rfl

/-- Slab k of the block, read at (0, j, f), is the block at (k, j, f). -/
theorem emb_row (k : Fin 4) (inb) (j : Fin 32) (f : Fin 8192) :
    (Rect.unit (s := S4x32x8192) ![k.val, 0, 0] S1x32x8192.size inb).emb (ix3 (0 : Fin 1) j f) = ix3 k j f :=
  funext fun a => Fin.ext (by
    match a with
    | ⟨0, _⟩ => show k.val + 1 * 0 = k.val; omega
    | ⟨1, _⟩ => show 0 + 1 * j.val = j.val; omega
    | ⟨2, _⟩ => show 0 + 1 * f.val = f.val; omega)

theorem out1_5_eq (x0 : Vec Ideal S4x32x8192 .f32) (x1 : Vec Ideal S32x1 .f32) (x2 : Vec Ideal S32x32 .f32) (x3 x4 : Vec Ideal S32x1 .f32) :
    out1_5 x0 x1 x2 x3 x4 = blkOut x0 x1 x2 x3 x4 := by
  funext y
  unfold out1_5
  refine View.canon_apply_of_pieces (blkOut x0 x1 x2 x3 x4) _ ?_ y (cover1_5 _ _ _ _ y)
  intro p hp x
  simp only [List.mem_cons, List.mem_nil_iff, or_false] at hp
  rcases hp with rfl | rfl | rfl | rfl
  · obtain ⟨u, i, f, rfl⟩ : ∃ (u : Fin 1) (i : Fin 32) (f : Fin 8192), x = ix3 u i f := ⟨x 0, x 1, x 2, eq_ix3 x⟩
    obtain rfl : u = 0 := Subsingleton.elim _ _
    show k1_pay3 (F := Ideal) _ _ _ _ _ (ix3 (0 : Fin 1) i f) = blkOut x0 x1 x2 x3 x4 (r1_5.emb (ix3 (0 : Fin 1) i f))
    rw [pay3_apply, show r1_5.emb (ix3 (0 : Fin 1) i f) = ix3 (3 : Fin 4) i f from emb_row 3 _ i f]
    have h1 : View.ld x1 r1_0 = x1 := View.ld_unit_zero (S := S32x1) hz2 _ x1
    have h2 : View.ld x2 r1_1 = x2 := View.ld_unit_zero (S := S32x32) hz2 _ x2
    have h3 : View.ld x3 r1_0 = x3 := View.ld_unit_zero (S := S32x1) hz2 _ x3
    have h4 : View.ld x4 r1_0 = x4 := View.ld_unit_zero (S := S32x1) hz2 _ x4
    have hrow : ∀ j : Fin 32, View.ld x0 r1_5 (ix3 (0 : Fin 1) j f) = x0 (ix3 (3 : Fin 4) j f) := fun j => congrArg x0 (emb_row 3 _ j f)
    simp only [k1_pay4, k1_pay5, k1_pay6, k1_pay7, shapeCast_self, truncf_apply, hrow, h1, h2, h3, h4]
    rfl
  · obtain ⟨u, i, f, rfl⟩ : ∃ (u : Fin 1) (i : Fin 32) (f : Fin 8192), x = ix3 u i f := ⟨x 0, x 1, x 2, eq_ix3 x⟩
    obtain rfl : u = 0 := Subsingleton.elim _ _
    show k1_pay2 (F := Ideal) _ _ _ _ _ (ix3 (0 : Fin 1) i f) = blkOut x0 x1 x2 x3 x4 (r1_4.emb (ix3 (0 : Fin 1) i f))
    rw [pay2_apply, show r1_4.emb (ix3 (0 : Fin 1) i f) = ix3 (2 : Fin 4) i f from emb_row 2 _ i f]
    have h1 : View.ld x1 r1_0 = x1 := View.ld_unit_zero (S := S32x1) hz2 _ x1
    have h2 : View.ld x2 r1_1 = x2 := View.ld_unit_zero (S := S32x32) hz2 _ x2
    have h3 : View.ld x3 r1_0 = x3 := View.ld_unit_zero (S := S32x1) hz2 _ x3
    have h4 : View.ld x4 r1_0 = x4 := View.ld_unit_zero (S := S32x1) hz2 _ x4
    have hrow : ∀ j : Fin 32, View.ld x0 r1_4 (ix3 (0 : Fin 1) j f) = x0 (ix3 (2 : Fin 4) j f) := fun j => congrArg x0 (emb_row 2 _ j f)
    simp only [k1_pay4, k1_pay5, k1_pay6, k1_pay7, shapeCast_self, truncf_apply, hrow, h1, h2, h3, h4]
    rfl
  · obtain ⟨u, i, f, rfl⟩ : ∃ (u : Fin 1) (i : Fin 32) (f : Fin 8192), x = ix3 u i f := ⟨x 0, x 1, x 2, eq_ix3 x⟩
    obtain rfl : u = 0 := Subsingleton.elim _ _
    show k1_pay1 (F := Ideal) (k1_pay9 _ _ _ _ _) (ix3 (0 : Fin 1) i f) = blkOut x0 x1 x2 x3 x4 (r1_3.emb (ix3 (0 : Fin 1) i f))
    rw [pay19_apply, show r1_3.emb (ix3 (0 : Fin 1) i f) = ix3 (1 : Fin 4) i f from emb_row 1 _ i f]
    have h1 : View.ld x1 r1_0 = x1 := View.ld_unit_zero (S := S32x1) hz2 _ x1
    have h2 : View.ld x2 r1_1 = x2 := View.ld_unit_zero (S := S32x32) hz2 _ x2
    have h3 : View.ld x3 r1_0 = x3 := View.ld_unit_zero (S := S32x1) hz2 _ x3
    have h4 : View.ld x4 r1_0 = x4 := View.ld_unit_zero (S := S32x1) hz2 _ x4
    have hrow : ∀ j : Fin 32, View.ld x0 r1_3 (ix3 (0 : Fin 1) j f) = x0 (ix3 (1 : Fin 4) j f) := fun j => congrArg x0 (emb_row 1 _ j f)
    rw [h1, h2, h3, h4]
    simp only [hrow]
    rfl
  · obtain ⟨u, i, f, rfl⟩ : ∃ (u : Fin 1) (i : Fin 32) (f : Fin 8192), x = ix3 u i f := ⟨x 0, x 1, x 2, eq_ix3 x⟩
    obtain rfl : u = 0 := Subsingleton.elim _ _
    show k1_pay8 (F := Ideal) _ _ _ _ _ (ix3 (0 : Fin 1) i f) = blkOut x0 x1 x2 x3 x4 (r1_2.emb (ix3 (0 : Fin 1) i f))
    rw [pay8_apply, show r1_2.emb (ix3 (0 : Fin 1) i f) = ix3 (0 : Fin 4) i f from emb_row 0 _ i f]
    have h1 : View.ld x1 r1_0 = x1 := View.ld_unit_zero (S := S32x1) hz2 _ x1
    have h2 : View.ld x2 r1_1 = x2 := View.ld_unit_zero (S := S32x32) hz2 _ x2
    have h3 : View.ld x3 r1_0 = x3 := View.ld_unit_zero (S := S32x1) hz2 _ x3
    have h4 : View.ld x4 r1_0 = x4 := View.ld_unit_zero (S := S32x1) hz2 _ x4
    have hrow : ∀ j : Fin 32, View.ld x0 r1_2 (ix3 (0 : Fin 1) j f) = x0 (ix3 (0 : Fin 4) j f) := fun j => congrArg x0 (emb_row 0 _ j f)
    rw [h1, h2, h3, h4]
    simp only [hrow]
    rfl

end Cert.KernelIdeal.Reg1

end
-- ==== Proof.Reg1Arr.lean ====
/-
  The second kernel's output array after its 32 grid points.  Point t reads rows 4t … 4t+3 of the [128, 32, 8192] input
  (and the four small operands whole) and writes rows 4t … 4t+3 of the output; the 32 blocks tile the array, so the
  array ends as one function of the five arrays the region is entered with: every row whitened.
-/
import proofs.«174776_j89060441849996_2_alg».proof.Proof.Reg1Blk

set_option maxRecDepth 16384

noncomputable section

namespace Cert.KernelIdeal.Reg1

open Idealize.ShloMosaic Idealize.ShloMosaic.TcCoe Idealize.ShloMosaic.ValueIdx Cert.KernelIdeal Cert.KernelIdeal.Gen
open Idealize.ShloMosaic.Pipeline (Dat)
open scoped BigOperators

/-- Entry (r, i, f) of the whitened array: (∑ j, P(i,j) · (X(r,j,f) − μ(j))) · γ(i) + β(i). -/
def arrOutC (X : FVec Ideal S128x32x8192 .f32) (mn : FVec Ideal S32x1 .f32) (P : FVec Ideal S32x32 .f32) (g b : FVec Ideal S32x1 .f32)
    (r : Fin 128) (i : Fin 32) (f : Fin 8192) : EReal :=
  (∑ j : Fin 32, P (ix2 i j) * (X (ix3 r j f) - mn (ix2 j (0 : Fin 1)))) * g (ix2 i (0 : Fin 1)) + b (ix2 i (0 : Fin 1))

def arrOut (X : FVec Ideal S128x32x8192 .f32) (mn : FVec Ideal S32x1 .f32) (P : FVec Ideal S32x32 .f32) (g b : FVec Ideal S32x1 .f32) :
    FVec Ideal S128x32x8192 .f32 := fun y => arrOutC X mn P g b (y 0) (y 1) (y 2)

/-- A block entry is the array entry it was cut from, once every operand read agrees. -/
theorem blk_arr (X : FVec Ideal S128x32x8192 .f32) (mn : FVec Ideal S32x1 .f32) (P : FVec Ideal S32x32 .f32) (g b : FVec Ideal S32x1 .f32)
    (x0 : Vec Ideal S4x32x8192 .f32) (x1 : Vec Ideal S32x1 .f32) (x2 : Vec Ideal S32x32 .f32) (x3 x4 : Vec Ideal S32x1 .f32)
    (k : Fin 4) (i : Fin 32) (f : Fin 8192) (r : Fin 128)
    (h0 : ∀ j : Fin 32, x0 (ix3 k j f) = X (ix3 r j f)) (h1 : ∀ j : Fin 32, x1 (ix2 j (0 : Fin 1)) = mn (ix2 j (0 : Fin 1)))
    (h2 : ∀ j : Fin 32, x2 (ix2 i j) = P (ix2 i j)) (h3 : x3 (ix2 i (0 : Fin 1)) = g (ix2 i (0 : Fin 1)))
    (h4 : x4 (ix2 i (0 : Fin 1)) = b (ix2 i (0 : Fin 1))) :
    blkOutC x0 x1 x2 x3 x4 k i f = arrOutC X mn P g b r i f := by
  unfold blkOutC arrOutC
  rw [h3, h4]
  congr 2
  exact Finset.sum_congr rfl fun j _ => by rw [h0, h1, h2]

variable (V : (c : Dev nD) → (b : Ref sig .tc) → Buf (Elt Ideal) ((c : Thread nD τ).loc b))

/-- The printed index maps over the grid: the big windows move one block per point along the first axis, the four
    small operands stay at their only block. -/
theorem idx_facts : ∀ t : Fin cfg1.N,
    win1_0.index t (0 : Fin 3) = t.val ∧ win1_0.index t (1 : Fin 3) = 0 ∧ win1_0.index t (2 : Fin 3) = 0
    ∧ win1_5.index t (0 : Fin 3) = t.val ∧ win1_5.index t (1 : Fin 3) = 0 ∧ win1_5.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point t writes back is block t of the whitened array. -/
theorem flushed5_eq (c : Dev nD) (t : Fin cfg1.N) :
    (dat1 (F := Ideal) V c).flushed 5 t = ((cfg1.win 5).blk t).view.read (Elt Ideal)
      (arrOut (V c main_v0) (V c main_v5) (V c main_v72) (V c main_v73) (V c main_v74)) := by
  show (cfg1.win 5).cut (grid1.coords t) ((dat1 (F := Ideal) V c).after 5 t) = _
  rw [after1_5, out1_5_eq]
  obtain ⟨a0, a1, a2, b0, b1, b2, c0, c1, d0, d1, e0, e1, f0, f1⟩ := idx_facts t
  have hN : t.val < 32 := lt_of_lt_of_eq t.isLt N_1
  funext y
  have hy0 : (y 0).val < 4 := (y 0).isLt
  have hy1 : (y 1).val < 32 := (y 1).isLt
  have hy2 : (y 2).val < 8192 := (y 2).isLt
  have E : ((cfg1.win 5).blk t).view.emb y = ix3 (⟨t.val * 4 + (y 0).val, by omega⟩ : Fin 128) (⟨(y 1).val, hy1⟩ : Fin 32) (⟨(y 2).val, hy2⟩ : Fin 8192) :=
    funext fun a => Fin.ext (by
      match a with
      | ⟨0, _⟩ => show win1_5.index t (0 : Fin 3) * 4 + 1 * (y 0).val = t.val * 4 + (y 0).val; omega
      | ⟨1, _⟩ => show win1_5.index t (1 : Fin 3) * 32 + 1 * (y 1).val = (y 1).val; omega
      | ⟨2, _⟩ => show win1_5.index t (2 : Fin 3) * 8192 + 1 * (y 2).val = (y 2).val; omega)
  show blkOutC (iblk1 V c 0 t) (iblk1 V c 1 t) (iblk1 V c 2 t) (iblk1 V c 3 t) (iblk1 V c 4 t) ⟨(y 0).val, hy0⟩ ⟨(y 1).val, hy1⟩ ⟨(y 2).val, hy2⟩
    = arrOut (V c main_v0) (V c main_v5) (V c main_v72) (V c main_v73) (V c main_v74) (((cfg1.win 5).blk t).view.emb y)
  rw [E]
  refine blk_arr _ _ _ _ _ _ _ _ _ _ _ _ _ _ (fun j => ?_) (fun j => ?_) (fun j => ?_) ?_ ?_
  · show V c main_v0 (((cfg1.win 0).blk t).view.emb (ix3 (⟨(y 0).val, hy0⟩ : Fin 4) j (⟨(y 2).val, hy2⟩ : Fin 8192)))
      = V c main_v0 (ix3 (⟨t.val * 4 + (y 0).val, by omega⟩ : Fin 128) j (⟨(y 2).val, hy2⟩ : Fin 8192))
    refine congrArg _ (funext fun a => Fin.ext ?_)
    match a with
    | ⟨0, _⟩ => show win1_0.index t (0 : Fin 3) * 4 + 1 * (y 0).val = t.val * 4 + (y 0).val; omega
    | ⟨1, _⟩ => show win1_0.index t (1 : Fin 3) * 32 + 1 * j.val = j.val; omega
    | ⟨2, _⟩ => show win1_0.index t (2 : Fin 3) * 8192 + 1 * (y 2).val = (y 2).val; omega
  · show V c main_v5 (((cfg1.win 1).blk t).view.emb (ix2 j (0 : Fin 1))) = V c main_v5 (ix2 j (0 : Fin 1))
    refine congrArg _ (funext fun a => Fin.ext ?_)
    match a with
    | ⟨0, _⟩ => show win1_1.index t (0 : Fin 2) * 32 + 1 * (j : Fin 32).val = (j : Fin 32).val; omega
    | ⟨1, _⟩ => show win1_1.index t (1 : Fin 2) * 1 + 1 * 0 = 0; omega
  · show V c main_v72 (((cfg1.win 2).blk t).view.emb (ix2 (⟨(y 1).val, hy1⟩ : Fin 32) j)) = V c main_v72 (ix2 (⟨(y 1).val, hy1⟩ : Fin 32) j)
    refine congrArg _ (funext fun a => Fin.ext ?_)
    match a with
    | ⟨0, _⟩ => show win1_2.index t (0 : Fin 2) * 32 + 1 * (y 1).val = (y 1).val; omega
    | ⟨1, _⟩ => show win1_2.index t (1 : Fin 2) * 32 + 1 * j.val = j.val; omega
  · show V c main_v73 (((cfg1.win 3).blk t).view.emb (ix2 (⟨(y 1).val, hy1⟩ : Fin 32) (0 : Fin 1))) = V c main_v73 (ix2 (⟨(y 1).val, hy1⟩ : Fin 32) (0 : Fin 1))
    refine congrArg _ (funext fun a => Fin.ext ?_)
    match a with
    | ⟨0, _⟩ => show win1_3.index t (0 : Fin 2) * 32 + 1 * ((⟨(y 1).val, hy1⟩ : Fin 32) : Fin 32).val = ((⟨(y 1).val, hy1⟩ : Fin 32) : Fin 32).val; omega
    | ⟨1, _⟩ => show win1_3.index t (1 : Fin 2) * 1 + 1 * 0 = 0; omega
  · show V c main_v74 (((cfg1.win 4).blk t).view.emb (ix2 (⟨(y 1).val, hy1⟩ : Fin 32) (0 : Fin 1))) = V c main_v74 (ix2 (⟨(y 1).val, hy1⟩ : Fin 32) (0 : Fin 1))
    refine congrArg _ (funext fun a => Fin.ext ?_)
    match a with
    | ⟨0, _⟩ => show win1_4.index t (0 : Fin 2) * 32 + 1 * ((⟨(y 1).val, hy1⟩ : Fin 32) : Fin 32).val = ((⟨(y 1).val, hy1⟩ : Fin 32) : Fin 32).val; omega
    | ⟨1, _⟩ => show win1_4.index t (1 : Fin 2) * 1 + 1 * 0 = 0; omega

/-- An index of the array is in point t's block iff each coordinate is in the block's range on its axis. -/
theorem mem_blk5 (t : Fin cfg1.N) (i : S128x32x8192.Idx) :
    i ∈ ((cfg1.win 5).blk t).view.set ↔ ∀ a : Fin 3, win1_5.index t a * S4x32x8192.size a ≤ (i a).val ∧ (i a).val < win1_5.index t a * S4x32x8192.size a + S4x32x8192.size a := by
  show i ∈ ((View.whole main_v75).slice (win1_5.rect t)).set ↔ _
  rw [View.set_slice_whole, Rect.mem_set_unit]
  exact Iff.rfl

/-- The output array after the region: every row whitened. Row r lies in the block of point r / 4. -/
theorem final5 (c : Dev nD) :
    (dat1 (F := Ideal) V c).arrAt 5 cfg1.N = arrOut (V c main_v0) (V c main_v5) (V c main_v72) (V c main_v73) (V c main_v74) := by
  refine (dat1 (F := Ideal) V c).arrAt_eq_of_cover 5 _ (fun t _ => flushed5_eq V c t) (fun i => ?_)
  have hi0 : (i 0).val < 128 := (i 0).isLt
  have hi1 : (i 1).val < 32 := (i 1).isLt
  have hi2 : (i 2).val < 8192 := (i 2).isLt
  have hN : grid1.N = 32 := N_1
  have hlt : (i 0).val / 4 < cfg1.N := by show (i 0).val / 4 < grid1.N; rw [hN]; omega
  obtain ⟨-, -, -, b0, b1, b2, -⟩ := idx_facts (⟨(i 0).val / 4, hlt⟩ : Fin cfg1.N)
  refine ⟨⟨(i 0).val / 4, hlt⟩, flush1_5 _, ?_⟩
  rw [mem_blk5]
  intro a
  match a with
  | ⟨0, _⟩ =>
    show win1_5.index _ (0 : Fin 3) * 4 ≤ (i 0).val ∧ (i 0).val < win1_5.index _ (0 : Fin 3) * 4 + 4
    rw [b0]; show (i 0).val / 4 * 4 ≤ (i 0).val ∧ (i 0).val < (i 0).val / 4 * 4 + 4; omega
  | ⟨1, _⟩ =>
    show win1_5.index _ (1 : Fin 3) * 32 ≤ (i 1).val ∧ (i 1).val < win1_5.index _ (1 : Fin 3) * 32 + 32
    rw [b1]; omega
  | ⟨2, _⟩ =>
    show win1_5.index _ (2 : Fin 3) * 8192 ≤ (i 2).val ∧ (i 2).val < win1_5.index _ (2 : Fin 3) * 8192 + 8192
    rw [b2]; omega

end Cert.KernelIdeal.Reg1

end
-- ==== Proof.KerCombine.lean ====
/-
  The kernel's result assembled.  Entering the second kernel, the five operands are: the input with its last two axes
  merged; the channel means (the two partial sums added and divided by n); the symmetrised whitening matrix
  ½ (P + Pᵀ) with P the Newton–Schulz chain of the covariance (Σ x xᵀ − n μ μᵀ)/(n − 1) built from the two partial
  product sums; and γ, β as columns.  Substituting these into the whitened array gives the specification's kernel-side
  formula entry by entry.
-/
import proofs.«174776_j89060441849996_2_alg».proof.Proof.Reg1Arr
import proofs.«174776_j89060441849996_2_alg».proof.Proof.Spec

noncomputable section

namespace Cert.KernelIdeal.KerValue

open Idealize.ShloMosaic Idealize.ShloMosaic.ValueIdx Cert.KernelIdeal Cert.Spec
open scoped BigOperators

theorem combine (hS : 0 < Cert.Spec.S_.numel) (hb : Cert.Spec.S_.BroadcastsInDim Cert.Spec.S32x32 (![] : Fin 0 → Fin Cert.Spec.S32x32.rank))
    (hr : Cert.Spec.S32x32.ReducesTo [0, 1] Cert.Spec.S_) (hwf : DotDims.WF Cert.Spec.S32x32 Cert.Spec.S32x32 Cert.Spec.S32x32 [1] [0] [0] [1] [] [])
    (X : Fin 128 → Fin 32 → Fin 8192 → EReal) (g β : Fin 32 → EReal)
    (v0 : FVec Ideal S128x32x8192 .f32) (v5 : FVec Ideal S32x1 .f32) (v16 v68 v72 : FVec Ideal S32x32 .f32) (v73 v74 : FVec Ideal S32x1 .f32)
    (s1 : FVec Ideal S2x32x1 .f32) (s2 : FVec Ideal S2x32x32 .f32)
    (h0 : ∀ (b : Fin 128) (i : Fin 32) (f : Fin 8192), v0 (ix3 b i f) = X b i f)
    (hs1 : ∀ (p : Fin 2) (i : Fin 32), s1 (ix3 p i (0 : Fin 1)) = partSum X p i)
    (hs2 : ∀ (p : Fin 2) (i j : Fin 32), s2 (ix3 p i j) = partCp X p i j)
    (hmean : ∀ i : Fin 32, v5 (ix2 i (0 : Fin 1)) = Ideal.div (s1 (ix3 (0 : Fin 2) i (0 : Fin 1)) + s1 (ix3 (1 : Fin 2) i (0 : Fin 1))) NN)
    (hsig : ∀ i j : Fin 32, v16 (ix2 i j) = Ideal.div ((s2 (ix3 (0 : Fin 2) i j) + s2 (ix3 (1 : Fin 2) i j)) - NN * (v5 (ix2 i (0 : Fin 1)) * v5 (ix2 j (0 : Fin 1)))) N1)
    (hns : v68 = NS hS hb hr hwf v16)
    (hsym : ∀ i j : Fin 32, v72 (ix2 i j) = HALF * (v68 (ix2 i j) + v68 (ix2 j i)))
    (hg : ∀ i : Fin 32, v73 (ix2 i (0 : Fin 1)) = g i) (hβ : ∀ i : Fin 32, v74 (ix2 i (0 : Fin 1)) = β i)
    (b : Fin 128) (i : Fin 32) (f : Fin 8192) :
    Cert.KernelIdeal.Reg1.arrOutC v0 v5 v72 v73 v74 b i f = outK hS hb hr hwf X g β b i f := by
  have hm : ∀ i : Fin 32, v5 (ix2 i (0 : Fin 1)) = meanK X i := fun i => by rw [hmean, hs1, hs1]; rfl
  have hsg : v16 = toV (sigmaK X) := funext fun idx => by
    obtain ⟨p, q, rfl⟩ : ∃ (p q : Fin 32), idx = ix2 p q := ⟨idx 0, idx 1, eq_ix2 idx⟩
    rw [hsig, hs2, hs2, hm, hm]; rfl
  have hsum : (∑ j : Fin 32, v72 (ix2 i j) * (v0 (ix3 b j f) - v5 (ix2 j (0 : Fin 1))))
      = ∑ j : Fin 32, (HALF * (NS hS hb hr hwf (toV (sigmaK X)) (ix2 i j) + NS hS hb hr hwf (toV (sigmaK X)) (ix2 j i))) * (X b j f - meanK X j) :=
    Finset.sum_congr rfl fun j _ => by rw [hsym, hns, hsg, h0, hm]
  unfold Cert.KernelIdeal.Reg1.arrOutC outK
  rw [hsum, hg, hβ]

end Cert.KernelIdeal.KerValue

end
-- ==== Proof.Reg0Pieces.lean ====
/-
  What one run of the first kernel's body leaves in its two output buffers, as values.

  The body loads the four rows of its input block, forms their block sum (k0_pay9) and block sum of products
  (k0_pay10), and stores "buffer + block total" into each output buffer (k0_pay3, k0_pay4).  At the first step of a
  core (case A) it first overwrites both buffers with zeros and reads those back; at every later step (case B) the
  buffers hold what the step before left.
-/
import proofs.«174776_j89060441849996_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Reg0
open Cert.KernelIdeal Cert.KernelIdeal.Gen

variable {F : FTy → Type} [FloatOps F]

theorem hz3 : (![0, 0, 0] : Fin 3 → Nat) = fun _ => 0 := funext fun a => by fin_cases a <;> rfl

/-- The four rows of a [4,32,8192] input block, each as a [1,32,8192] array. -/
abbrev row0 (x0 : Vec F S4x32x8192 .f32) : Vec F S1x32x8192 .f32 :=
  View.ld x0 (Rect.unit (s := S4x32x8192) ![0, 0, 0] S1x32x8192.size inb_S4x32x8192_S1x32x8192_0_0_0)
abbrev row1 (x0 : Vec F S4x32x8192 .f32) : Vec F S1x32x8192 .f32 :=
  View.ld x0 (Rect.unit (s := S4x32x8192) ![1, 0, 0] S1x32x8192.size inb_S4x32x8192_S1x32x8192_1_0_0)
abbrev row2 (x0 : Vec F S4x32x8192 .f32) : Vec F S1x32x8192 .f32 :=
  View.ld x0 (Rect.unit (s := S4x32x8192) ![2, 0, 0] S1x32x8192.size inb_S4x32x8192_S1x32x8192_2_0_0)
abbrev row3 (x0 : Vec F S4x32x8192 .f32) : Vec F S1x32x8192 .f32 :=
  View.ld x0 (Rect.unit (s := S4x32x8192) ![3, 0, 0] S1x32x8192.size inb_S4x32x8192_S1x32x8192_3_0_0)

/-- The block sum and the block sum of products of an input block. -/
def blockSum (x0 : Vec F S4x32x8192 .f32) : FVec F S32x1 .f32 := k0_pay9 (row0 x0) (row1 x0) (row2 x0) (row3 x0)
def blockCp (x0 : Vec F S4x32x8192 .f32) : FVec F S32x32 .f32 := k0_pay10 (row0 x0) (row1 x0) (row2 x0) (row3 x0)

/-- A later step leaves in the sums buffer what it held plus the block sum. -/
theorem out_B_1 (c : Dev nD) (i : grid0.Coords) (a2 : Memref sig .tc .vmem S4x32x8192 .f32) (h2 : a2.IsWhole)
    (a3 : Memref sig .tc .vmem S1x32x1 .f32) (h3 : a3.IsWhole) (a4 : Memref sig .tc .vmem S1x32x32 .f32) (h4 : a4.IsWhole)
    (hc : ¬cond0_0 i) (x0 : Vec F S4x32x8192 .f32) (xo1 : Vec F S1x32x1 .f32) (xo2 : Vec F S1x32x32 .f32) :
    out0_B_1 c i a2 h2 a3 h3 a4 h4 hc x0 xo1 xo2 = k0_pay3 (blockSum x0) xo1 := by
  unfold out0_B_1
  rw [View.read_writes_eq_canon _ _ _ (cover0_B_1 c i a2 h2 a3 h3 a4 h4 hc x0 xo1 xo2)]
  unfold kernelRun0_B
  dsimp only
  sl_unfold_words
  rw [View.canon_unit_zero hz3]
  simp only [View.readAt_eq_ld, h2.read_unread, h3.read_unread, View.ld_unit_zero (S := S1x32x1) hz3]
  rfl

/-- A later step leaves in the products buffer what it held plus the block sum of products. -/
theorem out_B_2 (c : Dev nD) (i : grid0.Coords) (a2 : Memref sig .tc .vmem S4x32x8192 .f32) (h2 : a2.IsWhole)
    (a3 : Memref sig .tc .vmem S1x32x1 .f32) (h3 : a3.IsWhole) (a4 : Memref sig .tc .vmem S1x32x32 .f32) (h4 : a4.IsWhole)
    (hc : ¬cond0_0 i) (x0 : Vec F S4x32x8192 .f32) (xo1 : Vec F S1x32x1 .f32) (xo2 : Vec F S1x32x32 .f32) :
    out0_B_2 c i a2 h2 a3 h3 a4 h4 hc x0 xo1 xo2 = k0_pay4 (blockCp x0) xo2 := by
  unfold out0_B_2
  rw [View.read_writes_eq_canon _ _ _ (cover0_B_2 c i a2 h2 a3 h3 a4 h4 hc x0 xo1 xo2)]
  unfold kernelRun0_B
  dsimp only
  sl_unfold_words
  rw [View.canon_unit_zero hz3]
  simp only [View.readAt_eq_ld, h2.read_unread, h4.read_unread, View.ld_unit_zero (S := S1x32x32) hz3]
  rfl

/-- A core's first step leaves in the sums buffer the zeros it stored plus the block sum. -/
theorem out_A_1 (c : Dev nD) (i : grid0.Coords) (a2 : Memref sig .tc .vmem S4x32x8192 .f32) (h2 : a2.IsWhole)
    (a3 : Memref sig .tc .vmem S1x32x1 .f32) (h3 : a3.IsWhole) (a4 : Memref sig .tc .vmem S1x32x32 .f32) (h4 : a4.IsWhole)
    (hc : cond0_0 i) (x0 : Vec F S4x32x8192 .f32) :
    out0_A_1 c i a2 h2 a3 h3 a4 h4 hc x0 = k0_pay3 (blockSum x0) k0_pay1 := by
  unfold out0_A_1
  rw [View.read_writes_eq_canon _ _ _ (cover0_A_1 c i a2 h2 a3 h3 a4 h4 hc x0)]
  unfold kernelRun0_A
  dsimp only
  sl_unfold_words
  rw [View.canon_cons_unit_zero (S := S1x32x1) hz3, View.readCov_unit_zero (S := S1x32x1) _ hz3]
  simp only [View.readAt_eq_ld, h2.read_unread]
  rfl

/-- A core's first step leaves in the products buffer the zeros it stored plus the block sum of products. -/
theorem out_A_2 (c : Dev nD) (i : grid0.Coords) (a2 : Memref sig .tc .vmem S4x32x8192 .f32) (h2 : a2.IsWhole)
    (a3 : Memref sig .tc .vmem S1x32x1 .f32) (h3 : a3.IsWhole) (a4 : Memref sig .tc .vmem S1x32x32 .f32) (h4 : a4.IsWhole)
    (hc : cond0_0 i) (x0 : Vec F S4x32x8192 .f32) :
    out0_A_2 c i a2 h2 a3 h3 a4 h4 hc x0 = k0_pay4 (blockCp x0) k0_pay2 := by
  unfold out0_A_2
  rw [View.read_writes_eq_canon _ _ _ (cover0_A_2 c i a2 h2 a3 h3 a4 h4 hc x0)]
  unfold kernelRun0_A
  dsimp only
  sl_unfold_words
  rw [View.canon_cons_unit_zero (S := S1x32x32) hz3, View.readCov_unit_zero (S := S1x32x32) _ hz3]
  simp only [View.readAt_eq_ld, h2.read_unread]
  rfl

end Cert.KernelIdeal.Reg0
end
-- ==== Proof.Reg0Pay.lean ====
/-
  The arithmetic of the first kernel's body, read at an index over the extended reals.

  At one grid point the body loads four rows v₀ … v₃ of the input block (each a [1, 32, 8192] array), forms for each
  the lane sums r_k[i] = ∑_f v_k[0, i, f] and the products m_k[i, j] = ∑_f v_k[0, i, f] · v_k[0, j, f], adds them up
  from zero in the order k = 0, 1, 2, 3, and adds the two block totals to what the two output buffers hold.
-/
import proofs.«174776_j89060441849996_2_alg».proof.Proof.Gen.KernelIdeal.Skeleton
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.Reg0
open Cert.KernelIdeal Cert.KernelIdeal.Gen

/-- The lane sum of channel i of a [1,32,8192] row block. -/
def rsum (v : Vec Ideal S1x32x8192 .f32) (i : Fin 32) : EReal := ∑ f : Fin 8192, v (ix3 (0 : Fin 1) i f)
/-- The lane sum of products of channels i and j of a [1,32,8192] row block. -/
def rcp (v : Vec Ideal S1x32x8192 .f32) (i j : Fin 32) : EReal :=
  ∑ f : Fin 8192, v (ix3 (0 : Fin 1) i f) * v (ix3 (0 : Fin 1) j f)

/-- A [1,32,8192] block viewed [32,8192] reads (i, f) at (0, i, f). -/
theorem flat_apply (v : Vec Ideal S1x32x8192 .f32) (h : S1x32x8192.ShapeCasts S32x8192) (i : Fin 32) (f : Fin 8192) :
    shapeCast S32x8192 v h (ix2 i f) = v (ix3 (0 : Fin 1) i f) :=
  shapeCast_apply v h (ix2 i f) (ix3 (0 : Fin 1) i f) (by
    rw [Shape.rowMajor_val_three, Shape.rowMajor_val_two]
    show (0 * 32 + i.val) * 8192 + f.val = i.val * 8192 + f.val
    omega)

/-- A [32] vector viewed as a [32,1] column reads (i, 0) at i. -/
theorem col_apply (w : FVec Ideal S32 .f32) (h : S32.ShapeCasts S32x1) (i : Fin 32) :
    shapeCast S32x1 w h (ix2 i (0 : Fin 1)) = w (ix1 i) :=
  shapeCast_apply w h (ix2 i (0 : Fin 1)) (ix1 i) (by
    rw [Shape.rowMajor_val_one, Shape.rowMajor_val_two]
    show i.val = i.val * 1 + 0
    omega)

/-- The lane reduction of a [32,8192] array at channel i. -/
theorem lanesum_apply (w : FVec Ideal S32x8192 .f32) (hφ : FKind.Formats .f32)
    (hacc : (0x00000000#32 : BitVec 32) = FKind.add.neutral .f32 hφ) (i : Fin 32) :
    multiReduction (F := Ideal) .add [1] S32 w 0x00000000#32 reduces_S32x8192_S32 hφ hacc (ix1 i)
      = ∑ f : Fin 8192, w (ix2 i f) := by
  refine (Ideal.multiReduction_add_single w 0x00000000#32 reduces_S32x8192_S32 hφ hacc (ix1 i)).trans ?_
  refine Finset.sum_congr rfl fun f _ => congrArg w ?_
  funext a
  match a with
  | ⟨0, _⟩ => rfl
  | ⟨1, _⟩ => rfl

/-- The keepdims lane sum of a [1,32,8192] block at (i, 0). -/
theorem colsum_apply (v : Vec Ideal S1x32x8192 .f32) (hφ : FKind.Formats .f32)
    (hacc : (0x00000000#32 : BitVec 32) = FKind.add.neutral .f32 hφ) (i : Fin 32) :
    shapeCast S32x1 (multiReduction (F := Ideal) .add [1] S32 (shapeCast S32x8192 v shapeCasts_S1x32x8192_S32x8192)
        0x00000000#32 reduces_S32x8192_S32 hφ hacc) shapeCasts_S32_S32x1 (ix2 i (0 : Fin 1)) = rsum v i := by
  refine (col_apply _ _ i).trans ?_
  refine (lanesum_apply _ hφ hacc i).trans ?_
  exact Finset.sum_congr rfl fun f _ => flat_apply v _ i f

/-- The block sum of the four rows at channel i: the additions as the body makes them, from zero. -/
theorem pay9_apply (v3 v11 v19 v27 : Vec Ideal S1x32x8192 .f32) (i : Fin 32) :
    k0_pay9 (F := Ideal) v3 v11 v19 v27 (ix2 i (0 : Fin 1)) = (((0 + rsum v3 i) + rsum v11 i) + rsum v19 i) + rsum v27 i := by
  unfold k0_pay9 k0_pay5 k0_pay6 k0_pay7 k0_pay8
  dsimp only
  simp only [addf_apply, broadcast_apply]
  exact congrArg₂ (· + ·) (congrArg₂ (· + ·) (congrArg₂ (· + ·) (congrArg₂ (· + ·) Ideal.ofBits_zero_f32
    (colsum_apply v3 _ _ i)) (colsum_apply v11 _ _ i)) (colsum_apply v19 _ _ i)) (colsum_apply v27 _ _ i)

/-- A [32,8192] array times its own transpose, into a zero accumulator, at (i, j): the lane sum of products. -/
theorem gram_apply (w : FVec Ideal S32x8192 .f32) (prec : Option ContractPrecision) (i j : Fin 32) :
    matmul (F := Ideal) dot_S32x8192_S32x8192_S32x32_1_1_0_0_n_n prec w w (constant S32x32 .f32 0x00000000#32) (ix2 i j)
      = ∑ f : Fin 8192, w (ix2 i f) * w (ix2 j f) := by
  show FloatOps.matmul dot_S32x8192_S32x8192_S32x32_1_1_0_0_n_n prec w w (constant S32x32 .f32 0x00000000#32) (ix2 i j) = _
  rw [Ideal.matmul_constant_zero_apply,
    ← Equiv.sum_comp (contrEquiv1 dot_S32x8192_S32x8192_S32x32_1_1_0_0_n_n 8192 rfl rfl).symm]
  refine Finset.sum_congr rfl fun f _ => ?_
  have c := contrEquiv1_symm_val dot_S32x8192_S32x8192_S32x32_1_1_0_0_n_n 8192 rfl rfl f
  have l : dot_S32x8192_S32x8192_S32x32_1_1_0_0_n_n.lhsIdx (ix2 i j)
      ((contrEquiv1 dot_S32x8192_S32x8192_S32x32_1_1_0_0_n_n 8192 rfl rfl).symm f) = ix2 i f := by
    funext ax; apply Fin.ext
    match ax with
    | ⟨0, _⟩ => simp [DotDims.lhsIdx, dot_S32x8192_S32x8192_S32x32_1_1_0_0_n_n]; rfl
    | ⟨1, _⟩ => simp [DotDims.lhsIdx, dot_S32x8192_S32x8192_S32x32_1_1_0_0_n_n]; exact c
  have r : dot_S32x8192_S32x8192_S32x32_1_1_0_0_n_n.rhsIdx (ix2 i j)
      ((contrEquiv1 dot_S32x8192_S32x8192_S32x32_1_1_0_0_n_n 8192 rfl rfl).symm f) = ix2 j f := by
    funext ax; apply Fin.ext
    match ax with
    | ⟨0, _⟩ => simp [DotDims.rhsIdx, dot_S32x8192_S32x8192_S32x32_1_1_0_0_n_n]; rfl
    | ⟨1, _⟩ => simp [DotDims.rhsIdx, dot_S32x8192_S32x8192_S32x32_1_1_0_0_n_n]; exact c
  rw [l, r]

/-- The product of a [1,32,8192] block (viewed [32,8192]) with its transpose at (i, j). -/
theorem gramrow_apply (v : Vec Ideal S1x32x8192 .f32) (prec : Option ContractPrecision) (i j : Fin 32) :
    matmul (F := Ideal) (φ₁ := .f32) (φ₂ := .f32) dot_S32x8192_S32x8192_S32x32_1_1_0_0_n_n prec
        (shapeCast S32x8192 v shapeCasts_S1x32x8192_S32x8192) (shapeCast S32x8192 v shapeCasts_S1x32x8192_S32x8192)
        (constant S32x32 .f32 0x00000000#32) (ix2 i j) = rcp v i j := by
  refine (gram_apply _ prec i j).trans ?_
  exact Finset.sum_congr rfl fun f _ => congrArg₂ (· * ·) (flat_apply v _ i f) (flat_apply v _ j f)

/-- The block sum of products of the four rows at (i, j): the additions as the body makes them, from zero. -/
theorem pay10_apply (v3 v11 v19 v27 : Vec Ideal S1x32x8192 .f32) (i j : Fin 32) :
    k0_pay10 (F := Ideal) v3 v11 v19 v27 (ix2 i j) = (((0 + rcp v3 i j) + rcp v11 i j) + rcp v19 i j) + rcp v27 i j := by
  unfold k0_pay10 k0_pay5 k0_pay6 k0_pay7 k0_pay8
  dsimp only
  simp only [addf_apply, broadcast_apply]
  exact congrArg₂ (· + ·) (congrArg₂ (· + ·) (congrArg₂ (· + ·) (congrArg₂ (· + ·) Ideal.ofBits_zero_f32
    (gramrow_apply v3 _ i j)) (gramrow_apply v11 _ i j)) (gramrow_apply v19 _ i j)) (gramrow_apply v27 _ i j)

/-- A [32,1] column stored as a [1,32,1] block reads (0, i, 0) at (i, 0). -/
theorem up1_apply (w : FVec Ideal S32x1 .f32) (h : S32x1.ShapeCasts S1x32x1) (i : Fin 32) :
    shapeCast S1x32x1 w h (ix3 (0 : Fin 1) i (0 : Fin 1)) = w (ix2 i (0 : Fin 1)) :=
  shapeCast_apply w h _ _ (by
    rw [Shape.rowMajor_val_three, Shape.rowMajor_val_two]
    show i.val * 1 + 0 = (0 * 32 + i.val) * 1 + 0
    omega)

/-- A [32,32] matrix stored as a [1,32,32] block reads (0, i, j) at (i, j). -/
theorem up2_apply (w : FVec Ideal S32x32 .f32) (h : S32x32.ShapeCasts S1x32x32) (i j : Fin 32) :
    shapeCast S1x32x32 w h (ix3 (0 : Fin 1) i j) = w (ix2 i j) :=
  shapeCast_apply w h _ _ (by
    rw [Shape.rowMajor_val_three, Shape.rowMajor_val_two]
    show i.val * 32 + j.val = (0 * 32 + i.val) * 32 + j.val
    omega)

/-- What the body stores into the sums buffer: what it held plus the block sum. -/
theorem pay3_apply (v32 : FVec Ideal S32x1 .f32) (v37 : Vec Ideal S1x32x1 .f32) (i : Fin 32) :
    k0_pay3 (F := Ideal) v32 v37 (ix3 (0 : Fin 1) i (0 : Fin 1))
      = v37 (ix3 (0 : Fin 1) i (0 : Fin 1)) + v32 (ix2 i (0 : Fin 1)) := by
  unfold k0_pay3
  simp only [addf_apply, shapeCast_self]
  exact congrArg (v37 (ix3 (0 : Fin 1) i (0 : Fin 1)) + ·) (up1_apply v32 _ i)

/-- What the body stores into the products buffer: what it held plus the block sum of products. -/
theorem pay4_apply (v33 : FVec Ideal S32x32 .f32) (v42 : Vec Ideal S1x32x32 .f32) (i j : Fin 32) :
    k0_pay4 (F := Ideal) v33 v42 (ix3 (0 : Fin 1) i j) = v42 (ix3 (0 : Fin 1) i j) + v33 (ix2 i j) := by
  unfold k0_pay4
  simp only [addf_apply, shapeCast_self]
  exact congrArg (v42 (ix3 (0 : Fin 1) i j) + ·) (up2_apply v33 _ i j)

/-- The reset stores zeros. -/
theorem pay1_apply (y : S1x32x1.Idx) : k0_pay1 (F := Ideal) y = 0 := Ideal.ofBits_zero_f32
theorem pay2_apply (y : S1x32x32.Idx) : k0_pay2 (F := Ideal) y = 0 := Ideal.ofBits_zero_f32

end Cert.KernelIdeal.Reg0
end
-- ==== Proof.Reg0Acc.lean ====
/-
  What the two output buffers of the first kernel hold after each grid point.

  The grid is 2 × 16; point n = 16 p + s is step s of core p and reads the batch rows 4 n … 4 n + 3 of the input
  x[128, 32, 8192].  Its addend to the channel sums is  ∑_k ∑_f x[4n + k, i, f]  and to the sums of products
  ∑_k ∑_f x[4n + k, i, f] · x[4n + k, j, f].  Step 0 of a core stores zeros and adds its addend; every later step
  adds its addend to what the step before left.  So after point n the buffers hold the sum of the addends of the
  points 16 p … n, and after the last step of core p that is the core's partial sum.  Addition of extended reals is
  associative and commutative with 0 neutral, which is all that is used.
-/
import proofs.«174776_j89060441849996_2_alg».proof.Proof.Reg0Pieces
import proofs.«174776_j89060441849996_2_alg».proof.Proof.Reg0Pay
import proofs.«174776_j89060441849996_2_alg».proof.Proof.Spec

noncomputable section

open Idealize.ShloMosaic Idealize.ShloMosaic.TcCoe Idealize.ShloMosaic.ValueIdx Idealize.SL.Sem

namespace Cert.KernelIdeal.Reg0
open Cert.KernelIdeal Cert.KernelIdeal.Gen

/-- The input array by coordinates. -/
def x3 (v : FVec Ideal S128x32x8192 .f32) : Fin 128 → Fin 32 → Fin 8192 → EReal := fun b i f => v (ix3 b i f)

/-- Batch row 4 n + k (n < 32 wherever it is used; reduced mod 128 to be total). -/
def rowAt (n : ℕ) (k : Fin 4) : Fin 128 := ⟨(4 * n + k.val) % 128, Nat.mod_lt _ (by decide)⟩

theorem rowAt_eq (p : Fin 2) (s : Fin 16) (k : Fin 4) : rowAt (16 * p.val + s.val) k = Cert.Spec.brow p s k :=
  Fin.ext (by
    show (4 * (16 * p.val + s.val) + k.val) % 128 = (p.val * 16 + s.val) * 4 + k.val
    have := p.isLt; have := s.isLt; have := k.isLt
    omega)

/-! ## The rows of a block -/

theorem row0_apply (x0 : Vec Ideal S4x32x8192 .f32) (i : Fin 32) (f : Fin 8192) :
    row0 x0 (ix3 (0 : Fin 1) i f) = x0 (ix3 (0 : Fin 4) i f) :=
  congrArg x0 (funext fun a => Fin.ext (by
    match a with
    | ⟨0, _⟩ => rfl
    | ⟨1, _⟩ => show 0 + 1 * i.val = i.val; omega
    | ⟨2, _⟩ => show 0 + 1 * f.val = f.val; omega))
theorem row1_apply (x0 : Vec Ideal S4x32x8192 .f32) (i : Fin 32) (f : Fin 8192) :
    row1 x0 (ix3 (0 : Fin 1) i f) = x0 (ix3 (1 : Fin 4) i f) :=
  congrArg x0 (funext fun a => Fin.ext (by
    match a with
    | ⟨0, _⟩ => rfl
    | ⟨1, _⟩ => show 0 + 1 * i.val = i.val; omega
    | ⟨2, _⟩ => show 0 + 1 * f.val = f.val; omega))
theorem row2_apply (x0 : Vec Ideal S4x32x8192 .f32) (i : Fin 32) (f : Fin 8192) :
    row2 x0 (ix3 (0 : Fin 1) i f) = x0 (ix3 (2 : Fin 4) i f) :=
  congrArg x0 (funext fun a => Fin.ext (by
    match a with
    | ⟨0, _⟩ => rfl
    | ⟨1, _⟩ => show 0 + 1 * i.val = i.val; omega
    | ⟨2, _⟩ => show 0 + 1 * f.val = f.val; omega))
theorem row3_apply (x0 : Vec Ideal S4x32x8192 .f32) (i : Fin 32) (f : Fin 8192) :
    row3 x0 (ix3 (0 : Fin 1) i f) = x0 (ix3 (3 : Fin 4) i f) :=
  congrArg x0 (funext fun a => Fin.ext (by
    match a with
    | ⟨0, _⟩ => rfl
    | ⟨1, _⟩ => show 0 + 1 * i.val = i.val; omega
    | ⟨2, _⟩ => show 0 + 1 * f.val = f.val; omega))

/-! ## One point's addends -/

section Addends
variable (x : Fin 128 → Fin 32 → Fin 8192 → EReal)

/-- Point n's addend to the channel sums, and to the sums of products. -/
def addS (n : ℕ) (i : Fin 32) : EReal := ∑ k : Fin 4, ∑ f : Fin 8192, x (rowAt n k) i f
def addC (n : ℕ) (i j : Fin 32) : EReal := ∑ k : Fin 4, ∑ f : Fin 8192, x (rowAt n k) i f * x (rowAt n k) j f

/-- The block sum of a block that holds the rows 4 n … 4 n + 3 of x is point n's addend. -/
theorem blockSum_apply (x0 : Vec Ideal S4x32x8192 .f32) (n : ℕ)
    (hx : ∀ (k : Fin 4) (i : Fin 32) (f : Fin 8192), x0 (ix3 k i f) = x (rowAt n k) i f) (i : Fin 32) :
    blockSum x0 (ix2 i (0 : Fin 1)) = addS x n i := by
  unfold blockSum
  refine (pay9_apply (row0 x0) (row1 x0) (row2 x0) (row3 x0) i).trans ?_
  have r0 : rsum (row0 x0) i = ∑ f : Fin 8192, x (rowAt n 0) i f :=
    Finset.sum_congr rfl fun f _ => (row0_apply x0 i f).trans (hx 0 i f)
  have r1 : rsum (row1 x0) i = ∑ f : Fin 8192, x (rowAt n 1) i f :=
    Finset.sum_congr rfl fun f _ => (row1_apply x0 i f).trans (hx 1 i f)
  have r2 : rsum (row2 x0) i = ∑ f : Fin 8192, x (rowAt n 2) i f :=
    Finset.sum_congr rfl fun f _ => (row2_apply x0 i f).trans (hx 2 i f)
  have r3 : rsum (row3 x0) i = ∑ f : Fin 8192, x (rowAt n 3) i f :=
    Finset.sum_congr rfl fun f _ => (row3_apply x0 i f).trans (hx 3 i f)
  rw [r0, r1, r2, r3, zero_add]
  unfold addS
  rw [Fin.sum_univ_four]

/-- The block sum of products likewise. -/
theorem blockCp_apply (x0 : Vec Ideal S4x32x8192 .f32) (n : ℕ)
    (hx : ∀ (k : Fin 4) (i : Fin 32) (f : Fin 8192), x0 (ix3 k i f) = x (rowAt n k) i f) (i j : Fin 32) :
    blockCp x0 (ix2 i j) = addC x n i j := by
  unfold blockCp
  refine (pay10_apply (row0 x0) (row1 x0) (row2 x0) (row3 x0) i j).trans ?_
  have r0 : rcp (row0 x0) i j = ∑ f : Fin 8192, x (rowAt n 0) i f * x (rowAt n 0) j f :=
    Finset.sum_congr rfl fun f _ => congrArg₂ (· * ·) ((row0_apply x0 i f).trans (hx 0 i f)) ((row0_apply x0 j f).trans (hx 0 j f))
  have r1 : rcp (row1 x0) i j = ∑ f : Fin 8192, x (rowAt n 1) i f * x (rowAt n 1) j f :=
    Finset.sum_congr rfl fun f _ => congrArg₂ (· * ·) ((row1_apply x0 i f).trans (hx 1 i f)) ((row1_apply x0 j f).trans (hx 1 j f))
  have r2 : rcp (row2 x0) i j = ∑ f : Fin 8192, x (rowAt n 2) i f * x (rowAt n 2) j f :=
    Finset.sum_congr rfl fun f _ => congrArg₂ (· * ·) ((row2_apply x0 i f).trans (hx 2 i f)) ((row2_apply x0 j f).trans (hx 2 j f))
  have r3 : rcp (row3 x0) i j = ∑ f : Fin 8192, x (rowAt n 3) i f * x (rowAt n 3) j f :=
    Finset.sum_congr rfl fun f _ => congrArg₂ (· * ·) ((row3_apply x0 i f).trans (hx 3 i f)) ((row3_apply x0 j f).trans (hx 3 j f))
  rw [r0, r1, r2, r3, zero_add]
  unfold addC
  rw [Fin.sum_univ_four]

/-! ## The running sums of a core -/

/-- The sum of the addends of the points from the first of n's core up to n. -/
def runS (n : ℕ) (i : Fin 32) : EReal := ∑ s ∈ Finset.range (n % 16 + 1), addS x (n - n % 16 + s) i
def runC (n : ℕ) (i j : Fin 32) : EReal := ∑ s ∈ Finset.range (n % 16 + 1), addC x (n - n % 16 + s) i j

theorem runS_first (n : ℕ) (h : n % 16 = 0) (i : Fin 32) : runS x n i = addS x n i := by
  unfold runS
  rw [h, Finset.sum_range_one]
  rfl
theorem runC_first (n : ℕ) (h : n % 16 = 0) (i j : Fin 32) : runC x n i j = addC x n i j := by
  unfold runC
  rw [h, Finset.sum_range_one]
  rfl

theorem runS_step (n : ℕ) (h : ¬(n + 1) % 16 = 0) (i : Fin 32) : runS x (n + 1) i = runS x n i + addS x (n + 1) i := by
  unfold runS
  have e1 : (n + 1) % 16 = n % 16 + 1 := by omega
  have e2 : n + 1 - (n % 16 + 1) = n - n % 16 := by omega
  have e3 : n - n % 16 + (n % 16 + 1) = n + 1 := by omega
  rw [e1, e2, Finset.sum_range_succ _ (n % 16 + 1), e3]
theorem runC_step (n : ℕ) (h : ¬(n + 1) % 16 = 0) (i j : Fin 32) :
    runC x (n + 1) i j = runC x n i j + addC x (n + 1) i j := by
  unfold runC
  have e1 : (n + 1) % 16 = n % 16 + 1 := by omega
  have e2 : n + 1 - (n % 16 + 1) = n - n % 16 := by omega
  have e3 : n - n % 16 + (n % 16 + 1) = n + 1 := by omega
  rw [e1, e2, Finset.sum_range_succ _ (n % 16 + 1), e3]

/-- After the last step of core p the running sums are the core's partial sums. -/
theorem runS_last (p : Fin 2) (i : Fin 32) : runS x (16 * p.val + 15) i = Cert.Spec.partSum x p i := by
  unfold runS Cert.Spec.partSum
  have e1 : (16 * p.val + 15) % 16 + 1 = 16 := by omega
  have e2 : 16 * p.val + 15 - (16 * p.val + 15) % 16 = 16 * p.val := by omega
  rw [e1, e2, Finset.sum_range]
  refine Finset.sum_congr rfl fun s _ => ?_
  unfold addS
  exact Finset.sum_congr rfl fun k _ => Finset.sum_congr rfl fun f _ => by rw [rowAt_eq p s k]
theorem runC_last (p : Fin 2) (i j : Fin 32) : runC x (16 * p.val + 15) i j = Cert.Spec.partCp x p i j := by
  unfold runC Cert.Spec.partCp
  have e1 : (16 * p.val + 15) % 16 + 1 = 16 := by omega
  have e2 : 16 * p.val + 15 - (16 * p.val + 15) % 16 = 16 * p.val := by omega
  rw [e1, e2, Finset.sum_range]
  refine Finset.sum_congr rfl fun s _ => ?_
  unfold addC
  exact Finset.sum_congr rfl fun k _ => Finset.sum_congr rfl fun f _ => by rw [rowAt_eq p s k]

end Addends

/-! ## The input block at a point -/

section Points
variable (V : (c : Dev nD) → (b : Ref sig .tc) → Buf (Elt Ideal) ((c : Thread nD τ).loc b)) (c : Dev nD)

/-- The printed index map of the input window, decided over the grid: point n reads block n. -/
theorem idx_in : ∀ t : Fin cfg0.N, win0_0.index t (0 : Fin 3) = t.val ∧ win0_0.index t (1 : Fin 3) = 0
    ∧ win0_0.index t (2 : Fin 3) = 0 :=
  (by decide +kernel : ∀ t : Fin grid0.N, _)

/-- The input block at point t holds the batch rows 4 t … 4 t + 3 of the array. -/
theorem iblk_apply (t : Fin cfg0.N) (k : Fin 4) (i : Fin 32) (f : Fin 8192) :
    (iblk0 V c 0 t : Vec Ideal S4x32x8192 .f32) (ix3 k i f) = x3 (V c (Pipeline.arrRef spec0 0)) (rowAt t.val k) i f := by
  obtain ⟨e0, e1, e2⟩ := idx_in t
  have hN : t.val < 32 := lt_of_lt_of_eq t.isLt (show cfg0.N = 32 from N_0)
  unfold iblk0 x3
  rw [View.read_apply]
  show V c (Pipeline.arrRef spec0 0) (((cfg0.win 0).blk t).view.emb (ix3 k i f))
    = V c (Pipeline.arrRef spec0 0) (ix3 (rowAt t.val k) i f)
  refine congrArg _ (funext fun a => Fin.ext ?_)
  match a with
  | ⟨0, _⟩ =>
    show win0_0.index t (0 : Fin 3) * 4 + 1 * k.val = (4 * t.val + k.val) % 128
    have := k.isLt
    rw [e0]; omega
  | ⟨1, _⟩ => show win0_0.index t (1 : Fin 3) * 32 + 1 * i.val = i.val; rw [e1]; omega
  | ⟨2, _⟩ => show win0_0.index t (2 : Fin 3) * 8192 + 1 * f.val = f.val; rw [e2]; omega

/-! ## The invariant -/

local notation "X" => x3 (V c (Pipeline.arrRef spec0 0))

/-- A core's first step leaves its own addends. -/
theorem outs_A (t : Fin cfg0.N) (h0 : t.val % 16 = 0) :
    (∀ i : Fin 32, (outsAt0 V c t.val t.isLt).1 (ix3 (0 : Fin 1) i (0 : Fin 1)) = addS X t.val i)
    ∧ (∀ i j : Fin 32, (outsAt0 V c t.val t.isLt).2 (ix3 (0 : Fin 1) i j) = addC X t.val i j) := by
  rw [outsAt0_A V c t h0]
  dsimp only
  constructor
  · intro i
    refine (congrFun (out_A_1 (F := Ideal) c (grid0.coords t) (ms0_0 t) (hs0_0 t) (ms0_1 t) (hs0_1 t) (ms0_2 t) (hs0_2 t)
      ((hcond0_0 t).mpr h0) (iblk0 V c 0 t)) (ix3 (0 : Fin 1) i (0 : Fin 1))).trans ?_
    refine (pay3_apply (blockSum (iblk0 V c 0 t)) (k0_pay1 (F := Ideal)) i).trans ?_
    rw [pay1_apply, zero_add]
    exact blockSum_apply X (iblk0 V c 0 t) t.val (iblk_apply V c t) i
  · intro i j
    refine (congrFun (out_A_2 (F := Ideal) c (grid0.coords t) (ms0_0 t) (hs0_0 t) (ms0_1 t) (hs0_1 t) (ms0_2 t) (hs0_2 t)
      ((hcond0_0 t).mpr h0) (iblk0 V c 0 t)) (ix3 (0 : Fin 1) i j)).trans ?_
    refine (pay4_apply (blockCp (iblk0 V c 0 t)) (k0_pay2 (F := Ideal)) i j).trans ?_
    rw [pay2_apply, zero_add]
    exact blockCp_apply X (iblk0 V c 0 t) t.val (iblk_apply V c t) i j

/-- A later step adds its addends to what the step before left. -/
theorem outs_B (t : Fin cfg0.N) (h0 : ¬t.val % 16 = 0) :
    (∀ i : Fin 32, (outsAt0 V c t.val t.isLt).1 (ix3 (0 : Fin 1) i (0 : Fin 1))
        = (outsAt0 V c (t.val - 1) (Nat.lt_of_le_of_lt (Nat.sub_le _ _) t.isLt)).1 (ix3 (0 : Fin 1) i (0 : Fin 1)) + addS X t.val i)
    ∧ (∀ i j : Fin 32, (outsAt0 V c t.val t.isLt).2 (ix3 (0 : Fin 1) i j)
        = (outsAt0 V c (t.val - 1) (Nat.lt_of_le_of_lt (Nat.sub_le _ _) t.isLt)).2 (ix3 (0 : Fin 1) i j) + addC X t.val i j) := by
  rw [outsAt0_B V c t h0]
  dsimp only
  constructor
  · intro i
    refine (congrFun (out_B_1 (F := Ideal) c (grid0.coords t) (ms0_0 t) (hs0_0 t) (ms0_1 t) (hs0_1 t) (ms0_2 t) (hs0_2 t)
      (fun h => h0 ((hcond0_0 t).mp h)) (iblk0 V c 0 t)
      (outsAt0 V c (t.val - 1) (Nat.lt_of_le_of_lt (Nat.sub_le _ _) t.isLt)).1
      (outsAt0 V c (t.val - 1) (Nat.lt_of_le_of_lt (Nat.sub_le _ _) t.isLt)).2) (ix3 (0 : Fin 1) i (0 : Fin 1))).trans ?_
    refine (pay3_apply (blockSum (iblk0 V c 0 t)) (outsAt0 V c (t.val - 1) (Nat.lt_of_le_of_lt (Nat.sub_le _ _) t.isLt)).1 i).trans ?_
    exact congrArg (_ + ·) (blockSum_apply X (iblk0 V c 0 t) t.val (iblk_apply V c t) i)
  · intro i j
    refine (congrFun (out_B_2 (F := Ideal) c (grid0.coords t) (ms0_0 t) (hs0_0 t) (ms0_1 t) (hs0_1 t) (ms0_2 t) (hs0_2 t)
      (fun h => h0 ((hcond0_0 t).mp h)) (iblk0 V c 0 t)
      (outsAt0 V c (t.val - 1) (Nat.lt_of_le_of_lt (Nat.sub_le _ _) t.isLt)).1
      (outsAt0 V c (t.val - 1) (Nat.lt_of_le_of_lt (Nat.sub_le _ _) t.isLt)).2) (ix3 (0 : Fin 1) i j)).trans ?_
    refine (pay4_apply (blockCp (iblk0 V c 0 t)) (outsAt0 V c (t.val - 1) (Nat.lt_of_le_of_lt (Nat.sub_le _ _) t.isLt)).2 i j).trans ?_
    exact congrArg (_ + ·) (blockCp_apply X (iblk0 V c 0 t) t.val (iblk_apply V c t) i j)

/-- After point n the buffers hold the running sums of n's core: by induction on the point. -/
theorem outs_eq : ∀ (n : ℕ) (h : n < cfg0.N),
    (∀ i : Fin 32, (outsAt0 V c n h).1 (ix3 (0 : Fin 1) i (0 : Fin 1)) = runS X n i)
    ∧ (∀ i j : Fin 32, (outsAt0 V c n h).2 (ix3 (0 : Fin 1) i j) = runC X n i j)
  | 0, h => by
    obtain ⟨a1, a2⟩ := outs_A V c ⟨0, h⟩ rfl
    exact ⟨fun i => (a1 i).trans (runS_first X 0 rfl i).symm, fun i j => (a2 i j).trans (runC_first X 0 rfl i j).symm⟩
  | n + 1, h => by
    by_cases h0 : (n + 1) % 16 = 0
    · obtain ⟨a1, a2⟩ := outs_A V c ⟨n + 1, h⟩ h0
      exact ⟨fun i => (a1 i).trans (runS_first X (n + 1) h0 i).symm,
        fun i j => (a2 i j).trans (runC_first X (n + 1) h0 i j).symm⟩
    · obtain ⟨b1, b2⟩ := outs_B V c ⟨n + 1, h⟩ h0
      obtain ⟨p1, p2⟩ := outs_eq n (Nat.lt_of_succ_lt h)
      refine ⟨fun i => ?_, fun i j => ?_⟩
      · rw [runS_step X n h0 i, ← p1 i]; exact b1 i
      · rw [runC_step X n h0 i j, ← p2 i j]; exact b2 i j

end Points

end Cert.KernelIdeal.Reg0
end
-- ==== Proof.Reg0Arr.lean ====
/-
  The two result arrays of the first kernel after its run.

  Both output windows have the index map (p, 0, 0): block p of the [2, 32, 1] array of channel sums and of the
  [2, 32, 32] array of sums of products belongs to core p, stays put over the core's 16 steps, and is written back once,
  after the core's last step (point 16 p + 15).  What that point's buffers hold is the core's partial sums, so entry
  (p, i, 0) of the first array is  ∑_s ∑_k ∑_f x[brow p s k, i, f]  and entry (p, i, j) of the second the same sum of
  products x[…, i, f] · x[…, j, f].  The two flushed blocks are the two halves of each array, so they cover it.
-/
import proofs.«174776_j89060441849996_2_alg».proof.Proof.Reg0Acc

noncomputable section

open Idealize.ShloMosaic Idealize.ShloMosaic.TcCoe Idealize.ShloMosaic.ValueIdx Idealize.SL.Sem
open Idealize.ShloMosaic.Pipeline (Dat)

namespace Cert.KernelIdeal.Reg0
open Cert.KernelIdeal Cert.KernelIdeal.Gen

variable (V : (c : Dev nD) → (b : Ref sig .tc) → Buf (Elt Ideal) ((c : Thread nD τ).loc b)) (c : Dev nD)

local notation "X" => x3 (V c (Pipeline.arrRef spec0 0))

/-- The printed index maps of the two output windows, decided over the grid: point t writes block t / 16. -/
theorem idx_out : ∀ t : Fin cfg0.N,
    win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0 :=
  (by decide +kernel : ∀ t : Fin grid0.N, _)

/-! ## The channel sums -/

/-- The array of partial channel sums: entry (p, i, 0) is core p's. -/
def sums : S2x32x1.Idx → EReal := fun idx => Cert.Spec.partSum X (idx 0 : Fin 2) (idx 1 : Fin 32)

/-- What a flushing point writes back is its block of that array. -/
theorem flushed1_eq (t : Fin cfg0.N) (hf : (cfg0.win 1).flush t = true) :
    (dat0 (F := Ideal) V c).flushed 1 t = ((cfg0.win 1).blk t).view.read (Elt Ideal) (sums V c) := by
  have h15 : t.val % 16 = 15 := (flush0_1 t).mp hf
  have hN : t.val < 32 := lt_of_lt_of_eq t.isLt (show cfg0.N = 32 from N_0)
  obtain ⟨e0, e1, e2, -, -, -⟩ := idx_out t
  show (cfg0.win 1).cut (grid0.coords t) ((dat0 V c).after 1 t) = _
  rw [after0_1]
  funext y
  obtain ⟨i, rfl⟩ : ∃ i : Fin 32, y = ix3 (0 : Fin 1) i (0 : Fin 1) := ⟨y 1, by
    funext a
    match a with
    | ⟨0, _⟩ => exact Subsingleton.elim (α := Fin 1) _ _
    | ⟨1, _⟩ => rfl
    | ⟨2, _⟩ => exact Subsingleton.elim (α := Fin 1) _ _⟩
  show (outsAt0 V c t.val t.isLt).1 (ix3 (0 : Fin 1) i (0 : Fin 1))
    = sums V c (((cfg0.win 1).blk t).view.emb (ix3 (0 : Fin 1) i (0 : Fin 1)))
  rw [(outs_eq V c t.val t.isLt).1 i]
  have hp : ((cfg0.win 1).blk t).view.emb (ix3 (0 : Fin 1) i (0 : Fin 1))
      = ix3 (⟨t.val / 16, by omega⟩ : Fin 2) i (0 : Fin 1) := by
    funext a; apply Fin.ext
    match a with
    | ⟨0, _⟩ => show win0_1.index t (0 : Fin 3) * 1 + 1 * 0 = t.val / 16; rw [e0]; omega
    | ⟨1, _⟩ => show win0_1.index t (1 : Fin 3) * 32 + 1 * i.val = i.val; rw [e1]; omega
    | ⟨2, _⟩ => show win0_1.index t (2 : Fin 3) * 1 + 1 * 0 = 0; rw [e2]
  rw [hp]
  show runS X t.val i = Cert.Spec.partSum X (⟨t.val / 16, by omega⟩ : Fin 2) i
  have ht : t.val = 16 * (t.val / 16) + 15 := by omega
  exact (congrArg (fun n => runS X n i) ht).trans (runS_last X (⟨t.val / 16, by omega⟩ : Fin 2) i)

/-- The two flushed blocks cover the array. -/
theorem cover1 (idx : S2x32x1.Idx) :
    ∃ t : Fin cfg0.N, (cfg0.win 1).flush t = true ∧ idx ∈ ((cfg0.win 1).blk t).view.set := by
  have h0 : (idx 0).val < 2 := (idx 0).isLt
  have h1 : (idx 1).val < 32 := (idx 1).isLt
  have h2 : (idx 2).val < 1 := (idx 2).isLt
  obtain ⟨T, hT⟩ : ∃ T : Fin cfg0.N, T.val = 16 * (idx 0).val + 15 :=
    ⟨⟨16 * (idx 0).val + 15, by rw [show cfg0.N = 32 from N_0]; omega⟩, rfl⟩
  obtain ⟨e0, e1, e2, -, -, -⟩ := idx_out T
  refine ⟨T, (flush0_1 T).mpr (by omega), ?_⟩
  show idx ∈ ((View.whole main_v1_0).slice (win0_1.rect T)).set
  rw [View.set_slice_whole, Rect.mem_set_unit]
  intro a
  match a with
  | ⟨0, _⟩ =>
    show win0_1.index T (0 : Fin 3) * 1 ≤ (idx 0).val ∧ (idx 0).val < win0_1.index T (0 : Fin 3) * 1 + 1
    rw [e0]; omega
  | ⟨1, _⟩ =>
    show win0_1.index T (1 : Fin 3) * 32 ≤ (idx 1).val ∧ (idx 1).val < win0_1.index T (1 : Fin 3) * 32 + 32
    rw [e1]; omega
  | ⟨2, _⟩ =>
    show win0_1.index T (2 : Fin 3) * 1 ≤ (idx 2).val ∧ (idx 2).val < win0_1.index T (2 : Fin 3) * 1 + 1
    rw [e2]; omega

/-- So the array ends holding the partial channel sums. -/
theorem final1 : (dat0 (F := Ideal) V c).arrAt 1 cfg0.N = sums V c :=
  (dat0 (F := Ideal) V c).arrAt_eq_of_cover 1 (sums V c) (flushed1_eq V c) (cover1)

theorem arr1 (p : Fin 2) (i : Fin 32) :
    (dat0 (F := Ideal) V c).arrAt 1 cfg0.N (ValueIdx.ix3 p i 0) = Cert.Spec.partSum (x3 (V c (Pipeline.arrRef spec0 0))) p i :=
  congrFun (final1 V c) (ix3 p i (0 : Fin 1))

/-! ## The sums of products -/

/-- The array of partial sums of products: entry (p, i, j) is core p's. -/
def cps : S2x32x32.Idx → EReal := fun idx => Cert.Spec.partCp X (idx 0 : Fin 2) (idx 1 : Fin 32) (idx 2 : Fin 32)

/-- What a flushing point writes back is its block of that array. -/
theorem flushed2_eq (t : Fin cfg0.N) (hf : (cfg0.win 2).flush t = true) :
    (dat0 (F := Ideal) V c).flushed 2 t = ((cfg0.win 2).blk t).view.read (Elt Ideal) (cps V c) := by
  have h15 : t.val % 16 = 15 := (flush0_2 t).mp hf
  have hN : t.val < 32 := lt_of_lt_of_eq t.isLt (show cfg0.N = 32 from N_0)
  obtain ⟨-, -, -, e0, e1, e2⟩ := idx_out t
  show (cfg0.win 2).cut (grid0.coords t) ((dat0 V c).after 2 t) = _
  rw [after0_2]
  funext y
  obtain ⟨i, j, rfl⟩ : ∃ (i j : Fin 32), y = ix3 (0 : Fin 1) i j := ⟨y 1, y 2, by
    funext a
    match a with
    | ⟨0, _⟩ => exact Subsingleton.elim (α := Fin 1) _ _
    | ⟨1, _⟩ => rfl
    | ⟨2, _⟩ => rfl⟩
  show (outsAt0 V c t.val t.isLt).2 (ix3 (0 : Fin 1) i j)
    = cps V c (((cfg0.win 2).blk t).view.emb (ix3 (0 : Fin 1) i j))
  rw [(outs_eq V c t.val t.isLt).2 i j]
  have hp : ((cfg0.win 2).blk t).view.emb (ix3 (0 : Fin 1) i j)
      = ix3 (⟨t.val / 16, by omega⟩ : Fin 2) i j := by
    funext a; apply Fin.ext
    match a with
    | ⟨0, _⟩ => show win0_2.index t (0 : Fin 3) * 1 + 1 * 0 = t.val / 16; rw [e0]; omega
    | ⟨1, _⟩ => show win0_2.index t (1 : Fin 3) * 32 + 1 * i.val = i.val; rw [e1]; omega
    | ⟨2, _⟩ => show win0_2.index t (2 : Fin 3) * 32 + 1 * j.val = j.val; rw [e2]; omega
  rw [hp]
  show runC X t.val i j = Cert.Spec.partCp X (⟨t.val / 16, by omega⟩ : Fin 2) i j
  have ht : t.val = 16 * (t.val / 16) + 15 := by omega
  exact (congrArg (fun n => runC X n i j) ht).trans (runC_last X (⟨t.val / 16, by omega⟩ : Fin 2) i j)

/-- The two flushed blocks cover the array. -/
theorem cover2 (idx : S2x32x32.Idx) :
    ∃ t : Fin cfg0.N, (cfg0.win 2).flush t = true ∧ idx ∈ ((cfg0.win 2).blk t).view.set := by
  have h0 : (idx 0).val < 2 := (idx 0).isLt
  have h1 : (idx 1).val < 32 := (idx 1).isLt
  have h2 : (idx 2).val < 32 := (idx 2).isLt
  obtain ⟨T, hT⟩ : ∃ T : Fin cfg0.N, T.val = 16 * (idx 0).val + 15 :=
    ⟨⟨16 * (idx 0).val + 15, by rw [show cfg0.N = 32 from N_0]; omega⟩, rfl⟩
  obtain ⟨-, -, -, e0, e1, e2⟩ := idx_out T
  refine ⟨T, (flush0_2 T).mpr (by omega), ?_⟩
  show idx ∈ ((View.whole main_v1_1).slice (win0_2.rect T)).set
  rw [View.set_slice_whole, Rect.mem_set_unit]
  intro a
  match a with
  | ⟨0, _⟩ =>
    show win0_2.index T (0 : Fin 3) * 1 ≤ (idx 0).val ∧ (idx 0).val < win0_2.index T (0 : Fin 3) * 1 + 1
    rw [e0]; omega
  | ⟨1, _⟩ =>
    show win0_2.index T (1 : Fin 3) * 32 ≤ (idx 1).val ∧ (idx 1).val < win0_2.index T (1 : Fin 3) * 32 + 32
    rw [e1]; omega
  | ⟨2, _⟩ =>
    show win0_2.index T (2 : Fin 3) * 32 ≤ (idx 2).val ∧ (idx 2).val < win0_2.index T (2 : Fin 3) * 32 + 32
    rw [e2]; omega

/-- So the array ends holding the partial sums of products. -/
theorem final2 : (dat0 (F := Ideal) V c).arrAt 2 cfg0.N = cps V c :=
  (dat0 (F := Ideal) V c).arrAt_eq_of_cover 2 (cps V c) (flushed2_eq V c) (cover2)

theorem arr2 (p : Fin 2) (i j : Fin 32) :
    (dat0 (F := Ideal) V c).arrAt 2 cfg0.N (ValueIdx.ix3 p i j) = Cert.Spec.partCp (x3 (V c (Pipeline.arrRef spec0 0))) p i j :=
  congrFun (final2 V c) (ix3 p i j)

end Cert.KernelIdeal.Reg0
end
-- ==== Proof.GlueNs.lean ====
/-
  The Newton–Schulz chain on the kernel program's host side. Between its two regions the kernel program applies to
  its covariance (the buffer main_v16) the same operations the specification's NS lists: the trace (an outlined
  function, inlined), the division by it, the identity, five steps p ↦ ½ (3 p − p p p s), the scaling by the inverse
  square root of the trace. Read stretch by stretch from any contents, the buffer main_v68 after them is NS of main_v16.
-/
import proofs.«174776_j89060441849996_2_alg».proof.Proof.Gen.KernelIdeal.Frame
import proofs.«174776_j89060441849996_2_alg».proof.Proof.Spec
import Idealize.ShloMosaic.Lib.StableHlo.Run

noncomputable section

namespace Cert.KernelIdeal.Glue

open Cert.KernelIdeal Cert.KernelIdeal.Gen Idealize.ShloMosaic Idealize.ShloMosaic.TcCoe Idealize.SL.Sem Idealize.ShloMosaic.StableHlo

/-! ## The last host stretch before the second region, in seven consecutive pieces -/

section Ops
variable {F : FTy → Type} [FloatOps F]

/-- The covariance over its trace, and the identity matrix. -/
abbrev A0 : List (HloOp τ sig (Elt F)) :=
  [ StableHlo.unary main_v17 main_v18 (broadcastInDim S32x32 ![] bcast_S_S32x32 : (⟨S_, .f32⟩ : BufTy).Contents (Elt F) → (⟨S32x32, .f32⟩ : BufTy).Contents (Elt F)),
    StableHlo.binary main_v16 main_v18 main_v19 (Host.divf : (⟨S32x32, .f32⟩ : BufTy).Contents (Elt F) → (⟨S32x32, .f32⟩ : BufTy).Contents (Elt F) → (⟨S32x32, .f32⟩ : BufTy).Contents (Elt F)),
    StableHlo.nullary main_v20 (iotaInDim S32x32 32 0),
    StableHlo.nullary main_v21 (iotaInDim S32x32 32 1),
    StableHlo.nullary main_c (constantI S_ 32 0#32),
    StableHlo.unary main_c main_v22 (broadcastInDim S32x32 ![] bcast_S_S32x32 : (⟨S_, .i32⟩ : BufTy).Contents (Elt F) → (⟨S32x32, .i32⟩ : BufTy).Contents (Elt F)),
    StableHlo.binary main_v20 main_v22 main_v23 (addi : (⟨S32x32, .i32⟩ : BufTy).Contents (Elt F) → (⟨S32x32, .i32⟩ : BufTy).Contents (Elt F) → (⟨S32x32, .i32⟩ : BufTy).Contents (Elt F)),
    StableHlo.binary main_v23 main_v21 main_v24 (cmpi .eq : (⟨S32x32, .i32⟩ : BufTy).Contents (Elt F) → (⟨S32x32, .i32⟩ : BufTy).Contents (Elt F) → (⟨S32x32, .i1⟩ : BufTy).Contents (Elt F)),
    StableHlo.unary main_v24 main_v25 (uitofp .f32 : (⟨S32x32, .i1⟩ : BufTy).Contents (Elt F) → (⟨S32x32, .f32⟩ : BufTy).Contents (Elt F)) ]

/-- The first Newton–Schulz step. -/
abbrev A1 : List (HloOp τ sig (Elt F)) :=
  [ StableHlo.nullary main_cst_4 (constant S_ .f32 0x40400000#32),
    StableHlo.unary main_cst_4 main_v26 (broadcastInDim S32x32 ![] bcast_S_S32x32 : (⟨S_, .f32⟩ : BufTy).Contents (Elt F) → (⟨S32x32, .f32⟩ : BufTy).Contents (Elt F)),
    StableHlo.binary main_v26 main_v25 main_v27 (mulf : (⟨S32x32, .f32⟩ : BufTy).Contents (Elt F) → (⟨S32x32, .f32⟩ : BufTy).Contents (Elt F) → (⟨S32x32, .f32⟩ : BufTy).Contents (Elt F)),
    StableHlo.binary main_v25 main_v25 main_v28 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v28 main_v25 main_v29 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v29 main_v19 main_v30 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v27 main_v30 main_v31 (subf : (⟨S32x32, .f32⟩ : BufTy).Contents (Elt F) → (⟨S32x32, .f32⟩ : BufTy).Contents (Elt F) → (⟨S32x32, .f32⟩ : BufTy).Contents (Elt F)),
    StableHlo.nullary main_cst_5 (constant S_ .f32 0x3F000000#32),
    StableHlo.unary main_cst_5 main_v32 (broadcastInDim S32x32 ![] bcast_S_S32x32 : (⟨S_, .f32⟩ : BufTy).Contents (Elt F) → (⟨S32x32, .f32⟩ : BufTy).Contents (Elt F)),
    StableHlo.binary main_v32 main_v31 main_v33 (mulf : (⟨S32x32, .f32⟩ : BufTy).Contents (Elt F) → (⟨S32x32, .f32⟩ : BufTy).Contents (Elt F) → (⟨S32x32, .f32⟩ : BufTy).Contents (Elt F)) ]

/-- The second Newton–Schulz step. -/
abbrev A2 : List (HloOp τ sig (Elt F)) :=
  [ StableHlo.nullary main_cst_6 (constant S_ .f32 0x40400000#32),
    StableHlo.unary main_cst_6 main_v34 (broadcastInDim S32x32 ![] bcast_S_S32x32 : (⟨S_, .f32⟩ : BufTy).Contents (Elt F) → (⟨S32x32, .f32⟩ : BufTy).Contents (Elt F)),
    StableHlo.binary main_v34 main_v33 main_v35 (mulf : (⟨S32x32, .f32⟩ : BufTy).Contents (Elt F) → (⟨S32x32, .f32⟩ : BufTy).Contents (Elt F) → (⟨S32x32, .f32⟩ : BufTy).Contents (Elt F)),
    StableHlo.binary main_v33 main_v33 main_v36 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v36 main_v33 main_v37 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v37 main_v19 main_v38 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v35 main_v38 main_v39 (subf : (⟨S32x32, .f32⟩ : BufTy).Contents (Elt F) → (⟨S32x32, .f32⟩ : BufTy).Contents (Elt F) → (⟨S32x32, .f32⟩ : BufTy).Contents (Elt F)),
    StableHlo.nullary main_cst_7 (constant S_ .f32 0x3F000000#32),
    StableHlo.unary main_cst_7 main_v40 (broadcastInDim S32x32 ![] bcast_S_S32x32 : (⟨S_, .f32⟩ : BufTy).Contents (Elt F) → (⟨S32x32, .f32⟩ : BufTy).Contents (Elt F)),
    StableHlo.binary main_v40 main_v39 main_v41 (mulf : (⟨S32x32, .f32⟩ : BufTy).Contents (Elt F) → (⟨S32x32, .f32⟩ : BufTy).Contents (Elt F) → (⟨S32x32, .f32⟩ : BufTy).Contents (Elt F)) ]

/-- The third Newton–Schulz step. -/
abbrev A3 : List (HloOp τ sig (Elt F)) :=
  [ StableHlo.nullary main_cst_8 (constant S_ .f32 0x40400000#32),
    StableHlo.unary main_cst_8 main_v42 (broadcastInDim S32x32 ![] bcast_S_S32x32 : (⟨S_, .f32⟩ : BufTy).Contents (Elt F) → (⟨S32x32, .f32⟩ : BufTy).Contents (Elt F)),
    StableHlo.binary main_v42 main_v41 main_v43 (mulf : (⟨S32x32, .f32⟩ : BufTy).Contents (Elt F) → (⟨S32x32, .f32⟩ : BufTy).Contents (Elt F) → (⟨S32x32, .f32⟩ : BufTy).Contents (Elt F)),
    StableHlo.binary main_v41 main_v41 main_v44 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v44 main_v41 main_v45 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v45 main_v19 main_v46 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v43 main_v46 main_v47 (subf : (⟨S32x32, .f32⟩ : BufTy).Contents (Elt F) → (⟨S32x32, .f32⟩ : BufTy).Contents (Elt F) → (⟨S32x32, .f32⟩ : BufTy).Contents (Elt F)),
    StableHlo.nullary main_cst_9 (constant S_ .f32 0x3F000000#32),
    StableHlo.unary main_cst_9 main_v48 (broadcastInDim S32x32 ![] bcast_S_S32x32 : (⟨S_, .f32⟩ : BufTy).Contents (Elt F) → (⟨S32x32, .f32⟩ : BufTy).Contents (Elt F)),
    StableHlo.binary main_v48 main_v47 main_v49 (mulf : (⟨S32x32, .f32⟩ : BufTy).Contents (Elt F) → (⟨S32x32, .f32⟩ : BufTy).Contents (Elt F) → (⟨S32x32, .f32⟩ : BufTy).Contents (Elt F)) ]

/-- The fourth Newton–Schulz step. -/
abbrev A4 : List (HloOp τ sig (Elt F)) :=
  [ StableHlo.nullary main_cst_10 (constant S_ .f32 0x40400000#32),
    StableHlo.unary main_cst_10 main_v50 (broadcastInDim S32x32 ![] bcast_S_S32x32 : (⟨S_, .f32⟩ : BufTy).Contents (Elt F) → (⟨S32x32, .f32⟩ : BufTy).Contents (Elt F)),
    StableHlo.binary main_v50 main_v49 main_v51 (mulf : (⟨S32x32, .f32⟩ : BufTy).Contents (Elt F) → (⟨S32x32, .f32⟩ : BufTy).Contents (Elt F) → (⟨S32x32, .f32⟩ : BufTy).Contents (Elt F)),
    StableHlo.binary main_v49 main_v49 main_v52 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v52 main_v49 main_v53 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v53 main_v19 main_v54 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v51 main_v54 main_v55 (subf : (⟨S32x32, .f32⟩ : BufTy).Contents (Elt F) → (⟨S32x32, .f32⟩ : BufTy).Contents (Elt F) → (⟨S32x32, .f32⟩ : BufTy).Contents (Elt F)),
    StableHlo.nullary main_cst_11 (constant S_ .f32 0x3F000000#32),
    StableHlo.unary main_cst_11 main_v56 (broadcastInDim S32x32 ![] bcast_S_S32x32 : (⟨S_, .f32⟩ : BufTy).Contents (Elt F) → (⟨S32x32, .f32⟩ : BufTy).Contents (Elt F)),
    StableHlo.binary main_v56 main_v55 main_v57 (mulf : (⟨S32x32, .f32⟩ : BufTy).Contents (Elt F) → (⟨S32x32, .f32⟩ : BufTy).Contents (Elt F) → (⟨S32x32, .f32⟩ : BufTy).Contents (Elt F)) ]

/-- The fifth Newton–Schulz step. -/
abbrev A5 : List (HloOp τ sig (Elt F)) :=
  [ StableHlo.nullary main_cst_12 (constant S_ .f32 0x40400000#32),
    StableHlo.unary main_cst_12 main_v58 (broadcastInDim S32x32 ![] bcast_S_S32x32 : (⟨S_, .f32⟩ : BufTy).Contents (Elt F) → (⟨S32x32, .f32⟩ : BufTy).Contents (Elt F)),
    StableHlo.binary main_v58 main_v57 main_v59 (mulf : (⟨S32x32, .f32⟩ : BufTy).Contents (Elt F) → (⟨S32x32, .f32⟩ : BufTy).Contents (Elt F) → (⟨S32x32, .f32⟩ : BufTy).Contents (Elt F)),
    StableHlo.binary main_v57 main_v57 main_v60 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v60 main_v57 main_v61 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v61 main_v19 main_v62 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v59 main_v62 main_v63 (subf : (⟨S32x32, .f32⟩ : BufTy).Contents (Elt F) → (⟨S32x32, .f32⟩ : BufTy).Contents (Elt F) → (⟨S32x32, .f32⟩ : BufTy).Contents (Elt F)),
    StableHlo.nullary main_cst_13 (constant S_ .f32 0x3F000000#32),
    StableHlo.unary main_cst_13 main_v64 (broadcastInDim S32x32 ![] bcast_S_S32x32 : (⟨S_, .f32⟩ : BufTy).Contents (Elt F) → (⟨S32x32, .f32⟩ : BufTy).Contents (Elt F)),
    StableHlo.binary main_v64 main_v63 main_v65 (mulf : (⟨S32x32, .f32⟩ : BufTy).Contents (Elt F) → (⟨S32x32, .f32⟩ : BufTy).Contents (Elt F) → (⟨S32x32, .f32⟩ : BufTy).Contents (Elt F)) ]

/-- The scaling by the inverse square root of the trace, and the seven operations after it (the symmetrised matrix and the two reshaped per-channel arrays). -/
abbrev A6 : List (HloOp τ sig (Elt F)) :=
  [ StableHlo.unary main_v17 main_v66 (Host.rsqrt : (⟨S_, .f32⟩ : BufTy).Contents (Elt F) → (⟨S_, .f32⟩ : BufTy).Contents (Elt F)),
    StableHlo.unary main_v66 main_v67 (broadcastInDim S32x32 ![] bcast_S_S32x32 : (⟨S_, .f32⟩ : BufTy).Contents (Elt F) → (⟨S32x32, .f32⟩ : BufTy).Contents (Elt F)),
    StableHlo.binary main_v65 main_v67 main_v68 (mulf : (⟨S32x32, .f32⟩ : BufTy).Contents (Elt F) → (⟨S32x32, .f32⟩ : BufTy).Contents (Elt F) → (⟨S32x32, .f32⟩ : BufTy).Contents (Elt F)),
    StableHlo.unary main_v68 main_v69 ((transpose S32x32 [1, 0] · transposes_S32x32_S32x32_1_0) : (⟨S32x32, .f32⟩ : BufTy).Contents (Elt F) → (⟨S32x32, .f32⟩ : BufTy).Contents (Elt F)),
    StableHlo.binary main_v68 main_v69 main_v70 (addf : (⟨S32x32, .f32⟩ : BufTy).Contents (Elt F) → (⟨S32x32, .f32⟩ : BufTy).Contents (Elt F) → (⟨S32x32, .f32⟩ : BufTy).Contents (Elt F)),
    StableHlo.nullary main_cst_14 (constant S_ .f32 0x3F000000#32),
    StableHlo.unary main_cst_14 main_v71 (broadcastInDim S32x32 ![] bcast_S_S32x32 : (⟨S_, .f32⟩ : BufTy).Contents (Elt F) → (⟨S32x32, .f32⟩ : BufTy).Contents (Elt F)),
    StableHlo.binary main_v71 main_v70 main_v72 (mulf : (⟨S32x32, .f32⟩ : BufTy).Contents (Elt F) → (⟨S32x32, .f32⟩ : BufTy).Contents (Elt F) → (⟨S32x32, .f32⟩ : BufTy).Contents (Elt F)),
    StableHlo.reshape main_arg1 main_v73 rfl shapeCasts_S1x32x1x1_S32x1,
    StableHlo.reshape main_arg2 main_v74 rfl shapeCasts_S1x32x1x1_S32x1 ]

set_option maxRecDepth 8192 in
/-- The stretch is its seven pieces in order. -/
theorem hostOps1_2_eq : (hostOps1_2 : List (HloOp τ sig (Elt F))) = A0 ++ (A1 ++ (A2 ++ (A3 ++ (A4 ++ (A5 ++ A6))))) := rfl

end Ops

/-! ## The chain as a function of the covariance s and its trace t -/

/-- s over its trace. -/
def snF (s : FVec Ideal S32x32 .f32) (t : FVec Ideal S_ .f32) : FVec Ideal S32x32 .f32 := Host.divf (F := Ideal) s (Cert.Spec.spread bcast_S_S32x32 t)
/-- The iterates from the identity. -/
def q1F (s : FVec Ideal S32x32 .f32) (t : FVec Ideal S_ .f32) : FVec Ideal S32x32 .f32 := Cert.Spec.nsStep bcast_S_S32x32 dot_S32x32_S32x32_S32x32_1_0_0_1_n_n_wf (snF s t) (Cert.Spec.eye bcast_S_S32x32)
def q2F (s : FVec Ideal S32x32 .f32) (t : FVec Ideal S_ .f32) : FVec Ideal S32x32 .f32 := Cert.Spec.nsStep bcast_S_S32x32 dot_S32x32_S32x32_S32x32_1_0_0_1_n_n_wf (snF s t) (q1F s t)
def q3F (s : FVec Ideal S32x32 .f32) (t : FVec Ideal S_ .f32) : FVec Ideal S32x32 .f32 := Cert.Spec.nsStep bcast_S_S32x32 dot_S32x32_S32x32_S32x32_1_0_0_1_n_n_wf (snF s t) (q2F s t)
def q4F (s : FVec Ideal S32x32 .f32) (t : FVec Ideal S_ .f32) : FVec Ideal S32x32 .f32 := Cert.Spec.nsStep bcast_S_S32x32 dot_S32x32_S32x32_S32x32_1_0_0_1_n_n_wf (snF s t) (q3F s t)
def q5F (s : FVec Ideal S32x32 .f32) (t : FVec Ideal S_ .f32) : FVec Ideal S32x32 .f32 := Cert.Spec.nsStep bcast_S_S32x32 dot_S32x32_S32x32_S32x32_1_0_0_1_n_n_wf (snF s t) (q4F s t)
/-- The fifth iterate scaled by the inverse square root of the trace. -/
def chainF (s : FVec Ideal S32x32 .f32) (t : FVec Ideal S_ .f32) : FVec Ideal S32x32 .f32 := mulf (q5F s t) (Cert.Spec.spread bcast_S_S32x32 (Host.rsqrt (F := Ideal) t))

/-- The specification's chain is that function at the trace of s. -/
theorem NS_eq (s : FVec Ideal S32x32 .f32) :
    Cert.Spec.NS h_S_ bcast_S_S32x32 reducesTo_S32x32_S_d0_1 dot_S32x32_S32x32_S32x32_1_0_0_1_n_n_wf s = chainF s (Cert.Spec.trace h_S_ bcast_S_S32x32 reducesTo_S32x32_S_d0_1 s) := rfl

/-! ## The trace's stretch, from any contents -/

set_option maxRecDepth 8192 in
set_option maxHeartbeats 2000000 in
theorem tr_main_v17 (Y : Valuation τ sig (Elt Ideal)) :
    after (hostOps1_1 (F := Ideal)) Y (no_index (Proc.devRef .tc main_v17)) = Cert.Spec.trace h_S_ bcast_S_S32x32 reducesTo_S32x32_S_d0_1 (Y (Proc.devRef .tc main_v16)) := by
  simp only [hostOps1_1]
  after_results_simp
  rfl

set_option maxRecDepth 8192 in
set_option maxHeartbeats 2000000 in
theorem tr_main_v16 (Y : Valuation τ sig (Elt Ideal)) :
    after (hostOps1_1 (F := Ideal)) Y (no_index (Proc.devRef .tc main_v16)) = (Y (Proc.devRef .tc main_v16)) := by
  simp only [hostOps1_1]
  after_results_simp

/-! ## The buffers after each piece, from any contents -/

/-- The contents after the first 1 piece. -/
def u1 (Y : Valuation τ sig (Elt Ideal)) : Valuation τ sig (Elt Ideal) := after (A0 (F := Ideal)) Y

set_option maxRecDepth 8192 in
set_option maxHeartbeats 2000000 in
theorem u1_main_v16 (Y : Valuation τ sig (Elt Ideal)) : u1 Y (no_index (Proc.devRef .tc main_v16)) = (Y (Proc.devRef .tc main_v16)) := by
  unfold u1
  simp only [A0]
  after_results_simp

set_option maxRecDepth 8192 in
set_option maxHeartbeats 2000000 in
theorem u1_main_v17 (Y : Valuation τ sig (Elt Ideal)) : u1 Y (no_index (Proc.devRef .tc main_v17)) = (Y (Proc.devRef .tc main_v17)) := by
  unfold u1
  simp only [A0]
  after_results_simp

set_option maxRecDepth 8192 in
set_option maxHeartbeats 2000000 in
theorem u1_main_v19 (Y : Valuation τ sig (Elt Ideal)) : u1 Y (no_index (Proc.devRef .tc main_v19)) = snF (Y (Proc.devRef .tc main_v16)) (Y (Proc.devRef .tc main_v17)) := by
  unfold u1
  simp only [A0]
  after_results_simp
  rfl

set_option maxRecDepth 8192 in
set_option maxHeartbeats 2000000 in
theorem u1_main_v25 (Y : Valuation τ sig (Elt Ideal)) : u1 Y (no_index (Proc.devRef .tc main_v25)) = Cert.Spec.eye bcast_S_S32x32 := by
  unfold u1
  simp only [A0]
  after_results_simp
  rfl

/-- The contents after the first 2 pieces. -/
def u2 (Y : Valuation τ sig (Elt Ideal)) : Valuation τ sig (Elt Ideal) := after (A1 (F := Ideal)) (u1 Y)

set_option maxRecDepth 8192 in
set_option maxHeartbeats 2000000 in
theorem u2_main_v16 (Y : Valuation τ sig (Elt Ideal)) : u2 Y (no_index (Proc.devRef .tc main_v16)) = (Y (Proc.devRef .tc main_v16)) := by
  unfold u2
  simp only [A1]
  after_results_simp
  simp only [u1_main_v16] <;> rfl

set_option maxRecDepth 8192 in
set_option maxHeartbeats 2000000 in
theorem u2_main_v17 (Y : Valuation τ sig (Elt Ideal)) : u2 Y (no_index (Proc.devRef .tc main_v17)) = (Y (Proc.devRef .tc main_v17)) := by
  unfold u2
  simp only [A1]
  after_results_simp
  simp only [u1_main_v17] <;> rfl

set_option maxRecDepth 8192 in
set_option maxHeartbeats 2000000 in
theorem u2_main_v19 (Y : Valuation τ sig (Elt Ideal)) : u2 Y (no_index (Proc.devRef .tc main_v19)) = snF (Y (Proc.devRef .tc main_v16)) (Y (Proc.devRef .tc main_v17)) := by
  unfold u2
  simp only [A1]
  after_results_simp
  simp only [u1_main_v19] <;> rfl

set_option maxRecDepth 8192 in
set_option maxHeartbeats 2000000 in
theorem u2_main_v33 (Y : Valuation τ sig (Elt Ideal)) : u2 Y (no_index (Proc.devRef .tc main_v33)) = q1F (Y (Proc.devRef .tc main_v16)) (Y (Proc.devRef .tc main_v17)) := by
  unfold u2
  simp only [A1]
  after_results_simp
  simp only [u1_main_v19, u1_main_v25] <;> rfl

/-- The contents after the first 3 pieces. -/
def u3 (Y : Valuation τ sig (Elt Ideal)) : Valuation τ sig (Elt Ideal) := after (A2 (F := Ideal)) (u2 Y)

set_option maxRecDepth 8192 in
set_option maxHeartbeats 2000000 in
theorem u3_main_v16 (Y : Valuation τ sig (Elt Ideal)) : u3 Y (no_index (Proc.devRef .tc main_v16)) = (Y (Proc.devRef .tc main_v16)) := by
  unfold u3
  simp only [A2]
  after_results_simp
  simp only [u2_main_v16] <;> rfl

set_option maxRecDepth 8192 in
set_option maxHeartbeats 2000000 in
theorem u3_main_v17 (Y : Valuation τ sig (Elt Ideal)) : u3 Y (no_index (Proc.devRef .tc main_v17)) = (Y (Proc.devRef .tc main_v17)) := by
  unfold u3
  simp only [A2]
  after_results_simp
  simp only [u2_main_v17] <;> rfl

set_option maxRecDepth 8192 in
set_option maxHeartbeats 2000000 in
theorem u3_main_v19 (Y : Valuation τ sig (Elt Ideal)) : u3 Y (no_index (Proc.devRef .tc main_v19)) = snF (Y (Proc.devRef .tc main_v16)) (Y (Proc.devRef .tc main_v17)) := by
  unfold u3
  simp only [A2]
  after_results_simp
  simp only [u2_main_v19] <;> rfl

set_option maxRecDepth 8192 in
set_option maxHeartbeats 2000000 in
theorem u3_main_v41 (Y : Valuation τ sig (Elt Ideal)) : u3 Y (no_index (Proc.devRef .tc main_v41)) = q2F (Y (Proc.devRef .tc main_v16)) (Y (Proc.devRef .tc main_v17)) := by
  unfold u3
  simp only [A2]
  after_results_simp
  simp only [u2_main_v19, u2_main_v33] <;> rfl

/-- The contents after the first 4 pieces. -/
def u4 (Y : Valuation τ sig (Elt Ideal)) : Valuation τ sig (Elt Ideal) := after (A3 (F := Ideal)) (u3 Y)

set_option maxRecDepth 8192 in
set_option maxHeartbeats 2000000 in
theorem u4_main_v16 (Y : Valuation τ sig (Elt Ideal)) : u4 Y (no_index (Proc.devRef .tc main_v16)) = (Y (Proc.devRef .tc main_v16)) := by
  unfold u4
  simp only [A3]
  after_results_simp
  simp only [u3_main_v16] <;> rfl

set_option maxRecDepth 8192 in
set_option maxHeartbeats 2000000 in
theorem u4_main_v17 (Y : Valuation τ sig (Elt Ideal)) : u4 Y (no_index (Proc.devRef .tc main_v17)) = (Y (Proc.devRef .tc main_v17)) := by
  unfold u4
  simp only [A3]
  after_results_simp
  simp only [u3_main_v17] <;> rfl

set_option maxRecDepth 8192 in
set_option maxHeartbeats 2000000 in
theorem u4_main_v19 (Y : Valuation τ sig (Elt Ideal)) : u4 Y (no_index (Proc.devRef .tc main_v19)) = snF (Y (Proc.devRef .tc main_v16)) (Y (Proc.devRef .tc main_v17)) := by
  unfold u4
  simp only [A3]
  after_results_simp
  simp only [u3_main_v19] <;> rfl

set_option maxRecDepth 8192 in
set_option maxHeartbeats 2000000 in
theorem u4_main_v49 (Y : Valuation τ sig (Elt Ideal)) : u4 Y (no_index (Proc.devRef .tc main_v49)) = q3F (Y (Proc.devRef .tc main_v16)) (Y (Proc.devRef .tc main_v17)) := by
  unfold u4
  simp only [A3]
  after_results_simp
  simp only [u3_main_v19, u3_main_v41] <;> rfl

/-- The contents after the first 5 pieces. -/
def u5 (Y : Valuation τ sig (Elt Ideal)) : Valuation τ sig (Elt Ideal) := after (A4 (F := Ideal)) (u4 Y)

set_option maxRecDepth 8192 in
set_option maxHeartbeats 2000000 in
theorem u5_main_v16 (Y : Valuation τ sig (Elt Ideal)) : u5 Y (no_index (Proc.devRef .tc main_v16)) = (Y (Proc.devRef .tc main_v16)) := by
  unfold u5
  simp only [A4]
  after_results_simp
  simp only [u4_main_v16] <;> rfl

set_option maxRecDepth 8192 in
set_option maxHeartbeats 2000000 in
theorem u5_main_v17 (Y : Valuation τ sig (Elt Ideal)) : u5 Y (no_index (Proc.devRef .tc main_v17)) = (Y (Proc.devRef .tc main_v17)) := by
  unfold u5
  simp only [A4]
  after_results_simp
  simp only [u4_main_v17] <;> rfl

set_option maxRecDepth 8192 in
set_option maxHeartbeats 2000000 in
theorem u5_main_v19 (Y : Valuation τ sig (Elt Ideal)) : u5 Y (no_index (Proc.devRef .tc main_v19)) = snF (Y (Proc.devRef .tc main_v16)) (Y (Proc.devRef .tc main_v17)) := by
  unfold u5
  simp only [A4]
  after_results_simp
  simp only [u4_main_v19] <;> rfl

set_option maxRecDepth 8192 in
set_option maxHeartbeats 2000000 in
theorem u5_main_v57 (Y : Valuation τ sig (Elt Ideal)) : u5 Y (no_index (Proc.devRef .tc main_v57)) = q4F (Y (Proc.devRef .tc main_v16)) (Y (Proc.devRef .tc main_v17)) := by
  unfold u5
  simp only [A4]
  after_results_simp
  simp only [u4_main_v19, u4_main_v49] <;> rfl

/-- The contents after the first 6 pieces. -/
def u6 (Y : Valuation τ sig (Elt Ideal)) : Valuation τ sig (Elt Ideal) := after (A5 (F := Ideal)) (u5 Y)

set_option maxRecDepth 8192 in
set_option maxHeartbeats 2000000 in
theorem u6_main_v16 (Y : Valuation τ sig (Elt Ideal)) : u6 Y (no_index (Proc.devRef .tc main_v16)) = (Y (Proc.devRef .tc main_v16)) := by
  unfold u6
  simp only [A5]
  after_results_simp
  simp only [u5_main_v16] <;> rfl

set_option maxRecDepth 8192 in
set_option maxHeartbeats 2000000 in
theorem u6_main_v17 (Y : Valuation τ sig (Elt Ideal)) : u6 Y (no_index (Proc.devRef .tc main_v17)) = (Y (Proc.devRef .tc main_v17)) := by
  unfold u6
  simp only [A5]
  after_results_simp
  simp only [u5_main_v17] <;> rfl

set_option maxRecDepth 8192 in
set_option maxHeartbeats 2000000 in
theorem u6_main_v65 (Y : Valuation τ sig (Elt Ideal)) : u6 Y (no_index (Proc.devRef .tc main_v65)) = q5F (Y (Proc.devRef .tc main_v16)) (Y (Proc.devRef .tc main_v17)) := by
  unfold u6
  simp only [A5]
  after_results_simp
  simp only [u5_main_v19, u5_main_v57] <;> rfl

/-- The contents after the first 7 pieces. -/
def u7 (Y : Valuation τ sig (Elt Ideal)) : Valuation τ sig (Elt Ideal) := after (A6 (F := Ideal)) (u6 Y)

set_option maxRecDepth 8192 in
set_option maxHeartbeats 2000000 in
theorem u7_main_v16 (Y : Valuation τ sig (Elt Ideal)) : u7 Y (no_index (Proc.devRef .tc main_v16)) = (Y (Proc.devRef .tc main_v16)) := by
  unfold u7
  simp only [A6]
  after_results_simp
  simp only [u6_main_v16] <;> rfl

set_option maxRecDepth 8192 in
set_option maxHeartbeats 2000000 in
theorem u7_main_v68 (Y : Valuation τ sig (Elt Ideal)) : u7 Y (no_index (Proc.devRef .tc main_v68)) = chainF (Y (Proc.devRef .tc main_v16)) (Y (Proc.devRef .tc main_v17)) := by
  unfold u7
  simp only [A6]
  after_results_simp
  simp only [u6_main_v65, u6_main_v17] <;> rfl

/-- The whole stretch's fold is the last piece's contents. -/
theorem after_hostOps1_2 (Y : Valuation τ sig (Elt Ideal)) : after (hostOps1_2 (F := Ideal)) Y = u7 Y := by
  rw [hostOps1_2_eq]
  simp only [after_append]
  rfl

/-! ## At the second region's entry -/

variable (m : (ℓ : Loc nD τ sig) → Buf (Elt Ideal) ℓ) (ρ : Dev nD → PrngReg) (c : Dev nD)

/-- At the second region's entry the buffer main_v68 holds the specification's chain of the buffer main_v16. -/
theorem g_ns : W5 (F := Ideal) m ρ c (Proc.devRef .tc main_v68)
    = Cert.Spec.NS h_S_ bcast_S_S32x32 reducesTo_S32x32_S_d0_1 dot_S32x32_S32x32_S32x32_1_0_0_1_n_n_wf (W5 (F := Ideal) m ρ c (Proc.devRef .tc main_v16)) := by
  show after (hostOps1_2 (F := Ideal)) (W4 (F := Ideal) m ρ c) (Proc.devRef .tc main_v68)
    = Cert.Spec.NS h_S_ bcast_S_S32x32 reducesTo_S32x32_S_d0_1 dot_S32x32_S32x32_S32x32_1_0_0_1_n_n_wf (after (hostOps1_2 (F := Ideal)) (W4 (F := Ideal) m ρ c) (Proc.devRef .tc main_v16))
  rw [after_hostOps1_2, u7_main_v68, u7_main_v16]
  show chainF (after (hostOps1_1 (F := Ideal)) (W3 (F := Ideal) m ρ c) (Proc.devRef .tc main_v16))
      (after (hostOps1_1 (F := Ideal)) (W3 (F := Ideal) m ρ c) (Proc.devRef .tc main_v17))
    = Cert.Spec.NS h_S_ bcast_S_S32x32 reducesTo_S32x32_S_d0_1 dot_S32x32_S32x32_S32x32_1_0_0_1_n_n_wf (after (hostOps1_1 (F := Ideal)) (W3 (F := Ideal) m ρ c) (Proc.devRef .tc main_v16))
  rw [tr_main_v17, tr_main_v16, NS_eq]

end Cert.KernelIdeal.Glue

end
-- ==== Proof.Glue.lean ====
/-
  The kernel program's host operations, read at an index: the reshapes of the arguments and of the result, the mean
  and the covariance formed from the two partial sums, the Newton–Schulz chain, and its symmetrisation.
-/
import proofs.«174776_j89060441849996_2_alg».proof.Proof.Gen.KernelIdeal.Frame
import proofs.«174776_j89060441849996_2_alg».proof.Proof.Spec
import proofs.«174776_j89060441849996_2_alg».proof.Proof.GlueNs
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.KernelIdeal.Glue

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg) (c : Dev nD)

/-- Region 0's two result arrays (the per-core partial sums and partial sums of products) at its exit, and the host
    results at region 1's entry: mean, covariance, Newton–Schulz matrix, its symmetrisation. -/
abbrev pSum : FVec Ideal S2x32x1 .f32 := W2 (F := Ideal) m ρ c (Proc.devRef .tc main_v1_0)
abbrev pCp : FVec Ideal S2x32x32 .f32 := W2 (F := Ideal) m ρ c (Proc.devRef .tc main_v1_1)
abbrev rMean : FVec Ideal S32x1 .f32 := W5 (F := Ideal) m ρ c (Proc.devRef .tc main_v5)
abbrev rSigma : FVec Ideal S32x32 .f32 := W5 (F := Ideal) m ρ c (Proc.devRef .tc main_v16)
abbrev rNs : FVec Ideal S32x32 .f32 := W5 (F := Ideal) m ρ c (Proc.devRef .tc main_v68)
abbrev rSym : FVec Ideal S32x32 .f32 := W5 (F := Ideal) m ρ c (Proc.devRef .tc main_v72)

/-! ## The reshapes of the input and of the result -/

/-- %76: the result, reshaped back from [128, 32, 8192] to [128, 32, 128, 64]. -/
theorem g_out (b : Fin 128) (i : Fin 32) (co : Fin 128) (a : Fin 64) :
    W7 (F := Ideal) m ρ c (Proc.devRef .tc main_v76) (ix4 b i co a)
      = W6 (F := Ideal) m ρ c (Proc.devRef .tc main_v75) (ix3 b i (Cert.Spec.flat co a)) := by
  have e : W7 (F := Ideal) m ρ c (Proc.devRef .tc main_v76)
      = shapeCast S128x32x128x64 (W6 (F := Ideal) m ρ c (Proc.devRef .tc main_v75))
          Facts₀.shapeCasts_S128x32x8192_S128x32x128x64 := by
    dsimp only [W7]; after_results; rfl
  rw [e]
  refine shapeCast_apply _ _ _ _ ?_
  show ((⟨3, ![128, 32, 8192]⟩ : Shape).rowMajor (ix3 b i (Cert.Spec.flat co a))).val
    = ((⟨4, ![128, 32, 128, 64]⟩ : Shape).rowMajor (ix4 b i co a)).val
  rw [Shape.rowMajor_val_four, Shape.rowMajor_val_three]
  show (b.val * 32 + i.val) * 8192 + (co.val * 64 + a.val) = ((b.val * 32 + i.val) * 128 + co.val) * 64 + a.val
  omega

/-- %0: the input with its last two axes merged, at (b, i, f), is the input at (b, i, f / 64, f % 64). -/
theorem g_x3 (b : Fin 128) (i : Fin 32) (f : Fin 8192) :
    W1 (F := Ideal) m ρ c (Proc.devRef .tc main_v0) (ix3 b i f)
      = m ((c.tc : Thread nD τ).loc main_arg0) (ix4 b i ⟨f.val / 64, by omega⟩ ⟨f.val % 64, by omega⟩) := by
  have e : W1 (F := Ideal) m ρ c (Proc.devRef .tc main_v0)
      = shapeCast S128x32x8192 (m ((c.tc : Thread nD τ).loc main_arg0))
          Facts₀.shapeCasts_S128x32x128x64_S128x32x8192 := by
    dsimp only [W1]; after_results; rfl
  rw [e]
  refine shapeCast_apply _ _ _ _ ?_
  show ((⟨4, ![128, 32, 128, 64]⟩ : Shape).rowMajor (ix4 b i (⟨f.val / 64, by omega⟩ : Fin 128) (⟨f.val % 64, by omega⟩ : Fin 64))).val
    = ((⟨3, ![128, 32, 8192]⟩ : Shape).rowMajor (ix3 b i f)).val
  rw [Shape.rowMajor_val_four, Shape.rowMajor_val_three]
  show ((b.val * 32 + i.val) * 128 + f.val / 64) * 64 + f.val % 64 = (b.val * 32 + i.val) * 8192 + f.val
  omega

/-- The merged input is the first region's input window 0: the region leaves it as entered, and no later host
    operation writes it. -/
theorem g_keep0 : W5 (F := Ideal) m ρ c (Proc.devRef .tc main_v0) = W1 (F := Ideal) m ρ c (Proc.devRef .tc main_v0) :=
  calc W5 (F := Ideal) m ρ c (Proc.devRef .tc main_v0)
    _ = W4 (F := Ideal) m ρ c (Proc.devRef .tc main_v0) := StableHlo.after_of_forall_not_mem (b := Proc.devRef .tc main_v0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v0) := StableHlo.after_of_forall_not_mem (b := Proc.devRef .tc main_v0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 (F := Ideal) m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 (F := Ideal) m ρ) c).arrAt 0 cfg0.N := W2_arr (F := Ideal) m ρ c (0 : Fin cfg0.W)
    _ = (dat0 (V1 (F := Ideal) m ρ) c).A 0 := (dat0 (V1 (F := Ideal) m ρ) c).arrAt_in 0 (by decide) cfg0.N
    _ = W1 (F := Ideal) m ρ c (Proc.devRef .tc main_v0) := rfl

/-! ## The scale and the shift: reshapes of the arguments, which nothing writes -/

theorem W4_arg1 : W4 (F := Ideal) m ρ c (Proc.devRef .tc main_arg1) = m ((c.tc : Thread nD τ).loc main_arg1) :=
  calc W4 (F := Ideal) m ρ c (Proc.devRef .tc main_arg1)
    _ = W3 (F := Ideal) m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 (F := Ideal) m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_arg1) := W2_of_ne (F := Ideal) m ρ c main_arg1 (by decide)
    _ = W0 (F := Ideal) m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg1) := rfl

theorem W4_arg2 : W4 (F := Ideal) m ρ c (Proc.devRef .tc main_arg2) = m ((c.tc : Thread nD τ).loc main_arg2) :=
  calc W4 (F := Ideal) m ρ c (Proc.devRef .tc main_arg2)
    _ = W3 (F := Ideal) m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 (F := Ideal) m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_arg2) := W2_of_ne (F := Ideal) m ρ c main_arg2 (by decide)
    _ = W0 (F := Ideal) m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg2) := rfl

set_option maxHeartbeats 4000000 in
theorem e_v73 : W5 (F := Ideal) m ρ c (Proc.devRef .tc main_v73)
    = shapeCast S32x1 (m ((c.tc : Thread nD τ).loc main_arg1)) Facts₀.shapeCasts_S1x32x1x1_S32x1 := by
  refine Eq.trans ?_ (congrArg (fun v => shapeCast S32x1 v Facts₀.shapeCasts_S1x32x1x1_S32x1) (W4_arg1 m ρ c))
  dsimp only [W5]
  after_results_simp
  rfl

theorem g_gamma (i : Fin 32) :
    W5 (F := Ideal) m ρ c (Proc.devRef .tc main_v73) (ix2 i 0) = m ((c.tc : Thread nD τ).loc main_arg1) (ix4 0 i 0 0) := by
  refine (congrFun (e_v73 m ρ c) _).trans ?_
  refine shapeCast_apply _ _ _ _ ?_
  show ((⟨4, ![1, 32, 1, 1]⟩ : Shape).rowMajor (ix4 (0 : Fin 1) i (0 : Fin 1) (0 : Fin 1))).val
    = ((⟨2, ![32, 1]⟩ : Shape).rowMajor (ix2 i (0 : Fin 1))).val
  rw [Shape.rowMajor_val_four, Shape.rowMajor_val_two]
  show ((0 * 32 + i.val) * 1 + 0) * 1 + 0 = i.val * 1 + 0
  omega

set_option maxHeartbeats 4000000 in
theorem e_v74 : W5 (F := Ideal) m ρ c (Proc.devRef .tc main_v74)
    = shapeCast S32x1 (m ((c.tc : Thread nD τ).loc main_arg2)) Facts₀.shapeCasts_S1x32x1x1_S32x1 := by
  refine Eq.trans ?_ (congrArg (fun v => shapeCast S32x1 v Facts₀.shapeCasts_S1x32x1x1_S32x1) (W4_arg2 m ρ c))
  dsimp only [W5]
  after_results_simp
  rfl

theorem g_beta (i : Fin 32) :
    W5 (F := Ideal) m ρ c (Proc.devRef .tc main_v74) (ix2 i 0) = m ((c.tc : Thread nD τ).loc main_arg2) (ix4 0 i 0 0) := by
  refine (congrFun (e_v74 m ρ c) _).trans ?_
  refine shapeCast_apply _ _ _ _ ?_
  show ((⟨4, ![1, 32, 1, 1]⟩ : Shape).rowMajor (ix4 (0 : Fin 1) i (0 : Fin 1) (0 : Fin 1))).val
    = ((⟨2, ![32, 1]⟩ : Shape).rowMajor (ix2 i (0 : Fin 1))).val
  rw [Shape.rowMajor_val_four, Shape.rowMajor_val_two]
  show ((0 * 32 + i.val) * 1 + 0) * 1 + 0 = i.val * 1 + 0
  omega

/-! ## The mean: the two partial sums added, over n -/

theorem reduce2_apply_1 (x : FVec Ideal S2x32x1 .f32) (i : Fin 32) :
    Host.reduceAdd (F := Ideal) x (constant (F := Ideal) S_ .f32 0x00000000#32) Facts₀.reducesTo_S2x32x1_S32x1_d0
      Facts₀.h_S_ (ix2 i 0) = x (ix3 0 i 0) + x (ix3 1 i 0) := by
  have hR : Shape.Reduces S2x32x1 [0] S32x1 := by decide
  rw [hostReduceAdd_apply, Ideal.hostReduceAdd_single _ hR]
  have h0 : constant (F := Ideal) S_ .f32 0x00000000#32 (Shape.Idx.first Facts₀.h_S_) = (0 : EReal) :=
    Ideal.ofBits_zero_f32
  rw [h0, zero_add]
  refine (Fin.sum_univ_two (fun k : Fin 2 => x (hR.lift (ix2 i 0) k))).trans ?_
  show x _ + x _ = x _ + x _
  congr 1 <;> congr 1 <;> (funext a; fin_cases a <;> rfl)

theorem reduce2_apply_32 (x : FVec Ideal S2x32x32 .f32) (i j : Fin 32) :
    Host.reduceAdd (F := Ideal) x (constant (F := Ideal) S_ .f32 0x00000000#32) Facts₀.reducesTo_S2x32x32_S32x32_d0
      Facts₀.h_S_ (ix2 i j) = x (ix3 0 i j) + x (ix3 1 i j) := by
  have hR : Shape.Reduces S2x32x32 [0] S32x32 := by decide
  rw [hostReduceAdd_apply, Ideal.hostReduceAdd_single _ hR]
  have h0 : constant (F := Ideal) S_ .f32 0x00000000#32 (Shape.Idx.first Facts₀.h_S_) = (0 : EReal) :=
    Ideal.ofBits_zero_f32
  rw [h0, zero_add]
  refine (Fin.sum_univ_two (fun k : Fin 2 => x (hR.lift (ix2 i j) k))).trans ?_
  show x _ + x _ = x _ + x _
  congr 1 <;> congr 1 <;> (funext a; fin_cases a <;> rfl)

theorem W5_W3_v5 : W5 (F := Ideal) m ρ c (Proc.devRef .tc main_v5) = W3 (F := Ideal) m ρ c (Proc.devRef .tc main_v5) :=
  calc W5 (F := Ideal) m ρ c (Proc.devRef .tc main_v5)
    _ = W4 (F := Ideal) m ρ c (Proc.devRef .tc main_v5) := StableHlo.after_of_forall_not_mem (b := Proc.devRef .tc main_v5) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v5) := StableHlo.after_of_forall_not_mem (b := Proc.devRef .tc main_v5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem e_v5 : (W3 (F := Ideal) m ρ c (Proc.devRef .tc main_v5) : FVec Ideal S32x1 .f32)
    = Host.divf (F := Ideal)
        (Host.reduceAdd (F := Ideal) (pSum m ρ c)
          (constant (F := Ideal) S_ .f32 0x00000000#32) Facts₀.reducesTo_S2x32x1_S32x1_d0 Facts₀.h_S_)
        (broadcastInDim S32x1 ![] Facts₀.bcast_S_S32x1 (constant (F := Ideal) S_ .f32 0x49800000#32)) := by
  dsimp only [W3, pSum]; after_results; try rfl

theorem g_mean (i : Fin 32) :
    rMean m ρ c (ix2 i 0) = Ideal.div (pSum m ρ c (ix3 0 i 0) + pSum m ρ c (ix3 1 i 0)) Cert.Spec.NN := by
  refine (congrFun ((W5_W3_v5 m ρ c).trans (e_v5 m ρ c)) _).trans ?_
  show Ideal.div (Host.reduceAdd (F := Ideal) (pSum m ρ c)
          (constant (F := Ideal) S_ .f32 0x00000000#32) Facts₀.reducesTo_S2x32x1_S32x1_d0 Facts₀.h_S_ (ix2 i 0))
        (broadcastInDim S32x1 ![] Facts₀.bcast_S_S32x1 (constant (F := Ideal) S_ .f32 0x49800000#32) (ix2 i 0)) = _
  rw [reduce2_apply_1, broadcastInDim_scalar_apply]
  rfl

/-! ## The covariance: Σ x xᵀ − n μ μᵀ over n − 1 -/

theorem sc_32 (μ : FVec Ideal S32x1 .f32) (i : Fin 32) :
    shapeCast S32 μ Facts₀.shapeCasts_S32x1_S32 (ix1 i) = μ (ix2 i 0) := by
  refine shapeCast_apply _ _ _ _ ?_
  show ((⟨2, ![32, 1]⟩ : Shape).rowMajor (ix2 i (0 : Fin 1))).val = ((⟨1, ![32]⟩ : Shape).rowMajor (ix1 i)).val
  rw [Shape.rowMajor_val_two, Shape.rowMajor_val_one]
  show i.val * 1 + 0 = i.val
  omega

/-- A [32] vector spread down the columns: entry (i, j) is entry i. -/
theorem bc_row (v : FVec Ideal S32 .f32) (i j : Fin 32) :
    broadcastInDim S32x32 ![0, 1] Facts₀.bcast_S32x1_S32x32_0_1
      (broadcastInDim S32x1 ![0] Facts₀.bcast_S32_S32x1_0 v) (ix2 i j) = v (ix1 i) := by
  refine (broadcastInDim_apply _ _ _ (ix2 i j) (ix2 i (0 : Fin 1)) ?_).trans
    (broadcastInDim_apply _ _ _ (ix2 i (0 : Fin 1)) (ix1 i) ?_)
  · intro a; fin_cases a <;> rfl
  · intro a; fin_cases a; rfl

/-- A [32] vector spread along the rows: entry (i, j) is entry j. -/
theorem bc_col (v : FVec Ideal S32 .f32) (i j : Fin 32) :
    broadcastInDim S32x32 ![0, 1] Facts₀.bcast_S1x32_S32x32_0_1
      (broadcastInDim S1x32 ![1] Facts₀.bcast_S32_S1x32_1 v) (ix2 i j) = v (ix1 j) := by
  refine (broadcastInDim_apply _ _ _ (ix2 i j) (ix2 (0 : Fin 1) j) ?_).trans
    (broadcastInDim_apply _ _ _ (ix2 (0 : Fin 1) j) (ix1 j) ?_)
  · intro a; fin_cases a <;> rfl
  · intro a; fin_cases a; rfl

/-- The host operations from the partial sums of products x and the mean μ to the covariance. -/
def sigmaOps (x : FVec Ideal S2x32x32 .f32) (μ : FVec Ideal S32x1 .f32) : FVec Ideal S32x32 .f32 :=
  Host.divf (F := Ideal)
    (subf
      (Host.reduceAdd (F := Ideal) x (constant (F := Ideal) S_ .f32 0x00000000#32)
        Facts₀.reducesTo_S2x32x32_S32x32_d0 Facts₀.h_S_)
      (mulf (broadcastInDim S32x32 ![] Facts₀.bcast_S_S32x32 (constant (F := Ideal) S_ .f32 0x49800000#32))
        (mulf
          (broadcastInDim S32x32 ![0, 1] Facts₀.bcast_S32x1_S32x32_0_1
            (broadcastInDim S32x1 ![0] Facts₀.bcast_S32_S32x1_0 (shapeCast S32 μ Facts₀.shapeCasts_S32x1_S32)))
          (broadcastInDim S32x32 ![0, 1] Facts₀.bcast_S1x32_S32x32_0_1
            (broadcastInDim S1x32 ![1] Facts₀.bcast_S32_S1x32_1 (shapeCast S32 μ Facts₀.shapeCasts_S32x1_S32))))))
    (broadcastInDim S32x32 ![] Facts₀.bcast_S_S32x32 (constant (F := Ideal) S_ .f32 0x497FFFF0#32))

theorem sigmaOps_apply (x : FVec Ideal S2x32x32 .f32) (μ : FVec Ideal S32x1 .f32) (i j : Fin 32) :
    sigmaOps x μ (ix2 i j)
      = Ideal.div ((x (ix3 0 i j) + x (ix3 1 i j)) - Cert.Spec.NN * (μ (ix2 i 0) * μ (ix2 j 0))) Cert.Spec.N1 := by
  show Ideal.div
      (Host.reduceAdd (F := Ideal) x (constant (F := Ideal) S_ .f32 0x00000000#32)
          Facts₀.reducesTo_S2x32x32_S32x32_d0 Facts₀.h_S_ (ix2 i j)
        - broadcastInDim S32x32 ![] Facts₀.bcast_S_S32x32 (constant (F := Ideal) S_ .f32 0x49800000#32) (ix2 i j)
          * (broadcastInDim S32x32 ![0, 1] Facts₀.bcast_S32x1_S32x32_0_1
                (broadcastInDim S32x1 ![0] Facts₀.bcast_S32_S32x1_0 (shapeCast S32 μ Facts₀.shapeCasts_S32x1_S32))
                (ix2 i j)
            * broadcastInDim S32x32 ![0, 1] Facts₀.bcast_S1x32_S32x32_0_1
                (broadcastInDim S1x32 ![1] Facts₀.bcast_S32_S1x32_1 (shapeCast S32 μ Facts₀.shapeCasts_S32x1_S32))
                (ix2 i j)))
      (broadcastInDim S32x32 ![] Facts₀.bcast_S_S32x32 (constant (F := Ideal) S_ .f32 0x497FFFF0#32) (ix2 i j)) = _
  rw [reduce2_apply_32, bc_row, bc_col, sc_32, sc_32, broadcastInDim_scalar_apply, broadcastInDim_scalar_apply]
  rfl

theorem W5_W3_v16 : W5 (F := Ideal) m ρ c (Proc.devRef .tc main_v16) = W3 (F := Ideal) m ρ c (Proc.devRef .tc main_v16) :=
  calc W5 (F := Ideal) m ρ c (Proc.devRef .tc main_v16)
    _ = W4 (F := Ideal) m ρ c (Proc.devRef .tc main_v16) := StableHlo.after_of_forall_not_mem (b := Proc.devRef .tc main_v16) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v16) := StableHlo.after_of_forall_not_mem (b := Proc.devRef .tc main_v16) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 4000000 in
theorem e_v16 : (W3 (F := Ideal) m ρ c (Proc.devRef .tc main_v16) : FVec Ideal S32x32 .f32)
    = sigmaOps (pCp m ρ c) (W3 (F := Ideal) m ρ c (Proc.devRef .tc main_v5)) := by
  unfold sigmaOps
  dsimp only [W3, pCp]; after_results_simp; try rfl

theorem g_sigma (i j : Fin 32) :
    rSigma m ρ c (ix2 i j)
      = Ideal.div ((pCp m ρ c (ix3 0 i j) + pCp m ρ c (ix3 1 i j))
          - Cert.Spec.NN * (rMean m ρ c (ix2 i 0) * rMean m ρ c (ix2 j 0))) Cert.Spec.N1 := by
  have e : rSigma m ρ c = sigmaOps (pCp m ρ c) (rMean m ρ c) :=
    ((W5_W3_v16 m ρ c).trans (e_v16 m ρ c)).trans (congrArg (sigmaOps (pCp m ρ c)) (W5_W3_v5 m ρ c).symm)
  exact (congrFun e (ix2 i j)).trans (sigmaOps_apply _ _ i j)

/-! ## The symmetrisation ½ (P + Pᵀ) -/

/-- The host operations from the Newton–Schulz matrix p to its symmetrisation. -/
def symOps (p : FVec Ideal S32x32 .f32) : FVec Ideal S32x32 .f32 :=
  mulf (broadcastInDim S32x32 ![] Facts₀.bcast_S_S32x32 (constant (F := Ideal) S_ .f32 0x3F000000#32))
    (addf p (transpose S32x32 [1, 0] p Facts₀.transposes_S32x32_S32x32_1_0))

theorem symOps_apply (p : FVec Ideal S32x32 .f32) (i j : Fin 32) :
    symOps p (ix2 i j) = Cert.Spec.HALF * (p (ix2 i j) + p (ix2 j i)) := by
  show broadcastInDim S32x32 ![] Facts₀.bcast_S_S32x32 (constant (F := Ideal) S_ .f32 0x3F000000#32) (ix2 i j)
      * (p (ix2 i j) + transpose S32x32 [1, 0] p Facts₀.transposes_S32x32_S32x32_1_0 (ix2 i j)) = _
  rw [broadcastInDim_scalar_apply, transpose_apply [1, 0] p _ (ix2 i j) (ix2 j i) (by intro b; fin_cases b <;> rfl)]
  rfl

set_option maxRecDepth 8192 in
set_option maxHeartbeats 2000000 in
/-- After the last piece of the stretch, from any contents: the buffer main_v72 is the symmetrisation of main_v68. -/
theorem u7_sym (Y : Valuation τ sig (Elt Ideal)) :
    (u7 Y (Proc.devRef .tc main_v72) : FVec Ideal S32x32 .f32) = symOps (u7 Y (Proc.devRef .tc main_v68)) := by
  unfold u7 symOps
  generalize u6 Y = Z
  simp only [A6]
  after_results
  try rfl

theorem g_sym (i j : Fin 32) :
    rSym m ρ c (ix2 i j) = Cert.Spec.HALF * (rNs m ρ c (ix2 i j) + rNs m ρ c (ix2 j i)) := by
  have e : rSym m ρ c = symOps (rNs m ρ c) := by
    show (after (hostOps1_2 (F := Ideal)) (W4 (F := Ideal) m ρ c) (Proc.devRef .tc main_v72) : FVec Ideal S32x32 .f32)
      = symOps (after (hostOps1_2 (F := Ideal)) (W4 (F := Ideal) m ρ c) (Proc.devRef .tc main_v68))
    rw [after_hostOps1_2]
    exact u7_sym _
  exact (congrFun e (ix2 i j)).trans (symOps_apply _ i j)

end Cert.KernelIdeal.Glue

end
-- ==== Proof.KerValue.lean ====
/-
  The idealized kernel's result array as one function of the three arguments: entry (b, i, co, a) is the
  specification's kernel-side formula at (b, i, 64 co + a) of the input with its last two axes merged.
  The pieces: the last host operation is the reshape back to four axes; the second kernel leaves every row of its
  output whitened by the operands it is entered with; those operands are read off the host operations between the two
  kernels; and the first kernel's two outputs are the per-core partial sums of x and of x xᵀ.
-/
import proofs.«174776_j89060441849996_2_alg».proof.Proof.KerCombine
import proofs.«174776_j89060441849996_2_alg».proof.Proof.Reg0Arr
import proofs.«174776_j89060441849996_2_alg».proof.Proof.Glue
import proofs.«174776_j89060441849996_2_alg».proof.Proof.GlueNs
import proofs.«174776_j89060441849996_2_alg».proof.Proof.RefValue

set_option maxRecDepth 16384

noncomputable section

namespace Cert.KernelIdeal.KerValue

open Idealize.ShloMosaic Idealize.ShloMosaic.TcCoe Idealize.ShloMosaic.ValueIdx Cert.KernelIdeal Cert.KernelIdeal.Gen Cert.Spec
open scoped BigOperators

/-- The 4-d input by coordinates, and a [1, 32, 1, 1] parameter as a function of the channel (the same readers the
    reference's value uses). -/
local notation "x4" => Cert.ReferenceIdeal.RefValue.x4
local notation "ch" => Cert.ReferenceIdeal.RefValue.ch

variable (m : (ℓ : Loc nD τ sig) → Buf (Elt Ideal) ℓ) (ρ : Dev nD → PrngReg) (c : Dev nD)

theorem value :
    W7 (F := Ideal) m ρ c (Proc.devRef .tc main_v76) = fun idx =>
      outK h_S_ bcast_S_S32x32 reducesTo_S32x32_S_d0_1 dot_S32x32_S32x32_S32x32_1_0_0_1_n_n_wf
        (merge (x4 (m ((c.tc : Thread nD τ).loc main_arg0)))) (ch (m ((c.tc : Thread nD τ).loc main_arg1))) (ch (m ((c.tc : Thread nD τ).loc main_arg2)))
        (idx 0) (idx 1) (flat (idx 2) (idx 3)) := by
  funext idx
  obtain ⟨b, i, co, a, rfl⟩ : ∃ (b : Fin 128) (i : Fin 32) (co : Fin 128) (a : Fin 64), idx = ix4 b i co a :=
    ⟨idx 0, idx 1, idx 2, idx 3, eq_ix4 idx⟩
  have hX : ∀ (b : Fin 128) (i : Fin 32) (f : Fin 8192),
      W1 (F := Ideal) m ρ c (Proc.devRef .tc main_v0) (ix3 b i f) = merge (x4 (m ((c.tc : Thread nD τ).loc main_arg0))) b i f :=
    fun b i f => Glue.g_x3 m ρ c b i f
  have hx3 : Reg0.x3 (V1 (F := Ideal) m ρ c (Pipeline.arrRef spec0 0)) = merge (x4 (m ((c.tc : Thread nD τ).loc main_arg0))) :=
    funext fun b => funext fun i => funext fun f => hX b i f
  rw [Glue.g_out m ρ c b i co a]
  rw [show W6 (F := Ideal) m ρ c (Proc.devRef .tc main_v75) = (dat1 (F := Ideal) (V5 m ρ) c).arrAt 5 cfg1.N from W6_arr m ρ c 5]
  rw [Reg1.final5]
  show Reg1.arrOutC _ _ _ _ _ b i (flat co a) = _
  refine combine _ _ _ _ _ _ _ _ (Glue.rMean m ρ c) (Glue.rSigma m ρ c) (Glue.rNs m ρ c) (Glue.rSym m ρ c) _ _
    (Glue.pSum m ρ c) (Glue.pCp m ρ c)
    (fun b i f => ?_) (fun p i => ?_) (fun p i j => ?_) (Glue.g_mean m ρ c) (Glue.g_sigma m ρ c) (Glue.g_ns m ρ c) (Glue.g_sym m ρ c)
    (Glue.g_gamma m ρ c) (Glue.g_beta m ρ c) b i (flat co a)
  · show W5 (F := Ideal) m ρ c (Proc.devRef .tc main_v0) (ix3 b i f) = _
    rw [Glue.g_keep0 m ρ c]; exact hX b i f
  · show W2 (F := Ideal) m ρ c (Proc.devRef .tc main_v1_0) (ix3 p i (0 : Fin 1)) = _
    rw [show W2 (F := Ideal) m ρ c (Proc.devRef .tc main_v1_0) = (dat0 (F := Ideal) (V1 m ρ) c).arrAt 1 cfg0.N from W2_arr m ρ c 1,
      Reg0.arr1, hx3]
  · show W2 (F := Ideal) m ρ c (Proc.devRef .tc main_v1_1) (ix3 p i j) = _
    rw [show W2 (F := Ideal) m ρ c (Proc.devRef .tc main_v1_1) = (dat0 (F := Ideal) (V1 m ρ) c).arrAt 2 cfg0.N from W2_arr m ρ c 2,
      Reg0.arr2, hx3]

end Cert.KernelIdeal.KerValue

end
-- ==== Proof.lean ====
/-
  The certificate's claim.

  Both programs whiten the 32 channels of x[128, 32, 128, 64] and finish with · γ + β.  The word-level kernel and
  its idealization run and keep their arguments (their frames); the idealization rewrote nothing.  At the ideal
  instance the kernel's result is, entry by entry, the symmetrised whitening matrix of the one-pass covariance applied
  from the left to the centred data; the reference's is the centred data applied from the right to the whitening matrix
  of the two-pass covariance.  The precondition makes every input entry a real number; on real inputs the two
  covariances are one real symmetric matrix, its whitening matrix is symmetric, and the two results are equal.
-/
import proofs.«174776_j89060441849996_2_alg».proof.Defs
import proofs.«174776_j89060441849996_2_alg».proof.Proof.Gen.Kernel
import proofs.«174776_j89060441849996_2_alg».proof.Proof.Gen.Kernel.Frame
import proofs.«174776_j89060441849996_2_alg».proof.Proof.Gen.KernelIdeal
import proofs.«174776_j89060441849996_2_alg».proof.Proof.Gen.KernelIdeal.Frame
import proofs.«174776_j89060441849996_2_alg».proof.Proof.Gen.ReferenceIdeal
import proofs.«174776_j89060441849996_2_alg».proof.Proof.Gen.Pre_finite_inputs
import proofs.«174776_j89060441849996_2_alg».proof.Proof.KerRun
import proofs.«174776_j89060441849996_2_alg».proof.Proof.RefValue
import proofs.«174776_j89060441849996_2_alg».proof.Proof.Finite
import proofs.«174776_j89060441849996_2_alg».proof.Proof.Assemble
import proofs.«174776_j89060441849996_2_alg».proof.Proof.KerValue

noncomputable section

namespace Cert.Proof

open Idealize.ShloMosaic Idealize.ShloMosaic.TcCoe Idealize.SL.Sem
open Cert.ReferenceIdeal.RefValue (x4 ch)

theorem frame_k : Cert.frame_Kernel := fun m ρ _ => Cert.Kernel.Gen.frame m ρ
theorem frame_ki : Cert.frame_KernelIdeal := fun m ρ _ => Cert.KernelIdeal.Gen.frame m ρ
/-- The reference's frame: its run with the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- At the ideal instance the kernel's result array and the reference's, of arguments that agree and are finite, are
    one array. -/
theorem algebraic : Cert.algebraic_KernelIdeal_ReferenceIdeal := by
  intro m ρ m' ρ' hpre hagree
  refine ⟨fun c => Cert.KernelIdeal.Gen.W7 (F := Ideal) m ρ c (Proc.devRef .tc Cert.KernelIdeal.main_v76),
    Cert.KernelIdeal.Gen.run_result (F := Ideal) m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  refine Eq.trans ?_ (Cert.KernelIdeal.KerValue.value m ρ c).symm
  exact (Cert.Spec.outK_eq_outR _ _ _ _
    (x4 (m ((c.tc : Thread Cert.KernelIdeal.nD Cert.KernelIdeal.τ).loc Cert.KernelIdeal.main_arg0)))
    (Cert.Finite.real_of_pre _ _ _ (hpre c))
    (ch (m ((c.tc : Thread Cert.KernelIdeal.nD Cert.KernelIdeal.τ).loc Cert.KernelIdeal.main_arg1)))
    (ch (m ((c.tc : Thread Cert.KernelIdeal.nD Cert.KernelIdeal.τ).loc Cert.KernelIdeal.main_arg2)))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
